-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x4000000 : Shape := ⟨2, ![2, 4000000]⟩
abbrev S4000000 : Shape := ⟨1, ![4000000]⟩
abbrev S5x2x16 : Shape := ⟨3, ![5, 2, 16]⟩
abbrev S16 : Shape := ⟨1, ![16]⟩
abbrev S5x16x16 : Shape := ⟨3, ![5, 16, 16]⟩
abbrev S16x1 : Shape := ⟨2, ![16, 1]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S4000000 : S_.BroadcastsInDim S4000000 (![] : Fin 0 → Fin S4000000.rank)
  reducesTo_S4000000_S_d0 : S4000000.ReducesTo [0] S_
  bcast_S_S5x2x16 : S_.BroadcastsInDim S5x2x16 (![] : Fin 0 → Fin S5x2x16.rank)
  reducesTo_S5x2x16_S_d0_1_2 : S5x2x16.ReducesTo [0, 1, 2] S_
  bcast_S_S16 : S_.BroadcastsInDim S16 (![] : Fin 0 → Fin S16.rank)
  reducesTo_S16_S_d0 : S16.ReducesTo [0] S_
  bcast_S_S5x16x16 : S_.BroadcastsInDim S5x16x16 (![] : Fin 0 → Fin S5x16x16.rank)
  reducesTo_S5x16x16_S_d0_1_2 : S5x16x16.ReducesTo [0, 1, 2] S_
  bcast_S_S16x1 : S_.BroadcastsInDim S16x1 (![] : Fin 0 → Fin S16x1.rank)
  reducesTo_S16x1_S_d0_1 : S16x1.ReducesTo [0, 1] S_

variable [Facts]

def fn_part1 {F : FTy → Type} [FloatOps F] (main_arg5 : FVec F S5x16x16 .f32) (main_arg6 : FVec F S16 .f32) (main_arg7 : FVec F S16x1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S5x16x16 .f32 := Host.absf main_arg5
  let main_cst_6 : FVec F S_ .f32 := constant S_ .f32 0x7F800000#32
  let main_v20 : FVec F S5x16x16 .f32 := broadcastInDim S5x16x16 ![] bcast_S_S5x16x16 main_cst_6
  let main_v21 : IVec S5x16x16 1 := cmpf .olt main_v19 main_v20
  let main_c_7 : IVec S_ 1 := constantI S_ 1 1#1
  let main_v22 : IVec S_ 1 := (fun x v => Host.reduce IntOp.andi x v reducesTo_S5x16x16_S_d0_1_2 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x1 .f32 := Host.absf main_arg7
  let main_cst_10 : FVec F S_ .f32 := constant S_ .f32 0x7F800000#32
  let main_v30 : FVec F S16x1 .f32 := broadcastInDim S16x1 ![] bcast_S_S16x1 main_cst_10
  let main_v31 : IVec S16x1 1 := cmpf .olt main_v29 main_v30
  let main_c_11 : IVec S_ 1 := constantI S_ 1 1#1
  let main_v32 : IVec S_ 1 := (fun x v => Host.reduce IntOp.andi x v reducesTo_S16x1_S_d0_1 h_S_) main_v31 main_c_11
  let main_v33 : IVec S_ 1 := andi main_v28 main_v32
  main_v33

def fn {F : FTy → Type} [FloatOps F] (main_arg0 : FVec F S500000x2 .f32) (main_arg1 : IVec S2x4000000 32) (main_arg2 : FVec F S4000000 .f32) (main_arg3 : FVec F S5x2x16 .f32) (main_arg4 : FVec F S16 .f32) (main_arg5 : FVec F S5x16x16 .f32) (main_arg6 : FVec F S16 .f32) (main_arg7 : FVec F S16x1 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S4000000 .f32 := Host.absf main_arg2
  let main_cst_0 : FVec F S_ .f32 := constant S_ .f32 0x7F800000#32
  let main_v5 : FVec F S4000000 .f32 := broadcastInDim S4000000 ![] bcast_S_S4000000 main_cst_0
  let main_v6 : IVec S4000000 1 := cmpf .olt main_v4 main_v5
  let main_c_1 : IVec S_ 1 := constantI S_ 1 1#1
  let main_v7 : IVec S_ 1 := (fun x v => Host.reduce IntOp.andi x v reducesTo_S4000000_S_d0 h_S_) main_v6 main_c_1
  let main_v8 : IVec S_ 1 := andi main_v3 main_v7
  let main_v9 : FVec F S5x2x16 .f32 := Host.absf main_arg3
  let main_cst_2 : FVec F S_ .f32 := constant S_ .f32 0x7F800000#32
  let main_v10 : FVec F S5x2x16 .f32 := broadcastInDim S5x2x16 ![] bcast_S_S5x2x16 main_cst_2
  let main_v11 : IVec S5x2x16 1 := cmpf .olt main_v9 main_v10
  let main_c_3 : IVec S_ 1 := constantI S_ 1 1#1
  let main_v12 : IVec S_ 1 := (fun x v => Host.reduce IntOp.andi x v reducesTo_S5x2x16_S_d0_1_2 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S500000x2 : Shape := ⟨2, ![500000, 2]⟩
abbrev S2x4000000 : Shape := ⟨2, ![2, 4000000]⟩
abbrev S4000000 : Shape := ⟨1, ![4000000]⟩
abbrev S5x2x16 : Shape := ⟨3, ![5, 2, 16]⟩
abbrev S16 : Shape := ⟨1, ![16]⟩
abbrev S5x16x16 : Shape := ⟨3, ![5, 16, 16]⟩
abbrev S16x1 : Shape := ⟨2, ![16, 1]⟩
abbrev S1x4000000 : Shape := ⟨2, ![1, 4000000]⟩
abbrev S_ : Shape := ⟨0, ![]⟩
abbrev S500000 : Shape := ⟨1, ![500000]⟩
abbrev S4000000x1 : Shape := ⟨2, ![4000000, 1]⟩
abbrev S4000000x2 : Shape := ⟨2, ![4000000, 2]⟩
abbrev S500000x10 : Shape := ⟨2, ![500000, 10]⟩
abbrev S10x16 : Shape := ⟨2, ![10, 16]⟩
abbrev S1x16 : Shape := ⟨2, ![1, 16]⟩
abbrev S500000x16 : Shape := ⟨2, ![500000, 16]⟩
abbrev S10000x10 : Shape := ⟨2, ![10000, 10]⟩
abbrev S10000x16 : Shape := ⟨2, ![10000, 16]⟩
abbrev S4000000x16 : Shape := ⟨2, ![4000000, 16]⟩
abbrev S500000x80 : Shape := ⟨2, ![500000, 80]⟩
abbrev S80x16 : Shape := ⟨2, ![80, 16]⟩
abbrev S10000x80 : Shape := ⟨2, ![10000, 80]⟩
abbrev S500000x1 : Shape := ⟨2, ![500000, 1]⟩
abbrev S10000x1 : Shape := ⟨2, ![10000, 1]⟩

abbrev nBuf : Space → Nat
  | .hbm => 181
  | .vmem => 17
  | .smem => 0
  | _ => 0

abbrev hbmTy0_0 (i : Nat) : BufTy := match i % 128 with
  | 0 => ⟨S500000x2, .f32⟩
  | 1 => ⟨S2x4000000, .i32⟩
  | 2 => ⟨S4000000, .f32⟩
  | 3 => ⟨S5x2x16, .f32⟩
  | 4 => ⟨S16, .f32⟩
  | 5 => ⟨S5x16x16, .f32⟩
  | 6 => ⟨S16, .f32⟩
  | 7 => ⟨S16x1, .f32⟩
  | 8 => ⟨S1x4000000, .i32⟩
  | 9 => ⟨S4000000, .i32⟩
  | 10 => ⟨S1x4000000, .i32⟩
  | 11 => ⟨S4000000, .i32⟩
  | 12 => ⟨S_, .f32⟩
  | 13 => ⟨S500000, .f32⟩
  | 14 => ⟨S4000000x1, .i32⟩
  | 15 => ⟨S500000, .f32⟩
  | 16 => ⟨S_, .f32⟩
  | 17 => ⟨S500000, .f32⟩
  | 18 => ⟨S500000, .i1⟩
  | 19 => ⟨S500000, .f32⟩
  | 20 => ⟨S_, .f32⟩
  | 21 => ⟨S_, .f32⟩
  | 22 => ⟨S500000, .f32⟩
  | 23 => ⟨S500000, .f32⟩
  | 24 => ⟨S_, .i32⟩
  | 25 => ⟨S4000000, .i32⟩
  | 26 => ⟨S4000000, .i1⟩
  | 27 => ⟨S_, .i32⟩
  | 28 => ⟨S4000000, .i32⟩
  | 29 => ⟨S4000000, .i32⟩
  | 30 => ⟨S4000000, .i32⟩
  | 31 => ⟨S4000000x1, .i32⟩
  | 32 => ⟨S4000000, .f32⟩
  | 33 => ⟨S4000000, .f32⟩
  | 34 => ⟨S_, .i32⟩
  | 35 => ⟨S4000000, .i32⟩
  | 36 => ⟨S4000000, .i1⟩
  | 37 => ⟨S_, .i32⟩
  | 38 => ⟨S4000000, .i32⟩
  | 39 => ⟨S4000000, .i32⟩
  | 40 => ⟨S4000000, .i32⟩
  | 41 => ⟨S4000000x1, .i32⟩
  | 42 => ⟨S4000000, .f32⟩
  | 43 => ⟨S4000000, .f32⟩
  | 44 => ⟨S4000000x1, .f32⟩
  | 45 => ⟨S_, .i32⟩
  | 46 => ⟨S4000000, .i32⟩
  | 47 => ⟨S4000000, .i1⟩
  | 48 => ⟨S_, .i32⟩
  | 49 => ⟨S4000000, .i32⟩
  | 50 => ⟨S4000000, .i32⟩
  | 51 => ⟨S4000000, .i32⟩
  | 52 => ⟨S4000000x1, .i32⟩
  | 53 => ⟨S4000000x2, .f32⟩
  | 54 => ⟨S4000000x2, .f32⟩
  | 55 => ⟨S4000000x2, .f32⟩
  | 56 => ⟨S_, .f32⟩
  | 57 => ⟨S500000x2, .f32⟩
  | 58 => ⟨S4000000x1, .i32⟩
  | 59 => ⟨S500000x2, .f32⟩
  | 60 => ⟨S4000000x1, .f32⟩
  | 61 => ⟨S_, .i32⟩
  | 62 => ⟨S4000000, .i32⟩
  | 63 => ⟨S4000000, .i1⟩
  | 64 => ⟨S_, .i32⟩
  | 65 => ⟨S4000000, .i32⟩
  | 66 => ⟨S4000000, .i32⟩
  | 67 => ⟨S4000000, .i32⟩
  | 68 => ⟨S4000000x1, .i32⟩
  | 69 => ⟨S4000000x2, .f32⟩
  | 70 => ⟨S4000000x2, .f32⟩
  | 71 => ⟨S4000000x2, .f32⟩
  | 72 => ⟨S_, .f32⟩
  | 73 => ⟨S500000x2, .f32⟩
  | 74 => ⟨S4000000x1, .i32⟩
  | 75 => ⟨S500000x2, .f32⟩
  | 76 => ⟨S4000000x1, .f32⟩
  | 77 => ⟨S_, .i32⟩
  | 78 => ⟨S4000000, .i32⟩
  | 79 => ⟨S4000000, .i1⟩
  | 80 => ⟨S_, .i32⟩
  | 81 => ⟨S4000000, .i32⟩
  | 82 => ⟨S4000000, .i32⟩
  | 83 => ⟨S4000000, .i32⟩
  | 84 => ⟨S4000000x1, .i32⟩
  | 85 => ⟨S4000000x2, .f32⟩
  | 86 => ⟨S4000000x2, .f32⟩
  | 87 => ⟨S4000000x2, .f32⟩
  | 88 => ⟨S_, .f32⟩
  | 89 => ⟨S500000x2, .f32⟩
  | 90 => ⟨S4000000x1, .i32⟩
  | 91 => ⟨S500000x2, .f32⟩
  | 92 => ⟨S4000000x1, .f32⟩
  | 93 => ⟨S_, .i32⟩
  | 94 => ⟨S4000000, .i32⟩
  | 95 => ⟨S4000000, .i1⟩
  | 96 => ⟨S_, .i32⟩
  | 97 => ⟨S4000000, .i32⟩
  | 98 => ⟨S4000000, .i32⟩
  | 99 => ⟨S4000000, .i32⟩
  | 100 => ⟨S4000000x1, .i32⟩
  | 101 => ⟨S4000000x2, .f32⟩
  | 102 => ⟨S4000000x2, .f32⟩
  | 103 => ⟨S4000000x2, .f32⟩
  | 104 => ⟨S_, .f32⟩
  | 105 => ⟨S500000x2, .f32⟩
  | 106 => ⟨S4000000x1, .i32⟩
  | 107 => ⟨S500000x2, .f32⟩
  | 108 => ⟨S500000x10, .f32⟩
  | 109 => ⟨S10x16, .f32⟩
  | 110 => ⟨S1x16, .f32⟩
  | 111 => ⟨S500000x16, .f32⟩
  | 112 => ⟨S4000000x1, .f32⟩
  | 113 => ⟨S_, .i32⟩
  | 114 => ⟨S4000000, .i32⟩
  | 115 => ⟨S4000000, .i1⟩
  | 116 => ⟨S_, .i32⟩
  | 117 => ⟨S4000000, .i32⟩
  | 118 => ⟨S4000000, .i32⟩
  | 119 => ⟨S4000000, .i32⟩
  | 120 => ⟨S4000000x1, .i32⟩
  | 121 => ⟨S4000000x16, .f32⟩
  | 122 => ⟨S4000000x16, .f32⟩
  | 123 => ⟨S4000000x16, .f32⟩
  | 124 => ⟨S_, .f32⟩
  | 125 => ⟨S500000x16, .f32⟩
  | 126 => ⟨S4000000x1, .i32⟩
  | 127 => ⟨S500000x16, .f32⟩
  | _ => ⟨S500000x2, .f32⟩

abbrev hbmTy0_1 (i : Nat) : BufTy := match i % 128 with
  | 0 => ⟨S4000000x1, .f32⟩
  | 1 => ⟨S_, .i32⟩
  | 2 => ⟨S4000000, .i32⟩
  | 3 => ⟨S4000000, .i1⟩
  | 4 => ⟨S_, .i32⟩
  | 5 => ⟨S4000000, .i32⟩
  | 6 => ⟨S4000000, .i32⟩
  | 7 => ⟨S4000000, .i32⟩
  | 8 => ⟨S4000000x1, .i32⟩
  | 9 => ⟨S4000000x16, .f32⟩
  | 10 => ⟨S4000000x16, .f32⟩
  | 11 => ⟨S4000000x16, .f32⟩
  | 12 => ⟨S_, .f32⟩
  | 13 => ⟨S500000x16, .f32⟩
  | 14 => ⟨S4000000x1, .i32⟩
  | 15 => ⟨S500000x16, .f32⟩
  | 16 => ⟨S4000000x1, .f32⟩
  | 17 => ⟨S_, .i32⟩
  | 18 => ⟨S4000000, .i32⟩
  | 19 => ⟨S4000000, .i1⟩
  | 20 => ⟨S_, .i32⟩
  | 21 => ⟨S4000000, .i32⟩
  | 22 => ⟨S4000000, .i32⟩
  | 23 => ⟨S4000000, .i32⟩
  | 24 => ⟨S4000000x1, .i32⟩
  | 25 => ⟨S4000000x16, .f32⟩
  | 26 => ⟨S4000000x16, .f32⟩
  | 27 => ⟨S4000000x16, .f32⟩
  | 28 => ⟨S_, .f32⟩
  | 29 => ⟨S500000x16, .f32⟩
  | 30 => ⟨S4000000x1, .i32⟩
  | 31 => ⟨S500000x16, .f32⟩
  | 32 => ⟨S4000000x1, .f32⟩
  | 33 => ⟨S_, .i32⟩
  | 34 => ⟨S4000000, .i32⟩
  | 35 => ⟨S4000000, .i1⟩
  | 36 => ⟨S_, .i32⟩
  | 37 => ⟨S4000000, .i32⟩
  | 38 => ⟨S4000000, .i32⟩
  | 39 => ⟨S4000000, .i32⟩
  | 40 => ⟨S4000000x1, .i32⟩
  | 41 => ⟨S4000000x16, .f32⟩
  | 42 => ⟨S4000000x16, .f32⟩
  | 43 => ⟨S4000000x16, .f32⟩
  | 44 => ⟨S_, .f32⟩
  | 45 => ⟨S500000x16, .f32⟩
  | 46 => ⟨S4000000x1, .i32⟩
  | 47 => ⟨S500000x16, .f32⟩
  | 48 => ⟨S500000x80, .f32⟩
  | 49 => ⟨S80x16, .f32⟩
  | 50 => ⟨S1x16, .f32⟩
  | 51 => ⟨S500000x16, .f32⟩
  | 52 => ⟨S500000x1, .f32⟩
  | _ => ⟨S500000x2, .f32⟩

abbrev hbmTy (i : Nat) : BufTy := match i / 128 with
  | 0 => hbmTy0_0 i
  | 1 => hbmTy0_1 i
  | _ => ⟨S500000x2, .f32⟩

abbrev bufTy : (tb : Table) → Fin (tcTables nBuf tb) → BufTy
  | .hbm, ⟨i, _⟩ => hbmTy i
  | .local _ .vmem, ⟨0, _⟩ => ⟨S10000x10, .f32⟩
  | .local _ .vmem, ⟨1, _⟩ => ⟨S10000x10, .f32⟩
  | .local _ .vmem, ⟨2, _⟩ => ⟨S10x16, .f32⟩
  | .local _ .vmem, ⟨3, _⟩ => ⟨S1x16, .f32⟩
  | .local _ .vmem, ⟨4, _⟩ => ⟨S10000x16, .f32⟩
  | .local _ .vmem, ⟨5, _⟩ => ⟨S10000x16, .f32⟩
  | .local _ .vmem, ⟨6, _⟩ => ⟨S10000x80, .f32⟩
  | .local _ .vmem, ⟨7, _⟩ => ⟨S10000x80, .f32⟩
  | .local _ .vmem, ⟨8, _⟩ => ⟨S80x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S10000x16, .f32⟩
  | .local _ .vmem, ⟨14, _⟩ => ⟨S16x1, .f32⟩
  | .local _ .vmem, ⟨15, _⟩ => ⟨S10000x1, .f32⟩
  | .local _ .vmem, ⟨16, _⟩ => ⟨S10000x1, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_c_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_c_12 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_17 : Ref sig .tc := ⟨.hbm, 113, rfl⟩
abbrev main_v84 : Ref sig .tc := ⟨.hbm, 114, rfl⟩
abbrev main_v85 : Ref sig .tc := ⟨.hbm, 115, rfl⟩
abbrev main_c_18 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_c_20 : Ref sig .tc := ⟨.hbm, 129, rfl⟩
abbrev main_v97 : Ref sig .tc := ⟨.hbm, 130, rfl⟩
abbrev main_v98 : Ref sig .tc := ⟨.hbm, 131, rfl⟩
abbrev main_c_21 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_22 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_c_23 : Ref sig .tc := ⟨.hbm, 145, rfl⟩
abbrev main_v110 : Ref sig .tc := ⟨.hbm, 146, rfl⟩
abbrev main_v111 : Ref sig .tc := ⟨.hbm, 147, rfl⟩
abbrev main_c_24 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_25 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_26 : Ref sig .tc := ⟨.hbm, 161, rfl⟩
abbrev main_v123 : Ref sig .tc := ⟨.hbm, 162, rfl⟩
abbrev main_v124 : Ref sig .tc := ⟨.hbm, 163, rfl⟩
abbrev main_c_27 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_cst_28 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S80x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S500000 : S_.BroadcastsInDim S500000 (![] : Fin 0 → Fin S500000.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x2_0_1 : S4000000x1.BroadcastsInDim S4000000x2 (![0, 1] : Fin 2 → Fin S4000000x2.rank)
  bcast_S_S500000x2 : S_.BroadcastsInDim S500000x2 (![] : Fin 0 → Fin S500000x2.rank)
  concatenates_S500000x2_S500000x2_S500000x2_S500000x2_S500000x2_S500000x10_d1 : Shape.Concatenates [S500000x2, S500000x2, S500000x2, S500000x2, S500000x2] S500000x10 1
  shapeCasts_S5x2x16_S10x16 : S5x2x16.ShapeCasts S10x16
  shapeCasts_S16_S1x16 : S16.ShapeCasts S1x16
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  bitsLt_bf16_f32 : FTy.bits .bf16 < FTy.bits .f32
  inb_S10x16_S10x16_0_0 : ∀ a, (![0, 0] : Fin 2 → Nat) a + S10x16.size a ≤ S10x16.size a
  h_S10x16 : 0 < S10x16.numel
  shapeCasts_S10x16_S10x16 : S10x16.ShapeCasts S10x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S4000000x1_S4000000x16_0_1 : S4000000x1.BroadcastsInDim S4000000x16 (![0, 1] : Fin 2 → Fin S4000000x16.rank)
  bcast_S_S500000x16 : S_.BroadcastsInDim S500000x16 (![] : Fin 0 → Fin S500000x16.rank)
  concatenates_S500000x16_S500000x16_S500000x16_S500000x16_S500000x16_S500000x80_d1 : Shape.Concatenates [S500000x16, S500000x16, S500000x16, S500000x16, S500000x16] S500000x80 1
  shapeCasts_S5x16x16_S80x16 : S5x16x16.ShapeCasts S80x16
  inb_S10000x80_S10000x80_0_0 : ∀ a, (![0, 0] : Fin 2 → Nat) a + S10000x80.size a ≤ S10000x80.size a
  h_S10000x80 : 0 < S10000x80.numel
  shapeCasts_S10000x80_S10000x80 : S10000x80.ShapeCasts S10000x80
  inb_S80x16_S80x16_0_0 : ∀ a, (![0, 0] : Fin 2 → Nat) a + S80x16.size a ≤ S80x16.size a
  h_S80x16 : 0 < S80x16.numel
  shapeCasts_S80x16_S80x16 : S80x16.ShapeCasts S80x16
  shapeCasts_S10000x16_S10000x16 : S10000x16.ShapeCasts S10000x16
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  scatter_S500000_S4000000x1_S4000000_n_0_0_1_wf : ScatterDims.WF S500000 S4000000x1 S4000000 [] [0] [0] 1
  gather_S500000_S4000000x1_S4000000_n_0_n_n_0_1_1_wf : GatherDims.WF S500000 S4000000x1 S4000000 [] [0] [] [0] [] 1 ![1]
  gather_S500000x2_S4000000x1_S4000000x2_1_0_n_n_0_1_12_wf : GatherDims.WF S500000x2 S4000000x1 S4000000x2 [1] [0] [] [0] [] 1 ![1, 2]
  scatter_S500000x2_S4000000x1_S4000000x2_1_0_0_1_wf : ScatterDims.WF S500000x2 S4000000x1 S4000000x2 [1] [0] [0] 1
  dot_S10000x10_S10x16_S10000x16_1_0_0_1_n_n_wf : DotDims.WF S10000x10 S10x16 S10000x16 [1] [0] [0] [1] [] []
  gather_S500000x16_S4000000x1_S4000000x16_1_0_n_n_0_1_116_wf : GatherDims.WF S500000x16 S4000000x1 S4000000x16 [1] [0] [] [0] [] 1 ![1, 16]
  scatter_S500000x16_S4000000x1_S4000000x16_1_0_0_1_wf : ScatterDims.WF S500000x16 S4000000x1 S4000000x16 [1] [0] [0] 1
  dot_S10000x80_S80x16_S10000x16_1_0_0_1_n_n_wf : DotDims.WF S10000x80 S80x16 S10000x16 [1] [0] [0] [1] [] []
  dot_S10000x16_S16x1_S10000x1_1_0_0_1_n_n_wf : DotDims.WF S10000x16 S16x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x10.size a ≤ S500000x10.size a
  hwx0_0 : ∀ i : grid0.Coords, EltTy.bits .f32 = 32 ∨ (Rect.block (s := S500000x10) S10000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x16.size a ≤ S10x16.size a
  hwx0_1 : ∀ i : grid0.Coords, EltTy.bits .f32 = 32 ∨ (Rect.block (s := S10x16) S10x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x16.size a ≤ S500000x16.size a
  hwx0_3 : ∀ i : grid0.Coords, EltTy.bits .f32 = 32 ∨ (Rect.block (s := S500000x16) S10000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x80.size a ≤ S500000x80.size a
  hwx1_0 : ∀ i : grid1.Coords, EltTy.bits .f32 = 32 ∨ (Rect.block (s := S500000x80) S10000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S80x16.size a ≤ S80x16.size a
  hwx1_1 : ∀ i : grid1.Coords, EltTy.bits .f32 = 32 ∨ (Rect.block (s := S80x16) S80x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S500000x16.size a
  hwx1_3 : ∀ i : grid1.Coords, EltTy.bits .f32 = 32 ∨ (Rect.block (s := S500000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S500000x16.size a
  hwx2_0 : ∀ i : grid2.Coords, EltTy.bits .f32 = 32 ∨ (Rect.block (s := S500000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S500000x1.size a
  hwx2_2 : ∀ i : grid2.Coords, EltTy.bits .f32 = 32 ∨ (Rect.block (s := S500000x1) S10000x1.size (cc2_transform_2 i) (hinb2_2 i)).WholeWords (EltTy.packing .f32)

variable [Facts₀]

def scatter_S500000_S4000000x1_S4000000_n_0_0_1 : ScatterDims S500000 S4000000x1 S4000000 where
  updateWindowDims := []
  insertedWindowDims := [0]
  scatterDimsToOperandDims := [0]
  indexVectorDim := 1
  wf := scatter_S500000_S4000000x1_S4000000_n_0_0_1_wf
def gather_S500000_S4000000x1_S4000000_n_0_n_n_0_1_1 : GatherDims S500000 S4000000x1 S4000000 where
  offsetDims := []
  collapsedSliceDims := [0]
  operandBatchingDims := []
  startIndicesBatchingDims := []
  startIndexMap := [0]
  indexVectorDim := 1
  sliceSizes := ![1]
  wf := gather_S500000_S4000000x1_S4000000_n_0_n_n_0_1_1_wf
def gather_S500000x2_S4000000x1_S4000000x2_1_0_n_n_0_1_12 : GatherDims S500000x2 S4000000x1 S4000000x2 where
  offsetDims := [1]
  collapsedSliceDims := [0]
  operandBatchingDims := []
  startIndicesBatchingDims := []
  startIndexMap := [0]
  indexVectorDim := 1
  sliceSizes := ![1, 2]
  wf := gather_S500000x2_S4000000x1_S4000000x2_1_0_n_n_0_1_12_wf
def scatter_S500000x2_S4000000x1_S4000000x2_1_0_0_1 : ScatterDims S500000x2 S4000000x1 S4000000x2 where
  updateWindowDims := [1]
  insertedWindowDims := [0]
  scatterDimsToOperandDims := [0]
  indexVectorDim := 1
  wf := scatter_S500000x2_S4000000x1_S4000000x2_1_0_0_1_wf
def dot_S10000x10_S10x16_S10000x16_1_0_0_1_n_n : DotDims S10000x10 S10x16 S10000x16 where
  lhsContracting := [1]
  rhsContracting := [0]
  lhsNonContracting := [0]
  rhsNonContracting := [1]
  lhsBatch := []
  rhsBatch := []
  wf := dot_S10000x10_S10x16_S10000x16_1_0_0_1_n_n_wf
def gather_S500000x16_S4000000x1_S4000000x16_1_0_n_n_0_1_116 : GatherDims S500000x16 S4000000x1 S4000000x16 where
  offsetDims := [1]
  collapsedSliceDims := [0]
  operandBatchingDims := []
  startIndicesBatchingDims := []
  startIndexMap := [0]
  indexVectorDim := 1
  sliceSizes := ![1, 16]
  wf := gather_S500000x16_S4000000x1_S4000000x16_1_0_n_n_0_1_116_wf
def scatter_S500000x16_S4000000x1_S4000000x16_1_0_0_1 : ScatterDims S500000x16 S4000000x1 S4000000x16 where
  updateWindowDims := [1]
  insertedWindowDims := [0]
  scatterDimsToOperandDims := [0]
  indexVectorDim := 1
  wf := scatter_S500000x16_S4000000x1_S4000000x16_1_0_0_1_wf
def dot_S10000x80_S80x16_S10000x16_1_0_0_1_n_n : DotDims S10000x80 S80x16 S10000x16 where
  lhsContracting := [1]
  rhsContracting := [0]
  lhsNonContracting := [0]
  rhsNonContracting := [1]
  lhsBatch := []
  rhsBatch := []
  wf := dot_S10000x80_S80x16_S10000x16_1_0_0_1_n_n_wf
def dot_S10000x16_S16x1_S10000x1_1_0_0_1_n_n : DotDims S10000x16 S16x1 S10000x1 where
  lhsContracting := [1]
  rhsContracting := [0]
  lhsNonContracting := [0]
  rhsNonContracting := [1]
  lhsBatch := []
  rhsBatch := []
  wf := dot_S10000x16_S16x1_S10000x1_1_0_0_1_n_n_wf

abbrev win0_0 : Pipeline.Window sig grid0 :=
  Pipeline.Window.ofSpec (Memref.whole main_v79) S10000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v80) S10x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v81) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v82) S10000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v135) S10000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v136) S80x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v137) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v138) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v138) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v139) S10000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S500000x2 : Shape := ⟨2, ![500000, 2]⟩
abbrev S2x4000000 : Shape := ⟨2, ![2, 4000000]⟩
abbrev S4000000 : Shape := ⟨1, ![4000000]⟩
abbrev S5x2x16 : Shape := ⟨3, ![5, 2, 16]⟩
abbrev S16 : Shape := ⟨1, ![16]⟩
abbrev S5x16x16 : Shape := ⟨3, ![5, 16, 16]⟩
abbrev S16x1 : Shape := ⟨2, ![16, 1]⟩
abbrev S1x4000000 : Shape := ⟨2, ![1, 4000000]⟩
abbrev S_ : Shape := ⟨0, ![]⟩
abbrev S500000 : Shape := ⟨1, ![500000]⟩
abbrev S4000000x1 : Shape := ⟨2, ![4000000, 1]⟩
abbrev S1x2x16 : Shape := ⟨3, ![1, 2, 16]⟩
abbrev S2x16 : Shape := ⟨2, ![2, 16]⟩
abbrev S500000x16 : Shape := ⟨2, ![500000, 16]⟩
abbrev S4000000x2 : Shape := ⟨2, ![4000000, 2]⟩
abbrev S1x16 : Shape := ⟨2, ![1, 16]⟩
abbrev S1x16x16 : Shape := ⟨3, ![1, 16, 16]⟩
abbrev S16x16 : Shape := ⟨2, ![16, 16]⟩
abbrev S4000000x16 : Shape := ⟨2, ![4000000, 16]⟩
abbrev S500000x1 : Shape := ⟨2, ![500000, 1]⟩

abbrev nBuf : Space → Nat
  | .hbm => 235
  | .vmem => 0
  | .smem => 0
  | _ => 0

abbrev hbmTy0_0 (i : Nat) : BufTy := match i % 128 with
  | 0 => ⟨S500000x2, .f32⟩
  | 1 => ⟨S2x4000000, .i32⟩
  | 2 => ⟨S4000000, .f32⟩
  | 3 => ⟨S5x2x16, .f32⟩
  | 4 => ⟨S16, .f32⟩
  | 5 => ⟨S5x16x16, .f32⟩
  | 6 => ⟨S16, .f32⟩
  | 7 => ⟨S16x1, .f32⟩
  | 8 => ⟨S1x4000000, .i32⟩
  | 9 => ⟨S4000000, .i32⟩
  | 10 => ⟨S1x4000000, .i32⟩
  | 11 => ⟨S4000000, .i32⟩
  | 12 => ⟨S1x4000000, .i32⟩
  | 13 => ⟨S4000000, .i32⟩
  | 14 => ⟨S1x4000000, .i32⟩
  | 15 => ⟨S4000000, .i32⟩
  | 16 => ⟨S_, .f32⟩
  | 17 => ⟨S500000, .f32⟩
  | 18 => ⟨S4000000x1, .i32⟩
  | 19 => ⟨S500000, .f32⟩
  | 20 => ⟨S_, .f32⟩
  | 21 => ⟨S500000, .f32⟩
  | 22 => ⟨S500000, .i1⟩
  | 23 => ⟨S500000, .f32⟩
  | 24 => ⟨S_, .f32⟩
  | 25 => ⟨S_, .f32⟩
  | 26 => ⟨S500000, .f32⟩
  | 27 => ⟨S500000, .f32⟩
  | 28 => ⟨S_, .i32⟩
  | 29 => ⟨S4000000, .i32⟩
  | 30 => ⟨S4000000, .i1⟩
  | 31 => ⟨S_, .i32⟩
  | 32 => ⟨S4000000, .i32⟩
  | 33 => ⟨S4000000, .i32⟩
  | 34 => ⟨S4000000, .i32⟩
  | 35 => ⟨S4000000x1, .i32⟩
  | 36 => ⟨S4000000, .f32⟩
  | 37 => ⟨S4000000, .f32⟩
  | 38 => ⟨S_, .i32⟩
  | 39 => ⟨S4000000, .i32⟩
  | 40 => ⟨S4000000, .i1⟩
  | 41 => ⟨S_, .i32⟩
  | 42 => ⟨S4000000, .i32⟩
  | 43 => ⟨S4000000, .i32⟩
  | 44 => ⟨S4000000, .i32⟩
  | 45 => ⟨S4000000x1, .i32⟩
  | 46 => ⟨S4000000, .f32⟩
  | 47 => ⟨S4000000, .f32⟩
  | 48 => ⟨S1x2x16, .f32⟩
  | 49 => ⟨S2x16, .f32⟩
  | 50 => ⟨S500000x16, .f32⟩
  | 51 => ⟨S4000000x1, .f32⟩
  | 52 => ⟨S_, .i32⟩
  | 53 => ⟨S4000000, .i32⟩
  | 54 => ⟨S4000000, .i1⟩
  | 55 => ⟨S_, .i32⟩
  | 56 => ⟨S4000000, .i32⟩
  | 57 => ⟨S4000000, .i32⟩
  | 58 => ⟨S4000000, .i32⟩
  | 59 => ⟨S4000000x1, .i32⟩
  | 60 => ⟨S4000000x2, .f32⟩
  | 61 => ⟨S4000000x2, .f32⟩
  | 62 => ⟨S4000000x2, .f32⟩
  | 63 => ⟨S_, .f32⟩
  | 64 => ⟨S500000x2, .f32⟩
  | 65 => ⟨S4000000x1, .i32⟩
  | 66 => ⟨S500000x2, .f32⟩
  | 67 => ⟨S1x2x16, .f32⟩
  | 68 => ⟨S2x16, .f32⟩
  | 69 => ⟨S500000x16, .f32⟩
  | 70 => ⟨S500000x16, .f32⟩
  | 71 => ⟨S4000000x1, .f32⟩
  | 72 => ⟨S_, .i32⟩
  | 73 => ⟨S4000000, .i32⟩
  | 74 => ⟨S4000000, .i1⟩
  | 75 => ⟨S_, .i32⟩
  | 76 => ⟨S4000000, .i32⟩
  | 77 => ⟨S4000000, .i32⟩
  | 78 => ⟨S4000000, .i32⟩
  | 79 => ⟨S4000000x1, .i32⟩
  | 80 => ⟨S4000000x2, .f32⟩
  | 81 => ⟨S4000000x2, .f32⟩
  | 82 => ⟨S4000000x2, .f32⟩
  | 83 => ⟨S_, .f32⟩
  | 84 => ⟨S500000x2, .f32⟩
  | 85 => ⟨S4000000x1, .i32⟩
  | 86 => ⟨S500000x2, .f32⟩
  | 87 => ⟨S1x2x16, .f32⟩
  | 88 => ⟨S2x16, .f32⟩
  | 89 => ⟨S500000x16, .f32⟩
  | 90 => ⟨S500000x16, .f32⟩
  | 91 => ⟨S4000000x1, .f32⟩
  | 92 => ⟨S_, .i32⟩
  | 93 => ⟨S4000000, .i32⟩
  | 94 => ⟨S4000000, .i1⟩
  | 95 => ⟨S_, .i32⟩
  | 96 => ⟨S4000000, .i32⟩
  | 97 => ⟨S4000000, .i32⟩
  | 98 => ⟨S4000000, .i32⟩
  | 99 => ⟨S4000000x1, .i32⟩
  | 100 => ⟨S4000000x2, .f32⟩
  | 101 => ⟨S4000000x2, .f32⟩
  | 102 => ⟨S4000000x2, .f32⟩
  | 103 => ⟨S_, .f32⟩
  | 104 => ⟨S500000x2, .f32⟩
  | 105 => ⟨S4000000x1, .i32⟩
  | 106 => ⟨S500000x2, .f32⟩
  | 107 => ⟨S1x2x16, .f32⟩
  | 108 => ⟨S2x16, .f32⟩
  | 109 => ⟨S500000x16, .f32⟩
  | 110 => ⟨S500000x16, .f32⟩
  | 111 => ⟨S4000000x1, .f32⟩
  | 112 => ⟨S_, .i32⟩
  | 113 => ⟨S4000000, .i32⟩
  | 114 => ⟨S4000000, .i1⟩
  | 115 => ⟨S_, .i32⟩
  | 116 => ⟨S4000000, .i32⟩
  | 117 => ⟨S4000000, .i32⟩
  | 118 => ⟨S4000000, .i32⟩
  | 119 => ⟨S4000000x1, .i32⟩
  | 120 => ⟨S4000000x2, .f32⟩
  | 121 => ⟨S4000000x2, .f32⟩
  | 122 => ⟨S4000000x2, .f32⟩
  | 123 => ⟨S_, .f32⟩
  | 124 => ⟨S500000x2, .f32⟩
  | 125 => ⟨S4000000x1, .i32⟩
  | 126 => ⟨S500000x2, .f32⟩
  | 127 => ⟨S1x2x16, .f32⟩
  | _ => ⟨S500000x2, .f32⟩

abbrev hbmTy0_1 (i : Nat) : BufTy := match i % 128 with
  | 0 => ⟨S2x16, .f32⟩
  | 1 => ⟨S500000x16, .f32⟩
  | 2 => ⟨S500000x16, .f32⟩
  | 3 => ⟨S1x16, .f32⟩
  | 4 => ⟨S500000x16, .f32⟩
  | 5 => ⟨S500000x16, .f32⟩
  | 6 => ⟨S_, .f32⟩
  | 7 => ⟨S500000x16, .f32⟩
  | 8 => ⟨S500000x16, .f32⟩
  | 9 => ⟨S1x16x16, .f32⟩
  | 10 => ⟨S16x16, .f32⟩
  | 11 => ⟨S500000x16, .f32⟩
  | 12 => ⟨S4000000x1, .f32⟩
  | 13 => ⟨S_, .i32⟩
  | 14 => ⟨S4000000, .i32⟩
  | 15 => ⟨S4000000, .i1⟩
  | 16 => ⟨S_, .i32⟩
  | 17 => ⟨S4000000, .i32⟩
  | 18 => ⟨S4000000, .i32⟩
  | 19 => ⟨S4000000, .i32⟩
  | 20 => ⟨S4000000x1, .i32⟩
  | 21 => ⟨S4000000x16, .f32⟩
  | 22 => ⟨S4000000x16, .f32⟩
  | 23 => ⟨S4000000x16, .f32⟩
  | 24 => ⟨S_, .f32⟩
  | 25 => ⟨S500000x16, .f32⟩
  | 26 => ⟨S4000000x1, .i32⟩
  | 27 => ⟨S500000x16, .f32⟩
  | 28 => ⟨S1x16x16, .f32⟩
  | 29 => ⟨S16x16, .f32⟩
  | 30 => ⟨S500000x16, .f32⟩
  | 31 => ⟨S500000x16, .f32⟩
  | 32 => ⟨S4000000x1, .f32⟩
  | 33 => ⟨S_, .i32⟩
  | 34 => ⟨S4000000, .i32⟩
  | 35 => ⟨S4000000, .i1⟩
  | 36 => ⟨S_, .i32⟩
  | 37 => ⟨S4000000, .i32⟩
  | 38 => ⟨S4000000, .i32⟩
  | 39 => ⟨S4000000, .i32⟩
  | 40 => ⟨S4000000x1, .i32⟩
  | 41 => ⟨S4000000x16, .f32⟩
  | 42 => ⟨S4000000x16, .f32⟩
  | 43 => ⟨S4000000x16, .f32⟩
  | 44 => ⟨S_, .f32⟩
  | 45 => ⟨S500000x16, .f32⟩
  | 46 => ⟨S4000000x1, .i32⟩
  | 47 => ⟨S500000x16, .f32⟩
  | 48 => ⟨S1x16x16, .f32⟩
  | 49 => ⟨S16x16, .f32⟩
  | 50 => ⟨S500000x16, .f32⟩
  | 51 => ⟨S500000x16, .f32⟩
  | 52 => ⟨S4000000x1, .f32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S4000000x16, .f32⟩
  | 62 => ⟨S4000000x16, .f32⟩
  | 63 => ⟨S4000000x16, .f32⟩
  | 64 => ⟨S_, .f32⟩
  | 65 => ⟨S500000x16, .f32⟩
  | 66 => ⟨S4000000x1, .i32⟩
  | 67 => ⟨S500000x16, .f32⟩
  | 68 => ⟨S1x16x16, .f32⟩
  | 69 => ⟨S16x16, .f32⟩
  | 70 => ⟨S500000x16, .f32⟩
  | 71 => ⟨S500000x16, .f32⟩
  | 72 => ⟨S4000000x1, .f32⟩
  | 73 => ⟨S_, .i32⟩
  | 74 => ⟨S4000000, .i32⟩
  | 75 => ⟨S4000000, .i1⟩
  | 76 => ⟨S_, .i32⟩
  | 77 => ⟨S4000000, .i32⟩
  | 78 => ⟨S4000000, .i32⟩
  | 79 => ⟨S4000000, .i32⟩
  | 80 => ⟨S4000000x1, .i32⟩
  | 81 => ⟨S4000000x16, .f32⟩
  | 82 => ⟨S4000000x16, .f32⟩
  | 83 => ⟨S4000000x16, .f32⟩
  | 84 => ⟨S_, .f32⟩
  | 85 => ⟨S500000x16, .f32⟩
  | 86 => ⟨S4000000x1, .i32⟩
  | 87 => ⟨S500000x16, .f32⟩
  | 88 => ⟨S1x16x16, .f32⟩
  | 89 => ⟨S16x16, .f32⟩
  | 90 => ⟨S500000x16, .f32⟩
  | 91 => ⟨S500000x16, .f32⟩
  | 92 => ⟨S1x16, .f32⟩
  | 93 => ⟨S500000x16, .f32⟩
  | 94 => ⟨S500000x16, .f32⟩
  | 95 => ⟨S_, .f32⟩
  | 96 => ⟨S500000x16, .f32⟩
  | 97 => ⟨S500000x16, .f32⟩
  | 98 => ⟨S500000x1, .f32⟩
  | 99 => ⟨S500000x1, .f32⟩
  | 100 => ⟨S500000x1, .f32⟩
  | 101 => ⟨S_, .f32⟩
  | 102 => ⟨S500000x1, .f32⟩
  | 103 => ⟨S500000x1, .f32⟩
  | 104 => ⟨S_, .f32⟩
  | 105 => ⟨S500000x1, .f32⟩
  | 106 => ⟨S500000x1, .f32⟩
  | _ => ⟨S500000x2, .f32⟩

abbrev hbmTy (i : Nat) : BufTy := match i / 128 with
  | 0 => hbmTy0_0 i
  | 1 => hbmTy0_1 i
  | _ => ⟨S500000x2, .f32⟩

abbrev bufTy : (tb : Table) → Fin (tcTables nBuf tb) → BufTy
  | .hbm, ⟨i, _⟩ => hbmTy i
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_8 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_10 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_11 : Ref sig .tc := ⟨.hbm, 92, rfl⟩
abbrev main_v69 : Ref sig .tc := ⟨.hbm, 93, rfl⟩
abbrev main_v70 : Ref sig .tc := ⟨.hbm, 94, rfl⟩
abbrev main_c_12 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_13 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_c_14 : Ref sig .tc := ⟨.hbm, 112, rfl⟩
abbrev main_v86 : Ref sig .tc := ⟨.hbm, 113, rfl⟩
abbrev main_v87 : Ref sig .tc := ⟨.hbm, 114, rfl⟩
abbrev main_c_15 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_16 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call1_cst : Ref sig .tc := ⟨.hbm, 134, rfl⟩
abbrev main_call1_v0 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_c_17 : Ref sig .tc := ⟨.hbm, 141, rfl⟩
abbrev main_v110 : Ref sig .tc := ⟨.hbm, 142, rfl⟩
abbrev main_v111 : Ref sig .tc := ⟨.hbm, 143, rfl⟩
abbrev main_c_18 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_19 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_20 : Ref sig .tc := ⟨.hbm, 161, rfl⟩
abbrev main_v127 : Ref sig .tc := ⟨.hbm, 162, rfl⟩
abbrev main_v128 : Ref sig .tc := ⟨.hbm, 163, rfl⟩
abbrev main_c_21 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_22 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_c_23 : Ref sig .tc := ⟨.hbm, 181, rfl⟩
abbrev main_v144 : Ref sig .tc := ⟨.hbm, 182, rfl⟩
abbrev main_v145 : Ref sig .tc := ⟨.hbm, 183, rfl⟩
abbrev main_c_24 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_cst_25 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_c_26 : Ref sig .tc := ⟨.hbm, 201, rfl⟩
abbrev main_v161 : Ref sig .tc := ⟨.hbm, 202, rfl⟩
abbrev main_v162 : Ref sig .tc := ⟨.hbm, 203, rfl⟩
abbrev main_c_27 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_28 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_call2_cst : Ref sig .tc := ⟨.hbm, 223, rfl⟩
abbrev main_call2_v0 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_29 : Ref sig .tc := ⟨.hbm, 229, rfl⟩
abbrev main_v184 : Ref sig .tc := ⟨.hbm, 230, rfl⟩
abbrev main_v185 : Ref sig .tc := ⟨.hbm, 231, rfl⟩
abbrev main_cst_30 : Ref sig .tc := ⟨.hbm, 232, rfl⟩
abbrev main_v186 : Ref sig .tc := ⟨.hbm, 233, rfl⟩
abbrev main_v187 : Ref sig .tc := ⟨.hbm, 234, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S500000 : S_.BroadcastsInDim S500000 (![] : Fin 0 → Fin S500000.rank)
  bcast_S4000000_S4000000x1_0 : S4000000.BroadcastsInDim S4000000x1 (![0] : Fin 1 → Fin S4000000x1.rank)
  bcast_S_S4000000 : S_.BroadcastsInDim S4000000 (![] : Fin 0 → Fin S4000000.rank)
  slices_S5x2x16_S1x2x16_0_0_0 : S5x2x16.Slices ![0, 0, 0] S1x2x16
  shapeCasts_S1x2x16_S2x16 : S1x2x16.ShapeCasts S2x16
  bcast_S4000000x1_S4000000x2_0_1 : S4000000x1.BroadcastsInDim S4000000x2 (![0, 1] : Fin 2 → Fin S4000000x2.rank)
  bcast_S_S500000x2 : S_.BroadcastsInDim S500000x2 (![] : Fin 0 → Fin S500000x2.rank)
  slices_S5x2x16_S1x2x16_1_0_0 : S5x2x16.Slices ![1, 0, 0] S1x2x16
  slices_S5x2x16_S1x2x16_2_0_0 : S5x2x16.Slices ![2, 0, 0] S1x2x16
  slices_S5x2x16_S1x2x16_3_0_0 : S5x2x16.Slices ![3, 0, 0] S1x2x16
  slices_S5x2x16_S1x2x16_4_0_0 : S5x2x16.Slices ![4, 0, 0] S1x2x16
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S_S500000x16 : S_.BroadcastsInDim S500000x16 (![] : Fin 0 → Fin S500000x16.rank)
  slices_S5x16x16_S1x16x16_0_0_0 : S5x16x16.Slices ![0, 0, 0] S1x16x16
  shapeCasts_S1x16x16_S16x16 : S1x16x16.ShapeCasts S16x16
  bcast_S4000000x1_S4000000x16_0_1 : S4000000x1.BroadcastsInDim S4000000x16 (![0, 1] : Fin 2 → Fin S4000000x16.rank)
  slices_S5x16x16_S1x16x16_1_0_0 : S5x16x16.Slices ![1, 0, 0] S1x16x16
  slices_S5x16x16_S1x16x16_2_0_0 : S5x16x16.Slices ![2, 0, 0] S1x16x16
  slices_S5x16x16_S1x16x16_3_0_0 : S5x16x16.Slices ![3, 0, 0] S1x16x16
  slices_S5x16x16_S1x16x16_4_0_0 : S5x16x16.Slices ![4, 0, 0] S1x16x16
  bcast_S_S500000x1 : S_.BroadcastsInDim S500000x1 (![] : Fin 0 → Fin S500000x1.rank)
  scatter_S500000_S4000000x1_S4000000_n_0_0_1_wf : ScatterDims.WF S500000 S4000000x1 S4000000 [] [0] [0] 1
  gather_S500000_S4000000x1_S4000000_n_0_n_n_0_1_1_wf : GatherDims.WF S500000 S4000000x1 S4000000 [] [0] [] [0] [] 1 ![1]
  dot_S500000x2_S2x16_S500000x16_1_0_0_1_n_n_wf : DotDims.WF S500000x2 S2x16 S500000x16 [1] [0] [0] [1] [] []
  gather_S500000x2_S4000000x1_S4000000x2_1_0_n_n_0_1_12_wf : GatherDims.WF S500000x2 S4000000x1 S4000000x2 [1] [0] [] [0] [] 1 ![1, 2]
  scatter_S500000x2_S4000000x1_S4000000x2_1_0_0_1_wf : ScatterDims.WF S500000x2 S4000000x1 S4000000x2 [1] [0] [0] 1
  dot_S500000x16_S16x16_S500000x16_1_0_0_1_n_n_wf : DotDims.WF S500000x16 S16x16 S500000x16 [1] [0] [0] [1] [] []
  gather_S500000x16_S4000000x1_S4000000x16_1_0_n_n_0_1_116_wf : GatherDims.WF S500000x16 S4000000x1 S4000000x16 [1] [0] [] [0] [] 1 ![1, 16]
  scatter_S500000x16_S4000000x1_S4000000x16_1_0_0_1_wf : ScatterDims.WF S500000x16 S4000000x1 S4000000x16 [1] [0] [0] 1
  dot_S500000x16_S16x1_S500000x1_1_0_0_1_n_n_wf : DotDims.WF S500000x16 S16x1 S500000x1 [1] [0] [0] [1] [] []

variable [Facts₀]

def scatter_S500000_S4000000x1_S4000000_n_0_0_1 : ScatterDims S500000 S4000000x1 S4000000 where
  updateWindowDims := []
  insertedWindowDims := [0]
  scatterDimsToOperandDims := [0]
  indexVectorDim := 1
  wf := scatter_S500000_S4000000x1_S4000000_n_0_0_1_wf
def gather_S500000_S4000000x1_S4000000_n_0_n_n_0_1_1 : GatherDims S500000 S4000000x1 S4000000 where
  offsetDims := []
  collapsedSliceDims := [0]
  operandBatchingDims := []
  startIndicesBatchingDims := []
  startIndexMap := [0]
  indexVectorDim := 1
  sliceSizes := ![1]
  wf := gather_S500000_S4000000x1_S4000000_n_0_n_n_0_1_1_wf
def dot_S500000x2_S2x16_S500000x16_1_0_0_1_n_n : DotDims S500000x2 S2x16 S500000x16 where
  lhsContracting := [1]
  rhsContracting := [0]
  lhsNonContracting := [0]
  rhsNonContracting := [1]
  lhsBatch := []
  rhsBatch := []
  wf := dot_S500000x2_S2x16_S500000x16_1_0_0_1_n_n_wf
def gather_S500000x2_S4000000x1_S4000000x2_1_0_n_n_0_1_12 : GatherDims S500000x2 S4000000x1 S4000000x2 where
  offsetDims := [1]
  collapsedSliceDims := [0]
  operandBatchingDims := []
  startIndicesBatchingDims := []
  startIndexMap := [0]
  indexVectorDim := 1
  sliceSizes := ![1, 2]
  wf := gather_S500000x2_S4000000x1_S4000000x2_1_0_n_n_0_1_12_wf
def scatter_S500000x2_S4000000x1_S4000000x2_1_0_0_1 : ScatterDims S500000x2 S4000000x1 S4000000x2 where
  updateWindowDims := [1]
  insertedWindowDims := [0]
  scatterDimsToOperandDims := [0]
  indexVectorDim := 1
  wf := scatter_S500000x2_S4000000x1_S4000000x2_1_0_0_1_wf
def dot_S500000x16_S16x16_S500000x16_1_0_0_1_n_n : DotDims S500000x16 S16x16 S500000x16 where
  lhsContracting := [1]
  rhsContracting := [0]
  lhsNonContracting := [0]
  rhsNonContracting := [1]
  lhsBatch := []
  rhsBatch := []
  wf := dot_S500000x16_S16x16_S500000x16_1_0_0_1_n_n_wf
def gather_S500000x16_S4000000x1_S4000000x16_1_0_n_n_0_1_116 : GatherDims S500000x16 S4000000x1 S4000000x16 where
  offsetDims := [1]
  collapsedSliceDims := [0]
  operandBatchingDims := []
  startIndicesBatchingDims := []
  startIndexMap := [0]
  indexVectorDim := 1
  sliceSizes := ![1, 16]
  wf := gather_S500000x16_S4000000x1_S4000000x16_1_0_n_n_0_1_116_wf
def scatter_S500000x16_S4000000x1_S4000000x16_1_0_0_1 : ScatterDims S500000x16 S4000000x1 S4000000x16 where
  updateWindowDims := [1]
  insertedWindowDims := [0]
  scatterDimsToOperandDims := [0]
  indexVectorDim := 1
  wf := scatter_S500000x16_S4000000x1_S4000000x16_1_0_0_1_wf
def dot_S500000x16_S16x1_S500000x1_1_0_0_1_n_n : DotDims S500000x16 S16x1 S500000x1 where
  lhsContracting := [1]
  rhsContracting := [0]
  lhsNonContracting := [0]
  rhsNonContracting := [1]
  lhsBatch := []
  rhsBatch := []
  wf := dot_S500000x16_S16x1_S500000x1_1_0_0_1_n_n_wf

class Facts : Prop extends Facts₀ where

variable [Facts]
-- ==== Proof.K.Body0.lean ====
/-
  Region 0 of the kernel's @main, stated at a parameter `V` (the TensorCore's buffer contents when the region
  is entered): the first dense layer, one node block of 10000 rows per grid point.  Window 0 is the block of the
  concatenated hop table (10000 × 10), windows 1 and 2 the whole weight matrix (10 × 16) and the bias row (1 × 16),
  both at the constant block index, window 3 the output block (10000 × 16).  The body reads the three inputs, and
  overwrites the whole output block by ONE store of `max (x · w + b, 0)`; what the output buffer held before is
  read but never used.  Everything here holds at any float instance `F`.
-/
import proofs.«166631_j6399501271545_1_alg».proof.Proof.Gen.Kernel.Launch
import proofs.«166631_j6399501271545_1_alg».proof.Proof.Gen.Kernel.Skeleton
import proofs.«166631_j6399501271545_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block at every point, whether or not the pipeline fetched
    it there (an unfetched window's block index has not moved): the hop-table block, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- the weight matrix, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and the bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole 10000 × 10 block, the whole 10 × 16 matrix, the whole 1 × 16 row and the whole 10000 × 16 block: the
    rectangles the body loads and stores through. -/
abbrev rx0 : Rect S10000x10 := Rect.unit (s := S10000x10) ![0, 0] S10000x10.size inb_S10000x10_S10000x10_0_0
abbrev rw0 : Rect S10x16 := Rect.unit (s := S10x16) ![0, 0] S10x16.size inb_S10x16_S10x16_0_0
abbrev rb0 : Rect S1x16 := Rect.unit (s := S1x16) ![0, 0] S1x16.size inb_S1x16_S1x16_0_0
abbrev ro0 : Rect S10000x16 := Rect.unit (s := S10000x16) ![0, 0] S10000x16.size inb_S10000x16_S10000x16_0_0

/-- The output block after the body, from the three input blocks: the one store's payload laid over the whole block. -/
def out0_3 (x0 : Vec F S10000x10 .f32) (x1 : Vec F S10x16 .f32) (x2 : Vec F S1x16 .f32) : Vec F S10000x16 .f32 :=
  View.canon [⟨ro0, k0_pay1 (View.ld x0 rx0) (View.ld x1 rw0) (View.ld x2 rb0)⟩]

/-- The one store covers the output block. -/
theorem cover0_3 (p0 : Vec F S10000x16 .f32) (y : S10000x16.Idx) :
    ∃ pc ∈ ([⟨ro0, p0⟩] : List (View.Piece (Elt F) S10000x16 .f32)), y ∈ pc.1.set :=
  View.cover_of_tiled [⟨ro0, p0⟩] S10000x16.size (by rfl) y

/-! ## The body's triple -/

set_option maxHeartbeats 1000000 in
/-- The body on whole staging buffers — the inputs' at contents `x0`, `x1`, `x2`, the output's at anything — runs to
    its continuation with the inputs as they were and the output at `out0_3 x0 x1 x2`. -/
theorem sound_kernel0 (c : Dev nD) (E : Set ℕ) (i : grid0.Coords)
    (arg1 : Memref sig .tc .vmem S10000x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tag_linear_kernel i arg1 harg1 arg2 harg2 arg3 harg3 arg4 harg4) K := by
  simp only [cc0__tag_linear_kernel_eq_skeleton]; unfold cc0__tag_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer still at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of the kernel's @main, stated at a parameter `V` (the TensorCore's buffer contents when the region
  is entered): the second dense layer, one node block of 10000 rows per grid point.  Window 0 is the block of the
  concatenated hop table (10000 × 80), windows 1 and 2 the whole weight matrix (80 × 16) and the bias row (1 × 16),
  both at the constant block index, window 3 the output block (10000 × 16).  The body reads the three inputs, and
  overwrites the whole output block by ONE store of `max (x · w + b, 0)`; what the output buffer held before is
  read but never used.  Everything here holds at any float instance `F`.
-/
import proofs.«166631_j6399501271545_1_alg».proof.Proof.Gen.Kernel.Launch
import proofs.«166631_j6399501271545_1_alg».proof.Proof.Gen.Kernel.Skeleton
import proofs.«166631_j6399501271545_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block at every point, whether or not the pipeline fetched
    it there (an unfetched window's block index has not moved): the hop-table block, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the weight matrix, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the bias row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole 10000 × 80 block, the whole 80 × 16 matrix, the whole 1 × 16 row and the whole 10000 × 16 block: the
    rectangles the body loads and stores through. -/
abbrev rx1 : Rect S10000x80 := Rect.unit (s := S10000x80) ![0, 0] S10000x80.size inb_S10000x80_S10000x80_0_0
abbrev rw1 : Rect S80x16 := Rect.unit (s := S80x16) ![0, 0] S80x16.size inb_S80x16_S80x16_0_0
abbrev rb1 : Rect S1x16 := Rect.unit (s := S1x16) ![0, 0] S1x16.size inb_S1x16_S1x16_0_0
abbrev ro1 : Rect S10000x16 := Rect.unit (s := S10000x16) ![0, 0] S10000x16.size inb_S10000x16_S10000x16_0_0

/-- The output block after the body, from the three input blocks: the one store's payload laid over the whole block. -/
def out1_3 (x0 : Vec F S10000x80 .f32) (x1 : Vec F S80x16 .f32) (x2 : Vec F S1x16 .f32) : Vec F S10000x16 .f32 :=
  View.canon [⟨ro1, k1_pay1 (View.ld x0 rx1) (View.ld x1 rw1) (View.ld x2 rb1)⟩]

/-- The one store covers the output block. -/
theorem cover1_3 (p0 : Vec F S10000x16 .f32) (y : S10000x16.Idx) :
    ∃ pc ∈ ([⟨ro1, p0⟩] : List (View.Piece (Elt F) S10000x16 .f32)), y ∈ pc.1.set :=
  View.cover_of_tiled [⟨ro1, p0⟩] S10000x16.size (by rfl) y

/-! ## The body's triple -/

set_option maxHeartbeats 1000000 in
/-- The body on whole staging buffers — the inputs' at contents `x0`, `x1`, `x2`, the output's at anything — runs to
    its continuation with the inputs as they were and the output at `out1_3 x0 x1 x2`. -/
theorem sound_kernel1 (c : Dev nD) (E : Set ℕ) (i : grid1.Coords)
    (arg1 : Memref sig .tc .vmem S10000x80 .f32) (harg1 : arg1.IsWhole) (arg2 : Memref sig .tc .vmem S80x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x80 .f32) (x1 : Vec F S80x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__tag_linear_kernel i arg1 harg1 arg2 harg2 arg3 harg3 arg4 harg4) K := by
  simp only [cc1__tag_linear_kernel_eq_skeleton]; unfold cc1__tag_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer still at its block and the output's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 of the kernel's @main, stated at a parameter `V` (the TensorCore's buffer contents when the region
  is entered): the final projection, one node block of 10000 rows per grid point.  Window 0 is the block of the second
  layer's output (10000 × 16), window 1 the whole projection column (16 × 1) at the constant block index, window 2 the
  output block (10000 × 1).  The body reads the two inputs and overwrites the whole output block by ONE store of
  `logistic (x · w)`; what the output buffer held before is read but never used.  Everything here holds at any float
  instance `F`.
-/
import proofs.«166631_j6399501271545_1_alg».proof.Proof.Gen.Kernel.Launch
import proofs.«166631_j6399501271545_1_alg».proof.Proof.Gen.Kernel.Skeleton
import proofs.«166631_j6399501271545_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block at every point, whether or not the pipeline fetched
    it there (an unfetched window's block index has not moved): the layer-output block, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- and the projection column. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole 10000 × 16 block, the whole 16 × 1 column and the whole 10000 × 1 block: the rectangles the body loads
    and stores through. -/
abbrev rx2 : Rect S10000x16 := Rect.unit (s := S10000x16) ![0, 0] S10000x16.size inb_S10000x16_S10000x16_0_0
abbrev rw2 : Rect S16x1 := Rect.unit (s := S16x1) ![0, 0] S16x1.size inb_S16x1_S16x1_0_0
abbrev ro2 : Rect S10000x1 := Rect.unit (s := S10000x1) ![0, 0] S10000x1.size inb_S10000x1_S10000x1_0_0

/-- The output block after the body, from the two input blocks: the one store's payload laid over the whole block. -/
def out2_2 (x0 : Vec F S10000x16 .f32) (x1 : Vec F S16x1 .f32) : Vec F S10000x1 .f32 :=
  View.canon [⟨ro2, k2_pay1 (View.ld x0 rx2) (View.ld x1 rw2)⟩]

/-- The one store covers the output block. -/
theorem cover2_2 (p0 : Vec F S10000x1 .f32) (y : S10000x1.Idx) :
    ∃ pc ∈ ([⟨ro2, p0⟩] : List (View.Piece (Elt F) S10000x1 .f32)), y ∈ pc.1.set :=
  View.cover_of_tiled [⟨ro2, p0⟩] S10000x1.size (by rfl) y

/-! ## The body's triple -/

set_option maxHeartbeats 1000000 in
/-- The body on whole staging buffers — the inputs' at contents `x0`, `x1`, the output's at anything — runs to its
    continuation with the inputs as they were and the output at `out2_2 x0 x1`. -/
theorem sound_kernel2 (c : Dev nD) (E : Set ℕ) (i : grid2.Coords)
    (arg1 : Memref sig .tc .vmem S10000x16 .f32) (harg1 : arg1.IsWhole) (arg2 : Memref sig .tc .vmem S16x1 .f32) (harg2 : arg2.IsWhole)
    (arg3 : Memref sig .tc .vmem S10000x1 .f32) (harg3 : arg3.IsWhole)
    (x0 : Vec F S10000x16 .f32) (x1 : Vec F S16x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__end_linear_kernel i arg1 harg1 arg2 harg2 arg3 harg3) K := by
  simp only [cc2__end_linear_kernel_eq_skeleton]; unfold cc2__end_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer still at its block and the output's at `out2_2` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
/-
  The run of the kernel's @main, at any float instance `F`: six stretches of host operations and three
  kernel regions, in the order  host, host, host, host, region 0, host, host, region 1, region 2.  The buffer contents at
  each boundary are a fold from the launch memory: a host stretch applies its operations' functions, a region replaces
  its output array by what the grid's write-backs leave and keeps every other buffer.  The run theorem says that every
  weakly fair execution terminates without a fault and that every unscoped buffer then holds the last fold's
  contents; the frame (the argument arrays end as launched) follows because no host operation and no region writes an
  argument array.
-/
import proofs.«166631_j6399501271545_1_alg».proof.Proof.K.Body0
import proofs.«166631_j6399501271545_1_alg».proof.Proof.K.Body1
import proofs.«166631_j6399501271545_1_alg».proof.Proof.K.Body2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the edge-index slices, the degree scatter-add and its reciprocal square root. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- After the guarded `where` that zeroes the normaliser at degree zero. -/
abbrev W2 : Dev nD → Valuation τ sig (Elt F) := fun c => StableHlo.after main_part0_ops1 (W1 m ρ c)
abbrev V2 : (c : Dev nD) → (b : Ref sig .tc) → Buf (Elt F) ((c : Thread nD τ).loc b) := fun c b => W2 m ρ c b

/-- After the edge normalisation and the first hops of the first layer. -/
abbrev W3 : Dev nD → Valuation τ sig (Elt F) := fun c => StableHlo.after main_part0_ops2 (W2 m ρ c)
abbrev V3 : (c : Dev nD) → (b : Ref sig .tc) → Buf (Elt F) ((c : Thread nD τ).loc b) := fun c b => W3 m ρ c b

/-- After the remaining hops of the first layer, their concatenation and the two reshapes (region 0's entry). -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b

/-- At region 0's exit: its arrays at what the pipeline leaves (the inputs as entered, the output's write-backs folded over
    the grid), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the first hops of the second layer. -/
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b

/-- After the remaining hops of the second layer, their concatenation and the two reshapes (region 1's entry). -/
abbrev W7 : Dev nD → Valuation τ sig (Elt F) := fun c => StableHlo.after main_part2_ops0 (W6 m ρ c)
abbrev V7 : (c : Dev nD) → (b : Ref sig .tc) → Buf (Elt F) ((c : Thread nD τ).loc b) := fun c b => W7 m ρ c b

/-- At region 1's exit: its arrays at what the pipeline leaves (the inputs as entered, the output's write-backs folded over
    the grid), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- At region 2's exit: its arrays at what the pipeline leaves (the inputs as entered, the output's write-backs folded over
    the grid), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-! ## No host stretch writes an argument array -/

/-- The eight argument arrays of @main. -/
def IsArg (b : Ref sig .tc) : Prop :=
  b = main_arg0 ∨ b = main_arg1 ∨ b = main_arg2 ∨ b = main_arg3 ∨ b = main_arg4 ∨ b = main_arg5 ∨ b = main_arg6 ∨ b = main_arg7

/-- Every operation of this stretch writes a buffer of its own, never an argument array: the fold read at an argument
    is what the stretch was entered with. -/
theorem keeps0 (c : Dev nD) (b : Ref sig .tc) (hb : IsArg b) :
    W1 m ρ c (Proc.devRef .tc b) = W0 m ρ c (Proc.devRef .tc b) := by
  refine StableHlo.after_of_forall_not_mem (b := Proc.devRef .tc b) _ _ (List.forall_iff_forall_mem.mp ?_)
  rcases hb with h | h | h | h | h | h | h | h <;> subst h <;>
  · simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps1 (c : Dev nD) (b : Ref sig .tc) (hb : IsArg b) :
    W2 m ρ c (Proc.devRef .tc b) = W1 m ρ c (Proc.devRef .tc b) := by
  refine StableHlo.after_of_forall_not_mem (b := Proc.devRef .tc b) _ _ (List.forall_iff_forall_mem.mp ?_)
  rcases hb with h | h | h | h | h | h | h | h <;> subst h <;>
  · simp only [main_part0_ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps2 (c : Dev nD) (b : Ref sig .tc) (hb : IsArg b) :
    W3 m ρ c (Proc.devRef .tc b) = W2 m ρ c (Proc.devRef .tc b) := by
  refine StableHlo.after_of_forall_not_mem (b := Proc.devRef .tc b) _ _ (List.forall_iff_forall_mem.mp ?_)
  rcases hb with h | h | h | h | h | h | h | h <;> subst h <;>
  · simp only [main_part0_ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps3 (c : Dev nD) (b : Ref sig .tc) (hb : IsArg b) :
    W4 m ρ c (Proc.devRef .tc b) = W3 m ρ c (Proc.devRef .tc b) := by
  refine StableHlo.after_of_forall_not_mem (b := Proc.devRef .tc b) _ _ (List.forall_iff_forall_mem.mp ?_)
  rcases hb with h | h | h | h | h | h | h | h <;> subst h <;>
  · simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps5 (c : Dev nD) (b : Ref sig .tc) (hb : IsArg b) :
    W6 m ρ c (Proc.devRef .tc b) = W5 m ρ c (Proc.devRef .tc b) := by
  refine StableHlo.after_of_forall_not_mem (b := Proc.devRef .tc b) _ _ (List.forall_iff_forall_mem.mp ?_)
  rcases hb with h | h | h | h | h | h | h | h <;> subst h <;>
  · simp only [main_part1_ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps6 (c : Dev nD) (b : Ref sig .tc) (hb : IsArg b) :
    W7 m ρ c (Proc.devRef .tc b) = W6 m ρ c (Proc.devRef .tc b) := by
  refine StableHlo.after_of_forall_not_mem (b := Proc.devRef .tc b) _ _ (List.forall_iff_forall_mem.mp ?_)
  rcases hb with h | h | h | h | h | h | h | h <;> subst h <;>
  · simp only [main_part2_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- An argument array read through the whole fold is the launch memory's: the host stretches and regions 0 and 1 never
    touch it; region 2 reads the last argument through an input window, which the pipeline leaves as entered. -/
theorem W9_arg (c : Dev nD) (b : Ref sig .tc) (hb : IsArg b) : W9 m ρ c (Proc.devRef .tc b) = m ((c : Thread nD τ).loc b) := by
  have h8 : W9 m ρ c (Proc.devRef .tc b) = W8 m ρ c (Proc.devRef .tc b) := by
    rcases hb with h | h | h | h | h | h | h | h <;> subst h
    all_goals first
      | exact W9_of_ne m ρ c _ (by decide)
      | exact (W9_arr m ρ c 1).trans (((dat2 (V8 m ρ) c).arrAt_in 1 rfl _).trans (A_eq2 (V8 m ρ) c 1))
  have h7 : W8 m ρ c (Proc.devRef .tc b) = W7 m ρ c (Proc.devRef .tc b) := by
    rcases hb with h | h | h | h | h | h | h | h <;> subst h <;> exact W8_of_ne m ρ c _ (by decide)
  have h4 : W5 m ρ c (Proc.devRef .tc b) = W4 m ρ c (Proc.devRef .tc b) := by
    rcases hb with h | h | h | h | h | h | h | h <;> subst h <;> exact W5_of_ne m ρ c _ (by decide)
  rw [h8, h7, keeps6 m ρ c b hb, keeps5 m ρ c b hb, h4, keeps3 m ρ c b hb, keeps2 m ρ c b hb, keeps1 m ρ c b hb, keeps0 m ρ c b hb]

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references, entered at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem fresh0 : (main_part0_ops0 : List (HloOp τ sig (Elt F))).Forall fun op => op.fresh = ∅ := by
  simp only [main_part0_ops0, List.Forall]; repeat' constructor

/-- No operation of this stretch allocates a buffer. -/
theorem fresh1 : (main_part0_ops1 : List (HloOp τ sig (Elt F))).Forall fun op => op.fresh = ∅ := by
  simp only [main_part0_ops1, List.Forall]; repeat' constructor

/-- No operation of this stretch allocates a buffer. -/
theorem fresh2 : (main_part0_ops2 : List (HloOp τ sig (Elt F))).Forall fun op => op.fresh = ∅ := by
  simp only [main_part0_ops2, List.Forall]; repeat' constructor

/-- No operation of this stretch allocates a buffer. -/
theorem fresh3 : (main_part1_ops0 : List (HloOp τ sig (Elt F))).Forall fun op => op.fresh = ∅ := by
  simp only [main_part1_ops0, List.Forall]; repeat' constructor

/-- No operation of this stretch allocates a buffer. -/
theorem fresh5 : (main_part1_ops1 : List (HloOp τ sig (Elt F))).Forall fun op => op.fresh = ∅ := by
  simp only [main_part1_ops1, List.Forall]; repeat' constructor

/-- No operation of this stretch allocates a buffer. -/
theorem fresh6 : (main_part2_ops0 : List (HloOp τ sig (Elt F))).Forall fun op => op.fresh = ∅ := by
  simp only [main_part2_ops0, List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment over the thread state "every unscoped buffer at the boundary's contents, the generator
    register at some state, nothing owed": entered at `W4`, left at `W5`.  Its arrays are split out of the
    unscoped buffers at entry and put back at their final contents at exit; the generator register goes into the
    invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state "every unscoped buffer at the boundary's contents, the generator
    register at some state, nothing owed": entered at `W7`, left at `W8`.  Its arrays are split out of the
    unscoped buffers at entry and put back at their final contents at exit; the generator register goes into the
    invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state "every unscoped buffer at the boundary's contents, the generator
    register at some state, nothing owed": entered at `W8`, left at `W9`.  Its arrays are split out of the
    unscoped buffers at entry and put back at their final contents at exit; the generator register goes into the
    invariant and comes back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m ρ) () defs₀ 𝒱₀ L lv) :=
  [ .host (hseg main_part0_ops0 main_part0_ops0_sub fresh0 (W0 m ρ)),
    .host (hseg main_part0_ops1 main_part0_ops1_sub fresh1 (W1 m ρ)),
    .host (hseg main_part0_ops2 main_part0_ops2_sub fresh2 (W2 m ρ)),
    .host (hseg main_part1_ops0 main_part1_ops0_sub fresh3 (W3 m ρ)),
    .region (reg0 m ρ),
    .host (hseg main_part1_ops1 main_part1_ops1_sub fresh5 (W5 m ρ)),
    .host (hseg main_part2_ops0 main_part2_ops0_sub fresh6 (W6 m ρ)),
    .region (reg1 m ρ),
    .region (reg2 m ρ) ]

/-- @main is the run of the segments: @main is the chain of its items, and the segments' run is the chain of theirs. -/
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and in every final state every unscoped buffer of every core holds the last fold's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME, at any `F`: every weakly fair execution terminates without a fault and the eight argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have key : ∀ b : Ref sig .tc, IsArg b → r.2.mem ((c.tc : Thread nD τ).loc b) = m ((c.tc : Thread nD τ).loc b) := fun b hb => by
      have hu : ¬ (Proc.devRef .tc b : DevRef τ sig).isScoped := by
        rcases hb with h | h | h | h | h | h | h | h <;> subst h <;> decide
      exact (h c _ (mem_uc b hu)).trans (W9_arg m ρ c b hb)
    ⟨key _ (.inl rfl), key _ (.inr (.inl rfl)), key _ (.inr (.inr (.inl rfl))), key _ (.inr (.inr (.inr (.inl rfl)))),
      key _ (.inr (.inr (.inr (.inr (.inl rfl))))), key _ (.inr (.inr (.inr (.inr (.inr (.inl rfl)))))),
      key _ (.inr (.inr (.inr (.inr (.inr (.inr (.inl rfl))))))), key _ (.inr (.inr (.inr (.inr (.inr (.inr (.inr rfl)))))))⟩)
    (run_main m ρ)

end Cert.Kernel.Hand

end
-- ==== Proof.KI.Body0.lean ====
/-
  Region 0 of the idealized kernel's @main, stated at a parameter `V` (the TensorCore's buffer contents when the region
  is entered): the first dense layer, one node block of 10000 rows per grid point.  Window 0 is the block of the
  concatenated hop table (10000 × 10), windows 1 and 2 the whole weight matrix (10 × 16) and the bias row (1 × 16),
  both at the constant block index, window 3 the output block (10000 × 16).  The body reads the three inputs, and
  overwrites the whole output block by ONE store of `max (x · w + b, 0)`; what the output buffer held before is
  read but never used.  Everything here holds at any float instance `F`.
-/
import proofs.«166631_j6399501271545_1_alg».proof.Proof.Gen.KernelIdeal.Launch
import proofs.«166631_j6399501271545_1_alg».proof.Proof.Gen.KernelIdeal.Skeleton
import proofs.«166631_j6399501271545_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds that window's block at every point, whether or not the pipeline fetched
    it there (an unfetched window's block index has not moved): the hop-table block, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- the weight matrix, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and the bias row. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole 10000 × 10 block, the whole 10 × 16 matrix, the whole 1 × 16 row and the whole 10000 × 16 block: the
    rectangles the body loads and stores through. -/
abbrev rx0 : Rect S10000x10 := Rect.unit (s := S10000x10) ![0, 0] S10000x10.size inb_S10000x10_S10000x10_0_0
abbrev rw0 : Rect S10x16 := Rect.unit (s := S10x16) ![0, 0] S10x16.size inb_S10x16_S10x16_0_0
abbrev rb0 : Rect S1x16 := Rect.unit (s := S1x16) ![0, 0] S1x16.size inb_S1x16_S1x16_0_0
abbrev ro0 : Rect S10000x16 := Rect.unit (s := S10000x16) ![0, 0] S10000x16.size inb_S10000x16_S10000x16_0_0

/-- The output block after the body, from the three input blocks: the one store's payload laid over the whole block. -/
def out0_3 (x0 : Vec F S10000x10 .f32) (x1 : Vec F S10x16 .f32) (x2 : Vec F S1x16 .f32) : Vec F S10000x16 .f32 :=
  View.canon [⟨ro0, k0_pay1 (View.ld x0 rx0) (View.ld x1 rw0) (View.ld x2 rb0)⟩]

/-- The one store covers the output block. -/
theorem cover0_3 (p0 : Vec F S10000x16 .f32) (y : S10000x16.Idx) :
    ∃ pc ∈ ([⟨ro0, p0⟩] : List (View.Piece (Elt F) S10000x16 .f32)), y ∈ pc.1.set :=
  View.cover_of_tiled [⟨ro0, p0⟩] S10000x16.size (by rfl) y

/-! ## The body's triple -/

set_option maxHeartbeats 1000000 in
/-- The body on whole staging buffers — the inputs' at contents `x0`, `x1`, `x2`, the output's at anything — runs to
    its continuation with the inputs as they were and the output at `out0_3 x0 x1 x2`. -/
theorem sound_kernel0 (c : Dev nD) (E : Set ℕ) (i : grid0.Coords)
    (arg1 : Memref sig .tc .vmem S10000x10 .f32) (harg1 : arg1.IsWhole) (arg2 : Memref sig .tc .vmem S10x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x10 .f32) (x1 : Vec F S10x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__tag_linear_kernel i arg1 harg1 arg2 harg2 arg3 harg3 arg4 harg4) K := by
  simp only [cc0__tag_linear_kernel_eq_skeleton]; unfold cc0__tag_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each
    input's buffer still at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of the idealized kernel's @main, stated at a parameter `V` (the TensorCore's buffer contents when the region
  is entered): the second dense layer, one node block of 10000 rows per grid point.  Window 0 is the block of the
  concatenated hop table (10000 × 80), windows 1 and 2 the whole weight matrix (80 × 16) and the bias row (1 × 16),
  both at the constant block index, window 3 the output block (10000 × 16).  The body reads the three inputs, and
  overwrites the whole output block by ONE store of `max (x · w + b, 0)`; what the output buffer held before is
  read but never used.  Everything here holds at any float instance `F`.
-/
import proofs.«166631_j6399501271545_1_alg».proof.Proof.Gen.KernelIdeal.Launch
import proofs.«166631_j6399501271545_1_alg».proof.Proof.Gen.KernelIdeal.Skeleton
import proofs.«166631_j6399501271545_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds that window's block at every point, whether or not the pipeline fetched
    it there (an unfetched window's block index has not moved): the hop-table block, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the weight matrix, -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the bias row. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The whole 10000 × 80 block, the whole 80 × 16 matrix, the whole 1 × 16 row and the whole 10000 × 16 block: the
    rectangles the body loads and stores through. -/
abbrev rx1 : Rect S10000x80 := Rect.unit (s := S10000x80) ![0, 0] S10000x80.size inb_S10000x80_S10000x80_0_0
abbrev rw1 : Rect S80x16 := Rect.unit (s := S80x16) ![0, 0] S80x16.size inb_S80x16_S80x16_0_0
abbrev rb1 : Rect S1x16 := Rect.unit (s := S1x16) ![0, 0] S1x16.size inb_S1x16_S1x16_0_0
abbrev ro1 : Rect S10000x16 := Rect.unit (s := S10000x16) ![0, 0] S10000x16.size inb_S10000x16_S10000x16_0_0

/-- The output block after the body, from the three input blocks: the one store's payload laid over the whole block. -/
def out1_3 (x0 : Vec F S10000x80 .f32) (x1 : Vec F S80x16 .f32) (x2 : Vec F S1x16 .f32) : Vec F S10000x16 .f32 :=
  View.canon [⟨ro1, k1_pay1 (View.ld x0 rx1) (View.ld x1 rw1) (View.ld x2 rb1)⟩]

/-- The one store covers the output block. -/
theorem cover1_3 (p0 : Vec F S10000x16 .f32) (y : S10000x16.Idx) :
    ∃ pc ∈ ([⟨ro1, p0⟩] : List (View.Piece (Elt F) S10000x16 .f32)), y ∈ pc.1.set :=
  View.cover_of_tiled [⟨ro1, p0⟩] S10000x16.size (by rfl) y

/-! ## The body's triple -/

set_option maxHeartbeats 1000000 in
/-- The body on whole staging buffers — the inputs' at contents `x0`, `x1`, `x2`, the output's at anything — runs to
    its continuation with the inputs as they were and the output at `out1_3 x0 x1 x2`. -/
theorem sound_kernel1 (c : Dev nD) (E : Set ℕ) (i : grid1.Coords)
    (arg1 : Memref sig .tc .vmem S10000x80 .f32) (harg1 : arg1.IsWhole) (arg2 : Memref sig .tc .vmem S80x16 .f32) (harg2 : arg2.IsWhole)
    (arg3 : Memref sig .tc .vmem S1x16 .f32) (harg3 : arg3.IsWhole) (arg4 : Memref sig .tc .vmem S10000x16 .f32) (harg4 : arg4.IsWhole)
    (x0 : Vec F S10000x80 .f32) (x1 : Vec F S80x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__tag_linear_kernel i arg1 harg1 arg2 harg2 arg3 harg3 arg4 harg4) K := by
  simp only [cc1__tag_linear_kernel_eq_skeleton]; unfold cc1__tag_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each
    input's buffer still at its block and the output's at `out1_3` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 of the idealized kernel's @main, stated at a parameter `V` (the TensorCore's buffer contents when the region
  is entered): the final projection, one node block of 10000 rows per grid point.  Window 0 is the block of the second
  layer's output (10000 × 16), window 1 the whole projection column (16 × 1) at the constant block index, window 2 the
  output block (10000 × 1).  The body reads the two inputs and overwrites the whole output block by ONE store of
  `logistic (x · w)`; what the output buffer held before is read but never used.  Everything here holds at any float
  instance `F`.
-/
import proofs.«166631_j6399501271545_1_alg».proof.Proof.Gen.KernelIdeal.Launch
import proofs.«166631_j6399501271545_1_alg».proof.Proof.Gen.KernelIdeal.Skeleton
import proofs.«166631_j6399501271545_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds that window's block at every point, whether or not the pipeline fetched
    it there (an unfetched window's block index has not moved): the layer-output block, -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- and the projection column. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output block -/

/-- The whole 10000 × 16 block, the whole 16 × 1 column and the whole 10000 × 1 block: the rectangles the body loads
    and stores through. -/
abbrev rx2 : Rect S10000x16 := Rect.unit (s := S10000x16) ![0, 0] S10000x16.size inb_S10000x16_S10000x16_0_0
abbrev rw2 : Rect S16x1 := Rect.unit (s := S16x1) ![0, 0] S16x1.size inb_S16x1_S16x1_0_0
abbrev ro2 : Rect S10000x1 := Rect.unit (s := S10000x1) ![0, 0] S10000x1.size inb_S10000x1_S10000x1_0_0

/-- The output block after the body, from the two input blocks: the one store's payload laid over the whole block. -/
def out2_2 (x0 : Vec F S10000x16 .f32) (x1 : Vec F S16x1 .f32) : Vec F S10000x1 .f32 :=
  View.canon [⟨ro2, k2_pay1 (View.ld x0 rx2) (View.ld x1 rw2)⟩]

/-- The one store covers the output block. -/
theorem cover2_2 (p0 : Vec F S10000x1 .f32) (y : S10000x1.Idx) :
    ∃ pc ∈ ([⟨ro2, p0⟩] : List (View.Piece (Elt F) S10000x1 .f32)), y ∈ pc.1.set :=
  View.cover_of_tiled [⟨ro2, p0⟩] S10000x1.size (by rfl) y

/-! ## The body's triple -/

set_option maxHeartbeats 1000000 in
/-- The body on whole staging buffers — the inputs' at contents `x0`, `x1`, the output's at anything — runs to its
    continuation with the inputs as they were and the output at `out2_2 x0 x1`. -/
theorem sound_kernel2 (c : Dev nD) (E : Set ℕ) (i : grid2.Coords)
    (arg1 : Memref sig .tc .vmem S10000x16 .f32) (harg1 : arg1.IsWhole) (arg2 : Memref sig .tc .vmem S16x1 .f32) (harg2 : arg2.IsWhole)
    (arg3 : Memref sig .tc .vmem S10000x1 .f32) (harg3 : arg3.IsWhole)
    (x0 : Vec F S10000x16 .f32) (x1 : Vec F S16x1 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__end_linear_kernel i arg1 harg1 arg2 harg2 arg3 harg3) K := by
  simp only [cc2__end_linear_kernel_eq_skeleton]; unfold cc2__end_linear_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of pipeline 2 on core `c`: the arrays as the region finds them; after the body at point `t` each
    input's buffer still at its block and the output's at `out2_2` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
/-
  The run of the idealized kernel's @main, at any float instance `F`: six stretches of host operations and three
  kernel regions, in the order  host, host, host, host, region 0, host, host, region 1, region 2.  The buffer contents at
  each boundary are a fold from the launch memory: a host stretch applies its operations' functions, a region replaces
  its output array by what the grid's write-backs leave and keeps every other buffer.  The run theorem says that every
  weakly fair execution terminates without a fault and that every unscoped buffer then holds the last fold's
  contents; the frame (the argument arrays end as launched) follows because no host operation and no region writes an
  argument array.
-/
import proofs.«166631_j6399501271545_1_alg».proof.Proof.KI.Body0
import proofs.«166631_j6399501271545_1_alg».proof.Proof.KI.Body1
import proofs.«166631_j6399501271545_1_alg».proof.Proof.KI.Body2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After the edge-index slices, the degree scatter-add and its reciprocal square root. -/
abbrev W1 : Dev nD → Valuation τ sig (Elt F) := fun c => StableHlo.after main_part0_ops0 (W0 m ρ c)
abbrev V1 : (c : Dev nD) → (b : Ref sig .tc) → Buf (Elt F) ((c : Thread nD τ).loc b) := fun c b => W1 m ρ c b

/-- After the guarded `where` that zeroes the normaliser at degree zero. -/
abbrev W2 : Dev nD → Valuation τ sig (Elt F) := fun c => StableHlo.after main_part0_ops1 (W1 m ρ c)
abbrev V2 : (c : Dev nD) → (b : Ref sig .tc) → Buf (Elt F) ((c : Thread nD τ).loc b) := fun c b => W2 m ρ c b

/-- After the edge normalisation and the first hops of the first layer. -/
abbrev W3 : Dev nD → Valuation τ sig (Elt F) := fun c => StableHlo.after main_part0_ops2 (W2 m ρ c)
abbrev V3 : (c : Dev nD) → (b : Ref sig .tc) → Buf (Elt F) ((c : Thread nD τ).loc b) := fun c b => W3 m ρ c b

/-- After the remaining hops of the first layer, their concatenation and the two reshapes (region 0's entry). -/
abbrev W4 : Dev nD → Valuation τ sig (Elt F) := fun c => StableHlo.after main_part1_ops0 (W3 m ρ c)
abbrev V4 : (c : Dev nD) → (b : Ref sig .tc) → Buf (Elt F) ((c : Thread nD τ).loc b) := fun c b => W4 m ρ c b

/-- At region 0's exit: its arrays at what the pipeline leaves (the inputs as entered, the output's write-backs folded over
    the grid), every other buffer as entered. -/
def W5 (c : Dev nD) : Valuation τ sig (Elt F) :=
  Pipeline.withArrays spec0 c (W4 m ρ c) fun w => (dat0 (V4 m ρ) c).arrAt w cfg0.N
theorem W5_arr (c : Dev nD) (w : Fin cfg0.W) :
    W5 m ρ c (Proc.devRef .tc (Pipeline.arrRef spec0 w)) = (dat0 (V4 m ρ) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m ρ c (Proc.devRef .tc b) = W4 m ρ c (Proc.devRef .tc b) := by
  unfold W5; exact Pipeline.withArrays_of_ne spec0 c _ _ b hb
abbrev V5 : (c : Dev nD) → (b : Ref sig .tc) → Buf (Elt F) ((c : Thread nD τ).loc b) := fun c b => W5 m ρ c b
theorem hF0 (c : Dev nD) (w : Fin cfg0.W) : (dat0 (V4 m ρ) c).arrAt w cfg0.N = V5 m ρ c (Pipeline.arrRef spec0 w) :=
  (W5_arr m ρ c w).symm
theorem hrest0 (c : Dev nD) : ∀ b, b ∉ Finset.univ.image (Pipeline.arrRef spec0) → V5 m ρ c b = V4 m ρ c b :=
  fun b hb => W5_of_ne m ρ c b fun w e => hb (Finset.mem_image.mpr ⟨w, Finset.mem_univ _, e⟩)

/-- After the first hops of the second layer. -/
abbrev W6 : Dev nD → Valuation τ sig (Elt F) := fun c => StableHlo.after main_part1_ops1 (W5 m ρ c)
abbrev V6 : (c : Dev nD) → (b : Ref sig .tc) → Buf (Elt F) ((c : Thread nD τ).loc b) := fun c b => W6 m ρ c b

/-- After the remaining hops of the second layer, their concatenation and the two reshapes (region 1's entry). -/
abbrev W7 : Dev nD → Valuation τ sig (Elt F) := fun c => StableHlo.after main_part2_ops0 (W6 m ρ c)
abbrev V7 : (c : Dev nD) → (b : Ref sig .tc) → Buf (Elt F) ((c : Thread nD τ).loc b) := fun c b => W7 m ρ c b

/-- At region 1's exit: its arrays at what the pipeline leaves (the inputs as entered, the output's write-backs folded over
    the grid), every other buffer as entered. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- At region 2's exit: its arrays at what the pipeline leaves (the inputs as entered, the output's write-backs folded over
    the grid), every other buffer as entered. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-! ## No host stretch writes an argument array -/

/-- The eight argument arrays of @main. -/
def IsArg (b : Ref sig .tc) : Prop :=
  b = main_arg0 ∨ b = main_arg1 ∨ b = main_arg2 ∨ b = main_arg3 ∨ b = main_arg4 ∨ b = main_arg5 ∨ b = main_arg6 ∨ b = main_arg7

/-- Every operation of this stretch writes a buffer of its own, never an argument array: the fold read at an argument
    is what the stretch was entered with. -/
theorem keeps0 (c : Dev nD) (b : Ref sig .tc) (hb : IsArg b) :
    W1 m ρ c (Proc.devRef .tc b) = W0 m ρ c (Proc.devRef .tc b) := by
  refine StableHlo.after_of_forall_not_mem (b := Proc.devRef .tc b) _ _ (List.forall_iff_forall_mem.mp ?_)
  rcases hb with h | h | h | h | h | h | h | h <;> subst h <;>
  · simp only [main_part0_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps1 (c : Dev nD) (b : Ref sig .tc) (hb : IsArg b) :
    W2 m ρ c (Proc.devRef .tc b) = W1 m ρ c (Proc.devRef .tc b) := by
  refine StableHlo.after_of_forall_not_mem (b := Proc.devRef .tc b) _ _ (List.forall_iff_forall_mem.mp ?_)
  rcases hb with h | h | h | h | h | h | h | h <;> subst h <;>
  · simp only [main_part0_ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps2 (c : Dev nD) (b : Ref sig .tc) (hb : IsArg b) :
    W3 m ρ c (Proc.devRef .tc b) = W2 m ρ c (Proc.devRef .tc b) := by
  refine StableHlo.after_of_forall_not_mem (b := Proc.devRef .tc b) _ _ (List.forall_iff_forall_mem.mp ?_)
  rcases hb with h | h | h | h | h | h | h | h <;> subst h <;>
  · simp only [main_part0_ops2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps3 (c : Dev nD) (b : Ref sig .tc) (hb : IsArg b) :
    W4 m ρ c (Proc.devRef .tc b) = W3 m ρ c (Proc.devRef .tc b) := by
  refine StableHlo.after_of_forall_not_mem (b := Proc.devRef .tc b) _ _ (List.forall_iff_forall_mem.mp ?_)
  rcases hb with h | h | h | h | h | h | h | h <;> subst h <;>
  · simp only [main_part1_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps5 (c : Dev nD) (b : Ref sig .tc) (hb : IsArg b) :
    W6 m ρ c (Proc.devRef .tc b) = W5 m ρ c (Proc.devRef .tc b) := by
  refine StableHlo.after_of_forall_not_mem (b := Proc.devRef .tc b) _ _ (List.forall_iff_forall_mem.mp ?_)
  rcases hb with h | h | h | h | h | h | h | h <;> subst h <;>
  · simp only [main_part1_ops1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- Every operation of this stretch writes a buffer of its own, never an argument array: the fold read at an argument
    is what the stretch was entered with. -/
theorem keeps6 (c : Dev nD) (b : Ref sig .tc) (hb : IsArg b) :
    W7 m ρ c (Proc.devRef .tc b) = W6 m ρ c (Proc.devRef .tc b) := by
  refine StableHlo.after_of_forall_not_mem (b := Proc.devRef .tc b) _ _ (List.forall_iff_forall_mem.mp ?_)
  rcases hb with h | h | h | h | h | h | h | h <;> subst h <;>
  · simp only [main_part2_ops0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)

/-- An argument array read through the whole fold is the launch memory's: the host stretches and regions 0 and 1 never
    touch it; region 2 reads the last argument through an input window, which the pipeline leaves as entered. -/
theorem W9_arg (c : Dev nD) (b : Ref sig .tc) (hb : IsArg b) : W9 m ρ c (Proc.devRef .tc b) = m ((c : Thread nD τ).loc b) := by
  have h8 : W9 m ρ c (Proc.devRef .tc b) = W8 m ρ c (Proc.devRef .tc b) := by
    rcases hb with h | h | h | h | h | h | h | h <;> subst h
    all_goals first
      | exact W9_of_ne m ρ c _ (by decide)
      | exact (W9_arr m ρ c 1).trans (((dat2 (V8 m ρ) c).arrAt_in 1 rfl _).trans (A_eq2 (V8 m ρ) c 1))
  have h7 : W8 m ρ c (Proc.devRef .tc b) = W7 m ρ c (Proc.devRef .tc b) := by
    rcases hb with h | h | h | h | h | h | h | h <;> subst h <;> exact W8_of_ne m ρ c _ (by decide)
  have h4 : W5 m ρ c (Proc.devRef .tc b) = W4 m ρ c (Proc.devRef .tc b) := by
    rcases hb with h | h | h | h | h | h | h | h <;> subst h <;> exact W5_of_ne m ρ c _ (by decide)
  rw [h8, h7, keeps6 m ρ c b hb, keeps5 m ρ c b hb, h4, keeps3 m ρ c b hb, keeps2 m ρ c b hb, keeps1 m ρ c b hb, keeps0 m ρ c b hb]

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V4 m ρ) c
  | ⟨1, _⟩ => fun c => dat1 (V7 m ρ) c
  | ⟨2, _⟩ => fun c => dat2 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core owing
    nothing. -/
abbrev R (c : Dev nD) : sProp 𝕄 := iprop((∃ r, prngReg c r) ∗ ∃ W, owes (c : Thread nD τ) (0 : CellTallies nD τ sig Unit) W)
/-- A host stretch as a segment over the unscoped references, entered at the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of this stretch allocates a buffer. -/
theorem fresh0 : (main_part0_ops0 : List (HloOp τ sig (Elt F))).Forall fun op => op.fresh = ∅ := by
  simp only [main_part0_ops0, List.Forall]; repeat' constructor

/-- No operation of this stretch allocates a buffer. -/
theorem fresh1 : (main_part0_ops1 : List (HloOp τ sig (Elt F))).Forall fun op => op.fresh = ∅ := by
  simp only [main_part0_ops1, List.Forall]; repeat' constructor

/-- No operation of this stretch allocates a buffer. -/
theorem fresh2 : (main_part0_ops2 : List (HloOp τ sig (Elt F))).Forall fun op => op.fresh = ∅ := by
  simp only [main_part0_ops2, List.Forall]; repeat' constructor

/-- No operation of this stretch allocates a buffer. -/
theorem fresh3 : (main_part1_ops0 : List (HloOp τ sig (Elt F))).Forall fun op => op.fresh = ∅ := by
  simp only [main_part1_ops0, List.Forall]; repeat' constructor

/-- No operation of this stretch allocates a buffer. -/
theorem fresh5 : (main_part1_ops1 : List (HloOp τ sig (Elt F))).Forall fun op => op.fresh = ∅ := by
  simp only [main_part1_ops1, List.Forall]; repeat' constructor

/-- No operation of this stretch allocates a buffer. -/
theorem fresh6 : (main_part2_ops0 : List (HloOp τ sig (Elt F))).Forall fun op => op.fresh = ∅ := by
  simp only [main_part2_ops0, List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment over the thread state "every unscoped buffer at the boundary's contents, the generator
    register at some state, nothing owed": entered at `W4`, left at `W5`.  Its arrays are split out of the
    unscoped buffers at entry and put back at their final contents at exit; the generator register goes into the
    invariant and comes back; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V4 m ρ) c).loose
  hwaits := Pipeline.hwaits_of_owed_zero _ _ _ _ L lv 0 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec0 c (V4 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V4 m ρ c) (V5 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment over the thread state "every unscoped buffer at the boundary's contents, the generator
    register at some state, nothing owed": entered at `W7`, left at `W8`.  Its arrays are split out of the
    unscoped buffers at entry and put back at their final contents at exit; the generator register goes into the
    invariant and comes back; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment over the thread state "every unscoped buffer at the boundary's contents, the generator
    register at some state, nothing owed": entered at `W8`, left at `W9`.  Its arrays are split out of the
    unscoped buffers at entry and put back at their final contents at exit; the generator register goes into the
    invariant and comes back; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's nine segments in order. -/
abbrev segs : List (Pipeline.Seg (pcfgs (F := F)) adm (pdats m ρ) () defs₀ 𝒱₀ L lv) :=
  [ .host (hseg main_part0_ops0 main_part0_ops0_sub fresh0 (W0 m ρ)),
    .host (hseg main_part0_ops1 main_part0_ops1_sub fresh1 (W1 m ρ)),
    .host (hseg main_part0_ops2 main_part0_ops2_sub fresh2 (W2 m ρ)),
    .host (hseg main_part1_ops0 main_part1_ops0_sub fresh3 (W3 m ρ)),
    .region (reg0 m ρ),
    .host (hseg main_part1_ops1 main_part1_ops1_sub fresh5 (W5 m ρ)),
    .host (hseg main_part2_ops0 main_part2_ops0_sub fresh6 (W6 m ρ)),
    .region (reg1 m ρ),
    .region (reg2 m ρ) ]

/-- @main is the run of the segments: @main is the chain of its items, and the segments' run is the chain of theirs. -/
theorem main_run (c : Dev nD) : main (F := F) c = Pipeline.Seg.run (segs m ρ) := (main_chain_windows c).trans (by chain_rfl)

set_option backward.isDefEq.respectTransparency.types false in
/-- THE RUN: from any memory with zero counters every weakly fair execution of @main on the TensorCores terminates,
    nothing faulting, and in every final state every unscoped buffer of every core holds the last fold's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- THE FRAME, at any `F`: every weakly fair execution terminates without a fault and the eight argument arrays end
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have key : ∀ b : Ref sig .tc, IsArg b → r.2.mem ((c.tc : Thread nD τ).loc b) = m ((c.tc : Thread nD τ).loc b) := fun b hb => by
      have hu : ¬ (Proc.devRef .tc b : DevRef τ sig).isScoped := by
        rcases hb with h | h | h | h | h | h | h | h <;> subst h <;> decide
      exact (h c _ (mem_uc b hu)).trans (W9_arg m ρ c b hb)
    ⟨key _ (.inl rfl), key _ (.inr (.inl rfl)), key _ (.inr (.inr (.inl rfl))), key _ (.inr (.inr (.inr (.inl rfl)))),
      key _ (.inr (.inr (.inr (.inr (.inl rfl))))), key _ (.inr (.inr (.inr (.inr (.inr (.inl rfl)))))),
      key _ (.inr (.inr (.inr (.inr (.inr (.inr (.inl rfl))))))), key _ (.inr (.inr (.inr (.inr (.inr (.inr (.inr rfl)))))))⟩)
    (run_main m ρ)

end Cert.KernelIdeal.Hand

end
-- ==== Proof.LibConcat5.lean ====
/-
  Five tables of one shape laid side by side: replacing each table by an equal one does not change the concatenation.
  A concatenation carries the fact that its pieces' shapes fit the result's, and that fact is stated over the list of
  pieces; so equal pieces give an equal concatenation only because the pieces' SHAPES — all the fact speaks of — stay
  what they were.  Stated once here, for five pieces of one shape.
-/
import Idealize.ShloMosaic.PureOps.ShapeOps

namespace Cert.LibConcat5

open Idealize.ShloMosaic

/-- A concatenation of five pieces of one shape depends only on the pieces' contents. -/
theorem concat5_eq {α : Type} {t s : Shape} {ax : Fin t.rank} {p0 p1 p2 p3 p4 q0 q1 q2 q3 q4 : s.Idx → α}
    {h : Shape.Concatenates [s, s, s, s, s] t ax}
    (e0 : p0 = q0) (e1 : p1 = q1) (e2 : p2 = q2) (e3 : p3 = q3) (e4 : p4 = q4) :
    concatenate t ax [⟨s, p0⟩, ⟨s, p1⟩, ⟨s, p2⟩, ⟨s, p3⟩, ⟨s, p4⟩] h
      = concatenate t ax [⟨s, q0⟩, ⟨s, q1⟩, ⟨s, q2⟩, ⟨s, q3⟩, ⟨s, q4⟩] h := by
  subst e0 e1 e2 e3 e4; rfl

end Cert.LibConcat5
-- ==== Proof.KI.HostVal.lean ====
/-
  What the host stretches of the idealized kernel's @main leave in the buffers the three regions read, at the ideal
  instance, stated against the REFERENCE's stages.  The sparse part of the two programs is one sequence of operations:
  the source and target index vectors are the two rows of the edge list; the edge normaliser is
  `dinv[src] · w · dinv[dst]` with `dinv = where(deg > 0, rsqrt deg, 0)` and `deg` the scatter-add of the edge weights
  at the targets; a hop gathers a table's rows at the sources, scales them by the normaliser and scatter-adds them at
  the targets.  So each array the kernel's glue builds IS the reference's stage of the same meaning, as a whole array:
  the two terms are the same operations applied to the same arguments.  The comparison goes boundary by boundary —
  what is live after a stretch is named by the reference's stage before the next stretch is read —, so that no
  comparison ever has to look inside a gather or a scatter-add.  What is left of the kernel's glue is layout: five
  tables side by side along the channel axis, the stacked weights flattened along it, the bias as one row.
-/
import proofs.«166631_j6399501271545_1_alg».proof.Proof.KI.Run
import proofs.«166631_j6399501271545_1_alg».proof.Proof.Gen.ReferenceIdeal.Read
import proofs.«166631_j6399501271545_1_alg».proof.Proof.LibConcat5

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The eight argument arrays as core `c` is launched with them. -/
abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)

/-! ## After the first stretch: index vectors, the degree's sign and its reciprocal square root -/

set_option maxHeartbeats 2000000 in
theorem src1 (c : Dev nD) : W1 (F := Ideal) m ρ c (Proc.devRef .tc main_v1) = Cert.ReferenceIdeal.Read.val_main_v1 (F := Ideal) (a1 m c) := by
  dsimp only [W1, main_part0_ops0]; after_results_simp; rfl
set_option maxHeartbeats 2000000 in
theorem dst1 (c : Dev nD) : W1 (F := Ideal) m ρ c (Proc.devRef .tc main_v3) = Cert.ReferenceIdeal.Read.val_main_v3 (F := Ideal) (a1 m c) := by
  dsimp only [W1, main_part0_ops0]; after_results_simp; rfl
set_option maxHeartbeats 2000000 in
theorem pos1 (c : Dev nD) : W1 (F := Ideal) m ρ c (Proc.devRef .tc main_v8) = Cert.ReferenceIdeal.Read.val_main_v12 (F := Ideal) (a1 m c) (a2 m c) := by
  dsimp only [W1, main_part0_ops0]; after_results_simp; rfl
set_option maxHeartbeats 2000000 in
theorem rsq1 (c : Dev nD) : W1 (F := Ideal) m ρ c (Proc.devRef .tc main_v9) = Cert.ReferenceIdeal.Read.val_main_v13 (F := Ideal) (a1 m c) (a2 m c) := by
  dsimp only [W1, main_part0_ops0]; after_results_simp; rfl
set_option maxHeartbeats 2000000 in
theorem zero1 (c : Dev nD) : W1 (F := Ideal) m ρ c (Proc.devRef .tc main_cst_1) = Cert.ReferenceIdeal.Read.val_main_cst_1 (F := Ideal) := by
  dsimp only [W1, main_part0_ops0]; after_results_simp; rfl

/-! ## After the guarded `where`: the normaliser's factor `dinv` -/

set_option maxHeartbeats 2000000 in
/-- The three operations of the `where` over ANY previous contents: a select between the reciprocal square root and a
    zero splat, on the degree's sign. -/
theorem where_call (Wp : Valuation τ sig (Elt Ideal)) :
    after (main_part0_ops1 (F := Ideal)) Wp (Proc.devRef .tc main_v10)
      = select (Wp (Proc.devRef .tc main_v8)) (Wp (Proc.devRef .tc main_v9))
          (broadcastInDim S500000 ![] bcast_S_S500000 (id (Wp (Proc.devRef .tc main_cst_1)))) := by
  dsimp only [main_part0_ops1]
  after_results_simp
  rfl

set_option maxHeartbeats 2000000 in
theorem dinv2 (c : Dev nD) : W2 (F := Ideal) m ρ c (Proc.devRef .tc main_v10) = Cert.ReferenceIdeal.Read.val_main_v14 (F := Ideal) (a1 m c) (a2 m c) := by
  show after (main_part0_ops1 (F := Ideal)) (W1 m ρ c) (Proc.devRef .tc main_v10) = _
  rw [where_call, pos1, rsq1, zero1]
  rfl
set_option maxHeartbeats 2000000 in
theorem src2 (c : Dev nD) : W2 (F := Ideal) m ρ c (Proc.devRef .tc main_v1) = Cert.ReferenceIdeal.Read.val_main_v1 (F := Ideal) (a1 m c) := by
  dsimp only [W2, main_part0_ops1]; after_results_simp; exact src1 m ρ c
set_option maxHeartbeats 2000000 in
theorem dst2 (c : Dev nD) : W2 (F := Ideal) m ρ c (Proc.devRef .tc main_v3) = Cert.ReferenceIdeal.Read.val_main_v3 (F := Ideal) (a1 m c) := by
  dsimp only [W2, main_part0_ops1]; after_results_simp; exact dst1 m ρ c
/-- An argument array is still the launch memory's here. -/
theorem arg2 (c : Dev nD) (b : Ref sig .tc) (hb : IsArg b) : W2 (F := Ideal) m ρ c (Proc.devRef .tc b) = m ((c : Thread nD τ).loc b) :=
  (keeps1 m ρ c b hb).trans ((keeps0 m ρ c b hb).trans rfl)

/-! ## Region 0's entry: the edge normaliser, and the region's three operands -/

set_option maxHeartbeats 4000000 in
theorem src4 (c : Dev nD) : W4 (F := Ideal) m ρ c (Proc.devRef .tc main_v1) = Cert.ReferenceIdeal.Read.val_main_v1 (F := Ideal) (a1 m c) := by
  dsimp only [W4, W3, main_part1_ops0, main_part0_ops2]; after_results_simp; exact src2 m ρ c
set_option maxHeartbeats 4000000 in
theorem dst4 (c : Dev nD) : W4 (F := Ideal) m ρ c (Proc.devRef .tc main_v3) = Cert.ReferenceIdeal.Read.val_main_v3 (F := Ideal) (a1 m c) := by
  dsimp only [W4, W3, main_part1_ops0, main_part0_ops2]; after_results_simp; exact dst2 m ρ c

set_option maxHeartbeats 4000000 in
/-- The edge normaliser `dinv[src] · w · dinv[dst]`. -/
theorem norm4 (c : Dev nD) :
    W4 (F := Ideal) m ρ c (Proc.devRef .tc main_v26) = Cert.ReferenceIdeal.Read.val_main_v30 (F := Ideal) (a1 m c) (a2 m c) := by
  dsimp only [W4, W3, main_part1_ops0, main_part0_ops2]
  generalize hW : W2 (F := Ideal) m ρ c = Wp
  after_results_simp
  subst hW
  rw [dinv2, src2, dst2, arg2 m ρ c main_arg2 (.inr (.inr (.inl rfl)))]
  rfl

set_option maxHeartbeats 8000000 in
/-- The first layer's table: the features and their four hops, side by side. -/
theorem table0_eq (c : Dev nD) :
    W4 (F := Ideal) m ρ c (Proc.devRef .tc main_v79) = concatenate S500000x10 1
      [⟨S500000x2, a0 m c⟩,
       ⟨S500000x2, Cert.ReferenceIdeal.Read.val_main_v46 (F := Ideal) (a0 m c) (a1 m c) (a2 m c)⟩,
       ⟨S500000x2, Cert.ReferenceIdeal.Read.val_main_v63 (F := Ideal) (a0 m c) (a1 m c) (a2 m c)⟩,
       ⟨S500000x2, Cert.ReferenceIdeal.Read.val_main_v80 (F := Ideal) (a0 m c) (a1 m c) (a2 m c)⟩,
       ⟨S500000x2, Cert.ReferenceIdeal.Read.val_main_v97 (F := Ideal) (a0 m c) (a1 m c) (a2 m c)⟩]
      concatenates_S500000x2_S500000x2_S500000x2_S500000x2_S500000x2_S500000x10_d1 := by
  dsimp only [W4, W3, main_part1_ops0, main_part0_ops2]
  generalize hW : W2 (F := Ideal) m ρ c = Wp
  simp only [after_cons, after_nil]
  rw [reshape_result_ne]; rotate_left; decide
  rw [reshape_result_ne]; rotate_left; decide
  rw [nary_result]
  dsimp only [Matrix.cons_val]
  refine Cert.LibConcat5.concat5_eq ?_ ?_ ?_ ?_ ?_
  · after_results_simp
    subst hW
    exact arg2 m ρ c main_arg0 (.inl rfl)
  all_goals
    after_results_simp
    subst hW
    rw [dinv2, src2, dst2, arg2 m ρ c main_arg2 (.inr (.inr (.inl rfl))), arg2 m ρ c main_arg0 (.inl rfl)]
    rfl

set_option maxHeartbeats 4000000 in
/-- The first layer's weights, the five matrices stacked along the channel axis. -/
theorem weights0_eq (c : Dev nD) :
    W4 (F := Ideal) m ρ c (Proc.devRef .tc main_v80) = shapeCast S10x16 (a3 m c) shapeCasts_S5x2x16_S10x16 := by
  dsimp only [W4, W3, W2, W1, main_part1_ops0, main_part0_ops2, main_part0_ops1, main_part0_ops0]
  after_results_simp
  rfl

set_option maxHeartbeats 4000000 in
/-- The first layer's bias as a row. -/
theorem bias0_eq (c : Dev nD) :
    W4 (F := Ideal) m ρ c (Proc.devRef .tc main_v81) = shapeCast S1x16 (a4 m c) shapeCasts_S16_S1x16 := by
  dsimp only [W4, W3, W2, W1, main_part1_ops0, main_part0_ops2, main_part0_ops1, main_part0_ops0]
  after_results_simp
  rfl

end Cert.KernelIdeal.Hand

end
-- ==== Proof.KI.Val0.lean ====
/-
  What region 0 of the idealized kernel leaves in its output array, read at an index, at the ideal values (extended
  reals).
-/
import proofs.«166631_j6399501271545_1_alg».proof.Proof.KI.Body0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx
open scoped BigOperators

/-! ## The body's arithmetic at one element of the block -/

/-- The product's left operand index at output (r, o) and contraction position q: row r, -/
theorem lhs0_0 (i : S10000x16.Idx) (q : dot_S10000x10_S10x16_S10000x16_1_0_0_1_n_n.contr.Idx) :
    (dot_S10000x10_S10x16_S10000x16_1_0_0_1_n_n.lhsIdx i q 0).val = (i 0).val := by
  unfold DotDims.lhsIdx
  rw [dif_neg (show ¬(0 : Fin S10000x10.rank) ∈ dot_S10000x10_S10x16_S10000x16_1_0_0_1_n_n.lhsBatch by decide), dif_pos (show (0 : Fin S10000x10.rank) ∈ dot_S10000x10_S10x16_S10000x16_1_0_0_1_n_n.lhsNonContracting by decide)]
  rfl
/-- column q; -/
theorem lhs0_1 (i : S10000x16.Idx) (q : dot_S10000x10_S10x16_S10000x16_1_0_0_1_n_n.contr.Idx) :
    (dot_S10000x10_S10x16_S10000x16_1_0_0_1_n_n.lhsIdx i q 1).val = (q ⟨0, by decide⟩).val :=
  dot_S10000x10_S10x16_S10000x16_1_0_0_1_n_n.lhsIdx_val_of_single rfl i q
/-- the right operand's: row q, -/
theorem rhs0_0 (i : S10000x16.Idx) (q : dot_S10000x10_S10x16_S10000x16_1_0_0_1_n_n.contr.Idx) :
    (dot_S10000x10_S10x16_S10000x16_1_0_0_1_n_n.rhsIdx i q 0).val = (q ⟨0, by decide⟩).val :=
  dot_S10000x10_S10x16_S10000x16_1_0_0_1_n_n.rhsIdx_val_of_single rfl i q
/-- column o. -/
theorem rhs0_1 (i : S10000x16.Idx) (q : dot_S10000x10_S10x16_S10000x16_1_0_0_1_n_n.contr.Idx) :
    (dot_S10000x10_S10x16_S10000x16_1_0_0_1_n_n.rhsIdx i q 1).val = (i 1).val := by
  unfold DotDims.rhsIdx
  rw [dif_neg (show ¬(1 : Fin S10x16.rank) ∈ dot_S10000x10_S10x16_S10000x16_1_0_0_1_n_n.rhsBatch by decide), dif_pos (show (1 : Fin S10x16.rank) ∈ dot_S10000x10_S10x16_S10000x16_1_0_0_1_n_n.rhsNonContracting by decide)]
  rfl

/-- The matrix product into the zero accumulator, at row r and column o: the sum over the 10 hop channels. -/
theorem matmul0_apply (a : FVec Ideal S10000x10 .bf16) (b : FVec Ideal S10x16 .bf16) (r : Fin 10000) (o : Fin 16) :
    matmul dot_S10000x10_S10x16_S10000x16_1_0_0_1_n_n none a b (constant S10000x16 .f32 0x00000000#32) (ix2 r o)
      = ∑ j : Fin 10, a (ix2 r j) * b (ix2 j o) := by
  simp only [matmul]
  rw [Ideal.matmul_constant_zero_apply, ← Equiv.sum_comp (ValueIdx.contrEquiv1 dot_S10000x10_S10x16_S10000x16_1_0_0_1_n_n 10 rfl rfl).symm]
  refine Finset.sum_congr rfl fun k _ => ?_
  have hk := ValueIdx.contrEquiv1_symm_val dot_S10000x10_S10x16_S10000x16_1_0_0_1_n_n 10 rfl rfl k
  have el : dot_S10000x10_S10x16_S10000x16_1_0_0_1_n_n.lhsIdx (ix2 r o) ((ValueIdx.contrEquiv1 dot_S10000x10_S10x16_S10000x16_1_0_0_1_n_n 10 rfl rfl).symm k) = ix2 r k := funext fun a => Fin.ext (by
    match a with
    | ⟨0, _⟩ => exact lhs0_0 _ _
    | ⟨1, _⟩ => exact (lhs0_1 _ _).trans hk)
  have er : dot_S10000x10_S10x16_S10000x16_1_0_0_1_n_n.rhsIdx (ix2 r o) ((ValueIdx.contrEquiv1 dot_S10000x10_S10x16_S10000x16_1_0_0_1_n_n 10 rfl rfl).symm k) = ix2 k o := funext fun a => Fin.ext (by
    match a with
    | ⟨0, _⟩ => exact (rhs0_0 _ _).trans hk
    | ⟨1, _⟩ => exact rhs0_1 _ _)
  rw [el, er]

/-- The stored value at row r, column o of the block: the larger of 0 and the row of the hop block times the column
    of the weights, plus the bias of that column. -/
theorem pay0_apply (x0 : Vec Ideal S10000x10 .f32) (x1 : Vec Ideal S10x16 .f32) (x2 : Vec Ideal S1x16 .f32) (r : Fin 10000) (o : Fin 16) :
    (k0_pay1 (F := Ideal) x0 x1 x2 : S10000x16.Idx → EReal) (ix2 r o)
      = max ((∑ j : Fin 10, (x0 : S10000x10.Idx → EReal) (ix2 r j) * (x1 : S10x16.Idx → EReal) (ix2 j o))
             + (x2 : S1x16.Idx → EReal) (ix2 0 o)) 0 := by
  unfold k0_pay1
  rw [maximumf_apply, addf_apply, broadcast_apply, matmul0_apply, broadcastTo_1b_ab_apply]
  simp only [shapeCast_self, truncf_apply]
  rw [show (Scalar.ofBits (F := Ideal) .f32 0x00000000#32 : EReal) = 0 from Ideal.ofBits_zero_f32]

/-! ## The layer on the whole arrays -/

variable (V : (c : Dev nD) → (b : Ref sig .tc) → Buf (Elt Ideal) ((c : Thread nD τ).loc b))

/-- The first dense layer at node n and output channel o: the larger of 0 and the node's 10 hop features times column
    o of the weights, plus the bias of channel o. -/
def dense0 (A : S500000x10.Idx → EReal) (W : S10x16.Idx → EReal) (B : S1x16.Idx → EReal) (n : Fin 500000) (o : Fin 16) : EReal :=
  max ((∑ j : Fin 10, A (ix2 n j) * W (ix2 j o)) + B (ix2 0 o)) 0

/-- The same as one function of the output array's index. -/
def G0 (A : S500000x10.Idx → EReal) (W : S10x16.Idx → EReal) (B : S1x16.Idx → EReal) : S500000x16.Idx → EReal :=
  fun i => dense0 A W B ⟨(i 0).val, idx2_lt0 i⟩ ⟨(i 1).val, idx2_lt1 i⟩

/-- The block's value at row r, channel o is the layer at node 10000 T + r, when the hop block holds rows
    10000 T … 10000 T + 9999 of the table and the other two blocks are the whole weight matrix and bias row. -/
theorem pay0_block (A : S500000x10.Idx → EReal) (W : S10x16.Idx → EReal) (B : S1x16.Idx → EReal)
    (x0 : Vec Ideal S10000x10 .f32) (x1 : Vec Ideal S10x16 .f32) (x2 : Vec Ideal S1x16 .f32) (T : ℕ) (hT : T < 50)
    (h0 : ∀ (r : Fin 10000) (j : Fin 10), (x0 : S10000x10.Idx → EReal) (ix2 r j) = A (ix2 (⟨10000 * T + r.val, by omega⟩ : Fin 500000) j))
    (h1 : ∀ (j : Fin 10) (o : Fin 16), (x1 : S10x16.Idx → EReal) (ix2 j o) = W (ix2 j o))
    (h2 : ∀ o : Fin 16, (x2 : S1x16.Idx → EReal) (ix2 0 o) = B (ix2 0 o))
    (r : Fin 10000) (o : Fin 16) :
    (k0_pay1 (F := Ideal) x0 x1 x2 : S10000x16.Idx → EReal) (ix2 r o) = dense0 A W B ⟨10000 * T + r.val, by omega⟩ o := by
  rw [pay0_apply]
  unfold dense0
  simp only [h0, h1, h2]

/-! ## From blocks to the array -/

theorem hz0 : (![0, 0] : Fin 2 → Nat) = fun _ => 0 := funext fun a => by fin_cases a <;> rfl

/-- The block index maps, decided over the 50 grid points: the hop table's and the output's row block is the point's
    number, their column block 0; the weights and the bias row stay at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_N0 (t : Fin cfg0.N) : t.val < 50 := lt_of_lt_of_eq t.isLt N_0

/-- The hop-table block at point t is rows 10000 t … 10000 t + 9999 of the table. -/
theorem iblk0_0_apply (c : Dev nD) (t : Fin cfg0.N) (r : Fin 10000) (j : Fin 10) :
    (iblk0 (F := Ideal) V c 0 t : S10000x10.Idx → EReal) (ix2 r j)
      = (V c main_v79 : S500000x10.Idx → EReal) (ix2 (⟨10000 * t.val + r.val, by have := lt_N0 t; omega⟩ : Fin 500000) j) := by
  obtain ⟨e0, e1, -⟩ := idx_facts0 t
  unfold iblk0
  show (V c main_v79 : S500000x10.Idx → EReal) (((cfg0.win 0).blk t).view.emb (ix2 r j)) = _
  refine congrArg (V c main_v79 : S500000x10.Idx → EReal) (funext fun a => Fin.ext ?_)
  match a with
  | ⟨0, _⟩ => show win0_0.index t (0 : Fin 2) * 10000 + 1 * r.val = 10000 * t.val + r.val; omega
  | ⟨1, _⟩ => show win0_0.index t (1 : Fin 2) * 10 + 1 * j.val = j.val; omega

/-- The weight block at every point is the whole weight matrix. -/
theorem iblk0_1_apply (c : Dev nD) (t : Fin cfg0.N) (j : Fin 10) (o : Fin 16) :
    (iblk0 (F := Ideal) V c 1 t : S10x16.Idx → EReal) (ix2 j o) = (V c main_v80 : S10x16.Idx → EReal) (ix2 j o) := by
  obtain ⟨-, -, e2, e3, -⟩ := idx_facts0 t
  unfold iblk0
  show (V c main_v80 : S10x16.Idx → EReal) (((cfg0.win 1).blk t).view.emb (ix2 j o)) = _
  refine congrArg (V c main_v80 : S10x16.Idx → EReal) (funext fun a => Fin.ext ?_)
  match a with
  | ⟨0, _⟩ => show win0_1.index t (0 : Fin 2) * 10 + 1 * j.val = j.val; omega
  | ⟨1, _⟩ => show win0_1.index t (1 : Fin 2) * 16 + 1 * o.val = o.val; omega

/-- The bias block at every point is the whole bias row. -/
theorem iblk0_2_apply (c : Dev nD) (t : Fin cfg0.N) (o : Fin 16) :
    (iblk0 (F := Ideal) V c 2 t : S1x16.Idx → EReal) (ix2 0 o) = (V c main_v81 : S1x16.Idx → EReal) (ix2 0 o) := by
  obtain ⟨-, -, -, -, e4, e5, -⟩ := idx_facts0 t
  unfold iblk0
  show (V c main_v81 : S1x16.Idx → EReal) (((cfg0.win 2).blk t).view.emb (ix2 0 o)) = _
  refine congrArg (V c main_v81 : S1x16.Idx → EReal) (funext fun a => Fin.ext ?_)
  match a with
  | ⟨0, _⟩ => show win0_2.index t (0 : Fin 2) * 1 + 1 * 0 = 0; omega
  | ⟨1, _⟩ => show win0_2.index t (1 : Fin 2) * 16 + 1 * o.val = o.val; omega

/-- What point t writes back is block t of the layer on the whole arrays. -/
theorem flushed0_eq (c : Dev nD) (t : Fin cfg0.N) :
    (dat0 (F := Ideal) V c).flushed 3 t
      = ((cfg0.win 3).blk t).view.read (Elt Ideal) (G0 (V c main_v79) (V c main_v80) (V c main_v81)) := by
  show (cfg0.win 3).cut (grid0.coords t) ((dat0 (F := Ideal) V c).after 3 t) = _
  rw [after0_3]
  unfold out0_3
  rw [View.canon_unit_zero hz0]
  simp only [View.ld_unit_zero (S := S10000x10) hz0, View.ld_unit_zero (S := S10x16) hz0, View.ld_unit_zero (S := S1x16) hz0]
  obtain ⟨-, -, -, -, -, -, e6, e7⟩ := idx_facts0 t
  have ht : t.val < 50 := lt_N0 t
  funext y
  have hy0 : (y 0).val < 10000 := (y 0).isLt
  have hy1 : (y 1).val < 16 := (y 1).isLt
  have hx : (cfg0.win 3).xinj (grid0.coords t) y = (ix2 (⟨(y 0).val, hy0⟩ : Fin 10000) (⟨(y 1).val, hy1⟩ : Fin 16) : S10000x16.Idx) :=
    funext fun a => by match a with | ⟨0, _⟩ => rfl | ⟨1, _⟩ => rfl
  have hemb : ((cfg0.win 3).blk t).view.emb y
      = (ix2 (⟨10000 * t.val + (y 0).val, by omega⟩ : Fin 500000) (⟨(y 1).val, hy1⟩ : Fin 16) : S500000x16.Idx) :=
    funext fun a => Fin.ext (by
      match a with
      | ⟨0, _⟩ => show win0_3.index t (0 : Fin 2) * 10000 + 1 * (y 0).val = 10000 * t.val + (y 0).val; omega
      | ⟨1, _⟩ => show win0_3.index t (1 : Fin 2) * 16 + 1 * (y 1).val = (y 1).val; omega)
  show (k0_pay1 (F := Ideal) (iblk0 V c 0 t) (iblk0 V c 1 t) (iblk0 V c 2 t) : S10000x16.Idx → EReal) ((cfg0.win 3).xinj (grid0.coords t) y)
      = G0 (V c main_v79) (V c main_v80) (V c main_v81) (((cfg0.win 3).blk t).view.emb y)
  rw [hx, hemb]
  exact pay0_block (V c main_v79) (V c main_v80) (V c main_v81) (iblk0 V c 0 t) (iblk0 V c 1 t) (iblk0 V c 2 t) t.val ht
    (fun r j => iblk0_0_apply V c t r j) (fun j o => iblk0_1_apply V c t j o) (fun o => iblk0_2_apply V c t o)
    ⟨(y 0).val, hy0⟩ ⟨(y 1).val, hy1⟩

/-- An index of the output array is in point t's block iff each coordinate is in the block's range on its axis. -/
theorem mem_blk0 (t : Fin cfg0.N) (i : S500000x16.Idx) :
    i ∈ ((cfg0.win 3).blk t).view.set ↔ ∀ a : Fin 2, win0_3.index t a * S10000x16.size a ≤ (i a).val ∧ (i a).val < win0_3.index t a * S10000x16.size a + S10000x16.size a := by
  show i ∈ ((View.whole main_v82).slice (win0_3.rect t)).set ↔ _
  rw [View.set_slice_whole, Rect.mem_set_unit]
  exact Iff.rfl

/-- Every row of the output array is in some point's block: row n in the block of point n / 10000. -/
theorem cover0 (i : S500000x16.Idx) : ∃ t : Fin cfg0.N, (cfg0.win 3).flush t = true ∧ i ∈ ((cfg0.win 3).blk t).view.set := by
  have hi0 : (i 0).val < 500000 := (i 0).isLt
  have hi1 : (i 1).val < 16 := (i 1).isLt
  let t : Fin cfg0.N := ⟨(i 0).val / 10000, lt_of_lt_of_eq (by omega : (i 0).val / 10000 < 50) N_0.symm⟩
  obtain ⟨-, -, -, -, -, -, e6, e7⟩ := idx_facts0 t
  have e6' : win0_3.index t (0 : Fin 2) = (i 0).val / 10000 := e6
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 16 ≤ (i 1).val ∧ (i 1).val < win0_3.index t (1 : Fin 2) * 16 + 16; omega

/-- The output array after the region: the layer on the whole arrays. -/
theorem arr0_eq (c : Dev nD) :
    (dat0 (F := Ideal) V c).arrAt 3 cfg0.N = G0 (V c main_v79) (V c main_v80) (V c main_v81) :=
  (dat0 (F := Ideal) V c).arrAt_eq_of_cover 3 (G0 (V c main_v79) (V c main_v80) (V c main_v81)) (fun t _ => flushed0_eq V c t) cover0

/-- The output array after region 0 at node n and channel o, over the three input arrays as the region finds them
    (named A, W, B: the hop table, the weights, the bias row). -/
theorem final0 (c : Dev nD) (A : S500000x10.Idx → EReal) (W : S10x16.Idx → EReal) (B : S1x16.Idx → EReal)
    (hA : V c main_v79 = A) (hW : V c main_v80 = W) (hB : V c main_v81 = B) (n : Fin 500000) (o : Fin 16) :
    (dat0 (F := Ideal) V c).arrAt 3 cfg0.N (ix2 n o)
      = max ((∑ j : Fin 10, A (ix2 n j) * W (ix2 j o)) + B (ix2 0 o)) 0 := by
  subst hA hW hB
  rw [arr0_eq]
  rfl

end Cert.KernelIdeal.Hand

end
-- ==== Proof.LibStackedSum.lean ====
/-
  A sum over a stack of five tables.  A dense layer fed with five tables laid side by side along the channel axis
  contracts over `5 * C` channels at once; the same layer written table by table contracts over `C` channels five
  times and adds the five results from the left.  In any additive commutative monoid the two are one sum, regrouped:
  channel `j` of the stack is channel `j % C` of table `j / C`.  No subtraction, no distributivity: the law holds on
  the extended reals with no finiteness assumption.
-/
import Mathlib.Algebra.BigOperators.Fin
import Mathlib.Algebra.BigOperators.Group.Finset.Sigma
import Mathlib.Logic.Equiv.Fin.Basic

namespace Cert.LibStackedSum

open Finset

variable {M : Type*} [AddCommMonoid M]

/-- Channel `c` of table `k` sits at position `k * C + c` of the stack. -/
def pos (C : ℕ) (k : Fin 5) (c : Fin C) : Fin (5 * C) :=
  ⟨k.val * C + c.val, by
    have h1 : k.val * C + c.val < k.val * C + C := Nat.add_lt_add_left c.isLt _
    have h2 : k.val * C + C = (k.val + 1) * C := (Nat.succ_mul _ _).symm
    have h3 : (k.val + 1) * C ≤ 5 * C := Nat.mul_le_mul_right C k.isLt
    rw [h2] at h1
    exact lt_of_lt_of_le h1 h3⟩

@[simp] theorem pos_val (C : ℕ) (k : Fin 5) (c : Fin C) : (pos C k c).val = k.val * C + c.val := rfl

/-- The sum over the stack is the sum over the tables of the sums over each table's channels. -/
theorem sum_stack (C : ℕ) (f : Fin (5 * C) → M) :
    ∑ j : Fin (5 * C), f j = ∑ k : Fin 5, ∑ c : Fin C, f (pos C k c) := by
  rw [← Fintype.sum_prod_type' (f := fun k c => f (pos C k c))]
  refine (Fintype.sum_equiv finProdFinEquiv _ _ fun kc => ?_).symm
  refine congrArg f (Fin.ext ?_)
  simp [finProdFinEquiv, pos, Nat.mul_comm, Nat.add_comm]

/-- The same with the five tables' sums written out and added from the left, as a program that accumulates table
    by table leaves them. -/
theorem sum_stack_five (C : ℕ) (f : Fin (5 * C) → M) :
    ∑ j : Fin (5 * C), f j
      = (∑ c : Fin C, f (pos C 0 c)) + (∑ c : Fin C, f (pos C 1 c)) + (∑ c : Fin C, f (pos C 2 c))
        + (∑ c : Fin C, f (pos C 3 c)) + (∑ c : Fin C, f (pos C 4 c)) := by
  rw [sum_stack, Fin.sum_univ_five]

end Cert.LibStackedSum
-- ==== Proof.LibStackLayout.lean ====
import Idealize.ShloMosaic.Lib.Pipeline.Value
import Idealize.ShloMosaic.Lib.ValueIdx
import Idealize.ShloMosaic.Lib.ValueLayout

/-! # Tables stacked along the channel axis, and stacked weights flattened, read at an index

A sum over five tables `∑ₖ ∑_c hₖ[n, c] · W[k, c, o]` can be computed as ONE contraction `∑ⱼ H[n, j] · V[j, o]` when
the tables are laid side by side along the channel axis, `H[n, C·k + c] = hₖ[n, c]`, and the weights are flattened the
same way, `V[C·k + c, o] = W[k, c, o]`. The lemmas below read those two layouts at an index, over any element type:
the concatenation of five tables of `C` channels (`C = 2` and `C = 16`), the reshape `[5, C, 16] → [5·C, 16]`, and
the reshape `[16] → [1, 16]` that turns a bias vector into a row. They mention no program. -/

namespace Cert.LibStackLayout

open Idealize.ShloMosaic ValueIdx

variable {α : Type}

/-- Five tables of two channels laid side by side along the channel axis: channel `j = 2·k + c` (with `c < 2`) of row
    `n` of the stack is channel `c` of row `n` of table `k`, because the quotient of `j` by `2` names the table and the
    remainder the channel inside it. -/
theorem stack2_apply (u : Fin 5 → ((⟨2, ![500000, 2]⟩ : Shape).Idx → α))
    (h : Shape.Concatenates [(⟨2, ![500000, 2]⟩ : Shape), ⟨2, ![500000, 2]⟩, ⟨2, ![500000, 2]⟩, ⟨2, ![500000, 2]⟩,
      ⟨2, ![500000, 2]⟩] (⟨2, ![500000, 10]⟩ : Shape) 1)
    (n : Fin 500000) (j : Fin 10) (k : Fin 5) (c : Fin 2) (hj : j.val = k.val * 2 + c.val) :
    concatenate (⟨2, ![500000, 10]⟩ : Shape) 1 [⟨_, u 0⟩, ⟨_, u 1⟩, ⟨_, u 2⟩, ⟨_, u 3⟩, ⟨_, u 4⟩] h (ix2 n j) = u k (ix2 n c) := by
  have hc := c.isLt
  refine concatenate_ofFn_apply (t := ⟨2, ![500000, 10]⟩) (s₁ := ⟨2, ![500000, 2]⟩) 1 u h rfl 2 rfl (ix2 n j) k ?_
    (ix2 n c) ?_ ?_
  · show j.val / 2 = k.val
    omega
  · show c.val = j.val % 2
    omega
  · intro b hb
    match b with
    | ⟨0, _⟩ => rfl
    | ⟨1, _⟩ => exact absurd rfl hb

/-- Five tables of sixteen channels laid side by side along the channel axis: channel `j = 16·k + c` (with `c < 16`) of row
    `n` of the stack is channel `c` of row `n` of table `k`, because the quotient of `j` by `16` names the table and the
    remainder the channel inside it. -/
theorem stack16_apply (u : Fin 5 → ((⟨2, ![500000, 16]⟩ : Shape).Idx → α))
    (h : Shape.Concatenates [(⟨2, ![500000, 16]⟩ : Shape), ⟨2, ![500000, 16]⟩, ⟨2, ![500000, 16]⟩, ⟨2, ![500000, 16]⟩,
      ⟨2, ![500000, 16]⟩] (⟨2, ![500000, 80]⟩ : Shape) 1)
    (n : Fin 500000) (j : Fin 80) (k : Fin 5) (c : Fin 16) (hj : j.val = k.val * 16 + c.val) :
    concatenate (⟨2, ![500000, 80]⟩ : Shape) 1 [⟨_, u 0⟩, ⟨_, u 1⟩, ⟨_, u 2⟩, ⟨_, u 3⟩, ⟨_, u 4⟩] h (ix2 n j) = u k (ix2 n c) := by
  have hc := c.isLt
  refine concatenate_ofFn_apply (t := ⟨2, ![500000, 80]⟩) (s₁ := ⟨2, ![500000, 16]⟩) 1 u h rfl 16 rfl (ix2 n j) k ?_
    (ix2 n c) ?_ ?_
  · show j.val / 16 = k.val
    omega
  · show c.val = j.val % 16
    omega
  · intro b hb
    match b with
    | ⟨0, _⟩ => rfl
    | ⟨1, _⟩ => exact absurd rfl hb

/-- Five `2 × 16` weight slabs flattened to one `10 × 16` matrix: row `j = 2·k + c` (with `c < 2`) of the matrix is row
    `c` of slab `k`, because a reshape keeps the row-major position and `(k, c, o)` and `(2·k + c, o)` both sit at
    `(2·k + c)·16 + o`. -/
theorem flat2_apply (x : (⟨3, ![5, 2, 16]⟩ : Shape).Idx → α) (h : (⟨3, ![5, 2, 16]⟩ : Shape).ShapeCasts (⟨2, ![10, 16]⟩ : Shape))
    (j : Fin 10) (k : Fin 5) (c : Fin 2) (hj : j.val = k.val * 2 + c.val) (o : Fin 16) :
    shapeCast (⟨2, ![10, 16]⟩ : Shape) x h (ix2 j o) = x (ix3 k c o) := by
  refine shapeCast_apply x h (ix2 j o) (ix3 k c o) ?_
  rewrite [Shape.rowMajor_val_three, Shape.rowMajor_val_two]
  show (k.val * 2 + c.val) * 16 + o.val = j.val * 16 + o.val
  rw [hj]

/-- Five `16 × 16` weight slabs flattened to one `80 × 16` matrix: row `j = 16·k + c` (with `c < 16`) of the matrix is row
    `c` of slab `k`, because a reshape keeps the row-major position and `(k, c, o)` and `(16·k + c, o)` both sit at
    `(16·k + c)·16 + o`. -/
theorem flat16_apply (x : (⟨3, ![5, 16, 16]⟩ : Shape).Idx → α) (h : (⟨3, ![5, 16, 16]⟩ : Shape).ShapeCasts (⟨2, ![80, 16]⟩ : Shape))
    (j : Fin 80) (k : Fin 5) (c : Fin 16) (hj : j.val = k.val * 16 + c.val) (o : Fin 16) :
    shapeCast (⟨2, ![80, 16]⟩ : Shape) x h (ix2 j o) = x (ix3 k c o) := by
  refine shapeCast_apply x h (ix2 j o) (ix3 k c o) ?_
  rewrite [Shape.rowMajor_val_three, Shape.rowMajor_val_two]
  show (k.val * 16 + c.val) * 16 + o.val = j.val * 16 + o.val
  rw [hj]

/-- A vector of sixteen entries reshaped to a `1 × 16` row: entry `(0, o)` of the row is entry `o` of the vector (both sit
    at row-major position `o`). -/
theorem row_apply (x : (⟨1, ![16]⟩ : Shape).Idx → α) (h : (⟨1, ![16]⟩ : Shape).ShapeCasts (⟨2, ![1, 16]⟩ : Shape))
    (o : Fin 16) : shapeCast (⟨2, ![1, 16]⟩ : Shape) x h (ix2 0 o) = x (ix1 o) := by
  refine shapeCast_apply x h (ix2 0 o) (ix1 o) ?_
  rewrite [Shape.rowMajor_val_one, Shape.rowMajor_val_two]
  show o.val = 0 * 16 + o.val
  omega

end Cert.LibStackLayout
-- ==== Proof.KI.Join1.lean ====
/-
  The first dense layer's output array, read at an index, as the five hop tables' products with their weight slabs added
  from the left: the form the layer has when it is written table by table.
-/
import proofs.«166631_j6399501271545_1_alg».proof.Proof.KI.Val0
import proofs.«166631_j6399501271545_1_alg».proof.Proof.LibStackedSum
import proofs.«166631_j6399501271545_1_alg».proof.Proof.LibStackLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx Cert.LibStackedSum Cert.LibStackLayout
open scoped BigOperators

/-! ## One product over the stacked channels is five products added from the left -/

/-- With the five tables laid side by side along the channel axis and the five weight slabs flattened the same way,
    channel 2 k + c of the stack pairs channel c of table k with row c of slab k: the one sum over the 10 stacked
    channels is the five sums over 2 channels, added from the left; and the bias row's entry o is the bias vector's. -/
theorem stacked1_eq (x h1 h2 h3 h4 : S500000x2.Idx → EReal) (w : S5x2x16.Idx → EReal) (b : S16.Idx → EReal)
    (n : Fin 500000) (o : Fin 16) :
    max ((∑ j : Fin 10, (concatenate S500000x10 1 [⟨S500000x2, x⟩, ⟨S500000x2, h1⟩, ⟨S500000x2, h2⟩, ⟨S500000x2, h3⟩, ⟨S500000x2, h4⟩] concatenates_S500000x2_S500000x2_S500000x2_S500000x2_S500000x2_S500000x10_d1 : S500000x10.Idx → EReal) (ix2 n j) * (shapeCast S10x16 w shapeCasts_S5x2x16_S10x16 : S10x16.Idx → EReal) (ix2 j o))
          + (shapeCast S1x16 b shapeCasts_S16_S1x16 : S1x16.Idx → EReal) (ix2 0 o)) 0
      = max ((∑ c : Fin 2, x (ix2 n c) * w (ix3 0 c o)) + (∑ c : Fin 2, h1 (ix2 n c) * w (ix3 1 c o)) + (∑ c : Fin 2, h2 (ix2 n c) * w (ix3 2 c o))
             + (∑ c : Fin 2, h3 (ix2 n c) * w (ix3 3 c o)) + (∑ c : Fin 2, h4 (ix2 n c) * w (ix3 4 c o)) + b (ix1 o)) 0 := by
  have hb : (shapeCast S1x16 b shapeCasts_S16_S1x16 : S1x16.Idx → EReal) (ix2 0 o) = b (ix1 o) := row_apply b shapeCasts_S16_S1x16 o
  have e : ∀ (k : Fin 5) (c : Fin 2),
      (concatenate S500000x10 1 [⟨S500000x2, x⟩, ⟨S500000x2, h1⟩, ⟨S500000x2, h2⟩, ⟨S500000x2, h3⟩, ⟨S500000x2, h4⟩] concatenates_S500000x2_S500000x2_S500000x2_S500000x2_S500000x2_S500000x10_d1 : S500000x10.Idx → EReal) (ix2 n (pos 2 k c)) * (shapeCast S10x16 w shapeCasts_S5x2x16_S10x16 : S10x16.Idx → EReal) (ix2 (pos 2 k c) o)
        = (![x, h1, h2, h3, h4] k) (ix2 n c) * w (ix3 k c o) := fun k c =>
    congrArg₂ (· * ·) (stack2_apply ![x, h1, h2, h3, h4] concatenates_S500000x2_S500000x2_S500000x2_S500000x2_S500000x2_S500000x10_d1 n (pos 2 k c) k c rfl)
      (flat2_apply w shapeCasts_S5x2x16_S10x16 (pos 2 k c) k c rfl o)
  have hsum : (∑ j : Fin 10, (concatenate S500000x10 1 [⟨S500000x2, x⟩, ⟨S500000x2, h1⟩, ⟨S500000x2, h2⟩, ⟨S500000x2, h3⟩, ⟨S500000x2, h4⟩] concatenates_S500000x2_S500000x2_S500000x2_S500000x2_S500000x2_S500000x10_d1 : S500000x10.Idx → EReal) (ix2 n j) * (shapeCast S10x16 w shapeCasts_S5x2x16_S10x16 : S10x16.Idx → EReal) (ix2 j o))
      = (∑ c : Fin 2, x (ix2 n c) * w (ix3 0 c o)) + (∑ c : Fin 2, h1 (ix2 n c) * w (ix3 1 c o)) + (∑ c : Fin 2, h2 (ix2 n c) * w (ix3 2 c o)) + (∑ c : Fin 2, h3 (ix2 n c) * w (ix3 3 c o)) + (∑ c : Fin 2, h4 (ix2 n c) * w (ix3 4 c o)) :=
    (sum_stack_five 2 (fun j : Fin (5 * 2) => (concatenate S500000x10 1 [⟨S500000x2, x⟩, ⟨S500000x2, h1⟩, ⟨S500000x2, h2⟩, ⟨S500000x2, h3⟩, ⟨S500000x2, h4⟩] concatenates_S500000x2_S500000x2_S500000x2_S500000x2_S500000x2_S500000x10_d1 : S500000x10.Idx → EReal) (ix2 n j) * (shapeCast S10x16 w shapeCasts_S5x2x16_S10x16 : S10x16.Idx → EReal) (ix2 j o))).trans
      (congrArg₂ (· + ·) (congrArg₂ (· + ·) (congrArg₂ (· + ·) (congrArg₂ (· + ·) (Finset.sum_congr rfl fun c _ => e 0 c) (Finset.sum_congr rfl fun c _ => e 1 c)) (Finset.sum_congr rfl fun c _ => e 2 c)) (Finset.sum_congr rfl fun c _ => e 3 c)) (Finset.sum_congr rfl fun c _ => e 4 c))
  exact congrArg₂ (fun s t : EReal => max (s + t) 0) hsum hb

variable (V : (c : Dev nD) → (b : Ref sig .tc) → Buf (Elt Ideal) ((c : Thread nD τ).loc b))

/-- The output array after region 0 at node n and channel o, when the region finds the stack of the five tables,
    the flattened weight slabs and the bias vector as a row: the larger of 0 and the five tables' products with their
    slabs, added from the left, plus the bias. -/
theorem layer1_join (c : Dev nD) (x h1 h2 h3 h4 : S500000x2.Idx → EReal) (w : S5x2x16.Idx → EReal) (b : S16.Idx → EReal)
    (hT : V c main_v79 = concatenate S500000x10 1 [⟨S500000x2, x⟩, ⟨S500000x2, h1⟩, ⟨S500000x2, h2⟩, ⟨S500000x2, h3⟩, ⟨S500000x2, h4⟩] concatenates_S500000x2_S500000x2_S500000x2_S500000x2_S500000x2_S500000x10_d1)
    (hW : V c main_v80 = shapeCast S10x16 w shapeCasts_S5x2x16_S10x16)
    (hB : V c main_v81 = shapeCast S1x16 b shapeCasts_S16_S1x16) (n : Fin 500000) (o : Fin 16) :
    (dat0 (F := Ideal) V c).arrAt 3 cfg0.N (ix2 n o)
      = max ((∑ c : Fin 2, x (ix2 n c) * w (ix3 0 c o)) + (∑ c : Fin 2, h1 (ix2 n c) * w (ix3 1 c o)) + (∑ c : Fin 2, h2 (ix2 n c) * w (ix3 2 c o))
             + (∑ c : Fin 2, h3 (ix2 n c) * w (ix3 3 c o)) + (∑ c : Fin 2, h4 (ix2 n c) * w (ix3 4 c o)) + b (ix1 o)) 0 :=
  (final0 V c _ _ _ hT hW hB n o).trans (stacked1_eq x h1 h2 h3 h4 w b n o)

end Cert.KernelIdeal.Hand

end
-- ==== Proof.KI.Val1.lean ====
/-
  What region 1 of the idealized kernel leaves in its output array, read at an index, at the ideal values (extended
  reals).
-/
import proofs.«166631_j6399501271545_1_alg».proof.Proof.KI.Body1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx
open scoped BigOperators

/-! ## The body's arithmetic at one element of the block -/

/-- The product's left operand index at output (r, o) and contraction position q: row r, -/
theorem lhs1_0 (i : S10000x16.Idx) (q : dot_S10000x80_S80x16_S10000x16_1_0_0_1_n_n.contr.Idx) :
    (dot_S10000x80_S80x16_S10000x16_1_0_0_1_n_n.lhsIdx i q 0).val = (i 0).val := by
  unfold DotDims.lhsIdx
  rw [dif_neg (show ¬(0 : Fin S10000x80.rank) ∈ dot_S10000x80_S80x16_S10000x16_1_0_0_1_n_n.lhsBatch by decide), dif_pos (show (0 : Fin S10000x80.rank) ∈ dot_S10000x80_S80x16_S10000x16_1_0_0_1_n_n.lhsNonContracting by decide)]
  rfl
/-- column q; -/
theorem lhs1_1 (i : S10000x16.Idx) (q : dot_S10000x80_S80x16_S10000x16_1_0_0_1_n_n.contr.Idx) :
    (dot_S10000x80_S80x16_S10000x16_1_0_0_1_n_n.lhsIdx i q 1).val = (q ⟨0, by decide⟩).val :=
  dot_S10000x80_S80x16_S10000x16_1_0_0_1_n_n.lhsIdx_val_of_single rfl i q
/-- the right operand's: row q, -/
theorem rhs1_0 (i : S10000x16.Idx) (q : dot_S10000x80_S80x16_S10000x16_1_0_0_1_n_n.contr.Idx) :
    (dot_S10000x80_S80x16_S10000x16_1_0_0_1_n_n.rhsIdx i q 0).val = (q ⟨0, by decide⟩).val :=
  dot_S10000x80_S80x16_S10000x16_1_0_0_1_n_n.rhsIdx_val_of_single rfl i q
/-- column o. -/
theorem rhs1_1 (i : S10000x16.Idx) (q : dot_S10000x80_S80x16_S10000x16_1_0_0_1_n_n.contr.Idx) :
    (dot_S10000x80_S80x16_S10000x16_1_0_0_1_n_n.rhsIdx i q 1).val = (i 1).val := by
  unfold DotDims.rhsIdx
  rw [dif_neg (show ¬(1 : Fin S80x16.rank) ∈ dot_S10000x80_S80x16_S10000x16_1_0_0_1_n_n.rhsBatch by decide), dif_pos (show (1 : Fin S80x16.rank) ∈ dot_S10000x80_S80x16_S10000x16_1_0_0_1_n_n.rhsNonContracting by decide)]
  rfl

/-- The matrix product into the zero accumulator, at row r and column o: the sum over the 80 stacked channels. -/
theorem matmul1_apply (a : FVec Ideal S10000x80 .bf16) (b : FVec Ideal S80x16 .bf16) (r : Fin 10000) (o : Fin 16) :
    matmul dot_S10000x80_S80x16_S10000x16_1_0_0_1_n_n none a b (constant S10000x16 .f32 0x00000000#32) (ix2 r o)
      = ∑ j : Fin 80, a (ix2 r j) * b (ix2 j o) := by
  simp only [matmul]
  rw [Ideal.matmul_constant_zero_apply, ← Equiv.sum_comp (ValueIdx.contrEquiv1 dot_S10000x80_S80x16_S10000x16_1_0_0_1_n_n 80 rfl rfl).symm]
  refine Finset.sum_congr rfl fun k _ => ?_
  have hk := ValueIdx.contrEquiv1_symm_val dot_S10000x80_S80x16_S10000x16_1_0_0_1_n_n 80 rfl rfl k
  have el : dot_S10000x80_S80x16_S10000x16_1_0_0_1_n_n.lhsIdx (ix2 r o) ((ValueIdx.contrEquiv1 dot_S10000x80_S80x16_S10000x16_1_0_0_1_n_n 80 rfl rfl).symm k) = ix2 r k := funext fun a => Fin.ext (by
    match a with
    | ⟨0, _⟩ => exact lhs1_0 _ _
    | ⟨1, _⟩ => exact (lhs1_1 _ _).trans hk)
  have er : dot_S10000x80_S80x16_S10000x16_1_0_0_1_n_n.rhsIdx (ix2 r o) ((ValueIdx.contrEquiv1 dot_S10000x80_S80x16_S10000x16_1_0_0_1_n_n 80 rfl rfl).symm k) = ix2 k o := funext fun a => Fin.ext (by
    match a with
    | ⟨0, _⟩ => exact (rhs1_0 _ _).trans hk
    | ⟨1, _⟩ => exact rhs1_1 _ _)
  rw [el, er]

/-- The stored value at row r, column o of the block: the larger of 0 and the row of the stacked block times the column
    of the weights, plus the bias of that column. -/
theorem pay1_apply (x0 : Vec Ideal S10000x80 .f32) (x1 : Vec Ideal S80x16 .f32) (x2 : Vec Ideal S1x16 .f32) (r : Fin 10000) (o : Fin 16) :
    (k1_pay1 (F := Ideal) x0 x1 x2 : S10000x16.Idx → EReal) (ix2 r o)
      = max ((∑ j : Fin 80, (x0 : S10000x80.Idx → EReal) (ix2 r j) * (x1 : S80x16.Idx → EReal) (ix2 j o))
             + (x2 : S1x16.Idx → EReal) (ix2 0 o)) 0 := by
  unfold k1_pay1
  rw [maximumf_apply, addf_apply, broadcast_apply, matmul1_apply, broadcastTo_1b_ab_apply]
  simp only [shapeCast_self, truncf_apply]
  rw [show (Scalar.ofBits (F := Ideal) .f32 0x00000000#32 : EReal) = 0 from Ideal.ofBits_zero_f32]

/-! ## The layer on the whole arrays -/

variable (V : (c : Dev nD) → (b : Ref sig .tc) → Buf (Elt Ideal) ((c : Thread nD τ).loc b))

/-- The second dense layer at node n and output channel o: the larger of 0 and the node's 80 stacked features times column
    o of the weights, plus the bias of channel o. -/
def dense1 (A : S500000x80.Idx → EReal) (W : S80x16.Idx → EReal) (B : S1x16.Idx → EReal) (n : Fin 500000) (o : Fin 16) : EReal :=
  max ((∑ j : Fin 80, A (ix2 n j) * W (ix2 j o)) + B (ix2 0 o)) 0

/-- The same as one function of the output array's index. -/
def G1 (A : S500000x80.Idx → EReal) (W : S80x16.Idx → EReal) (B : S1x16.Idx → EReal) : S500000x16.Idx → EReal :=
  fun i => dense1 A W B ⟨(i 0).val, idx2_lt0 i⟩ ⟨(i 1).val, idx2_lt1 i⟩

/-- The block's value at row r, channel o is the layer at node 10000 T + r, when the stacked block holds rows
    10000 T … 10000 T + 9999 of the table and the other two blocks are the whole weight matrix and bias row. -/
theorem pay1_block (A : S500000x80.Idx → EReal) (W : S80x16.Idx → EReal) (B : S1x16.Idx → EReal)
    (x0 : Vec Ideal S10000x80 .f32) (x1 : Vec Ideal S80x16 .f32) (x2 : Vec Ideal S1x16 .f32) (T : ℕ) (hT : T < 50)
    (h0 : ∀ (r : Fin 10000) (j : Fin 80), (x0 : S10000x80.Idx → EReal) (ix2 r j) = A (ix2 (⟨10000 * T + r.val, by omega⟩ : Fin 500000) j))
    (h1 : ∀ (j : Fin 80) (o : Fin 16), (x1 : S80x16.Idx → EReal) (ix2 j o) = W (ix2 j o))
    (h2 : ∀ o : Fin 16, (x2 : S1x16.Idx → EReal) (ix2 0 o) = B (ix2 0 o))
    (r : Fin 10000) (o : Fin 16) :
    (k1_pay1 (F := Ideal) x0 x1 x2 : S10000x16.Idx → EReal) (ix2 r o) = dense1 A W B ⟨10000 * T + r.val, by omega⟩ o := by
  rw [pay1_apply]
  unfold dense1
  simp only [h0, h1, h2]

/-! ## From blocks to the array -/

theorem hz1 : (![0, 0] : Fin 2 → Nat) = fun _ => 0 := funext fun a => by fin_cases a <;> rfl

/-- The block index maps, decided over the 50 grid points: the stacked table's and the output's row block is the point's
    number, their column block 0; the weights and the bias row stay at block (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N1 (t : Fin cfg1.N) : t.val < 50 := lt_of_lt_of_eq t.isLt N_1

/-- The stacked-table block at point t is rows 10000 t … 10000 t + 9999 of the table. -/
theorem iblk1_0_apply (c : Dev nD) (t : Fin cfg1.N) (r : Fin 10000) (j : Fin 80) :
    (iblk1 (F := Ideal) V c 0 t : S10000x80.Idx → EReal) (ix2 r j)
      = (V c main_v135 : S500000x80.Idx → EReal) (ix2 (⟨10000 * t.val + r.val, by have := lt_N1 t; omega⟩ : Fin 500000) j) := by
  obtain ⟨e0, e1, -⟩ := idx_facts1 t
  unfold iblk1
  show (V c main_v135 : S500000x80.Idx → EReal) (((cfg1.win 0).blk t).view.emb (ix2 r j)) = _
  refine congrArg (V c main_v135 : S500000x80.Idx → EReal) (funext fun a => Fin.ext ?_)
  match a with
  | ⟨0, _⟩ => show win1_0.index t (0 : Fin 2) * 10000 + 1 * r.val = 10000 * t.val + r.val; omega
  | ⟨1, _⟩ => show win1_0.index t (1 : Fin 2) * 80 + 1 * j.val = j.val; omega

/-- The weight block at every point is the whole weight matrix. -/
theorem iblk1_1_apply (c : Dev nD) (t : Fin cfg1.N) (j : Fin 80) (o : Fin 16) :
    (iblk1 (F := Ideal) V c 1 t : S80x16.Idx → EReal) (ix2 j o) = (V c main_v136 : S80x16.Idx → EReal) (ix2 j o) := by
  obtain ⟨-, -, e2, e3, -⟩ := idx_facts1 t
  unfold iblk1
  show (V c main_v136 : S80x16.Idx → EReal) (((cfg1.win 1).blk t).view.emb (ix2 j o)) = _
  refine congrArg (V c main_v136 : S80x16.Idx → EReal) (funext fun a => Fin.ext ?_)
  match a with
  | ⟨0, _⟩ => show win1_1.index t (0 : Fin 2) * 80 + 1 * j.val = j.val; omega
  | ⟨1, _⟩ => show win1_1.index t (1 : Fin 2) * 16 + 1 * o.val = o.val; omega

/-- The bias block at every point is the whole bias row. -/
theorem iblk1_2_apply (c : Dev nD) (t : Fin cfg1.N) (o : Fin 16) :
    (iblk1 (F := Ideal) V c 2 t : S1x16.Idx → EReal) (ix2 0 o) = (V c main_v137 : S1x16.Idx → EReal) (ix2 0 o) := by
  obtain ⟨-, -, -, -, e4, e5, -⟩ := idx_facts1 t
  unfold iblk1
  show (V c main_v137 : S1x16.Idx → EReal) (((cfg1.win 2).blk t).view.emb (ix2 0 o)) = _
  refine congrArg (V c main_v137 : S1x16.Idx → EReal) (funext fun a => Fin.ext ?_)
  match a with
  | ⟨0, _⟩ => show win1_2.index t (0 : Fin 2) * 1 + 1 * 0 = 0; omega
  | ⟨1, _⟩ => show win1_2.index t (1 : Fin 2) * 16 + 1 * o.val = o.val; omega

/-- What point t writes back is block t of the layer on the whole arrays. -/
theorem flushed1_eq (c : Dev nD) (t : Fin cfg1.N) :
    (dat1 (F := Ideal) V c).flushed 3 t
      = ((cfg1.win 3).blk t).view.read (Elt Ideal) (G1 (V c main_v135) (V c main_v136) (V c main_v137)) := by
  show (cfg1.win 3).cut (grid1.coords t) ((dat1 (F := Ideal) V c).after 3 t) = _
  rw [after1_3]
  unfold out1_3
  rw [View.canon_unit_zero hz1]
  simp only [View.ld_unit_zero (S := S10000x80) hz1, View.ld_unit_zero (S := S80x16) hz1, View.ld_unit_zero (S := S1x16) hz1]
  obtain ⟨-, -, -, -, -, -, e6, e7⟩ := idx_facts1 t
  have ht : t.val < 50 := lt_N1 t
  funext y
  have hy0 : (y 0).val < 10000 := (y 0).isLt
  have hy1 : (y 1).val < 16 := (y 1).isLt
  have hx : (cfg1.win 3).xinj (grid1.coords t) y = (ix2 (⟨(y 0).val, hy0⟩ : Fin 10000) (⟨(y 1).val, hy1⟩ : Fin 16) : S10000x16.Idx) :=
    funext fun a => by match a with | ⟨0, _⟩ => rfl | ⟨1, _⟩ => rfl
  have hemb : ((cfg1.win 3).blk t).view.emb y
      = (ix2 (⟨10000 * t.val + (y 0).val, by omega⟩ : Fin 500000) (⟨(y 1).val, hy1⟩ : Fin 16) : S500000x16.Idx) :=
    funext fun a => Fin.ext (by
      match a with
      | ⟨0, _⟩ => show win1_3.index t (0 : Fin 2) * 10000 + 1 * (y 0).val = 10000 * t.val + (y 0).val; omega
      | ⟨1, _⟩ => show win1_3.index t (1 : Fin 2) * 16 + 1 * (y 1).val = (y 1).val; omega)
  show (k1_pay1 (F := Ideal) (iblk1 V c 0 t) (iblk1 V c 1 t) (iblk1 V c 2 t) : S10000x16.Idx → EReal) ((cfg1.win 3).xinj (grid1.coords t) y)
      = G1 (V c main_v135) (V c main_v136) (V c main_v137) (((cfg1.win 3).blk t).view.emb y)
  rw [hx, hemb]
  exact pay1_block (V c main_v135) (V c main_v136) (V c main_v137) (iblk1 V c 0 t) (iblk1 V c 1 t) (iblk1 V c 2 t) t.val ht
    (fun r j => iblk1_0_apply V c t r j) (fun j o => iblk1_1_apply V c t j o) (fun o => iblk1_2_apply V c t o)
    ⟨(y 0).val, hy0⟩ ⟨(y 1).val, hy1⟩

/-- An index of the output array is in point t's block iff each coordinate is in the block's range on its axis. -/
theorem mem_blk1 (t : Fin cfg1.N) (i : S500000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v138).slice (win1_3.rect t)).set ↔ _
  rw [View.set_slice_whole, Rect.mem_set_unit]
  exact Iff.rfl

/-- Every row of the output array is in some point's block: row n in the block of point n / 10000. -/
theorem cover1 (i : S500000x16.Idx) : ∃ t : Fin cfg1.N, (cfg1.win 3).flush t = true ∧ i ∈ ((cfg1.win 3).blk t).view.set := by
  have hi0 : (i 0).val < 500000 := (i 0).isLt
  have hi1 : (i 1).val < 16 := (i 1).isLt
  let t : Fin cfg1.N := ⟨(i 0).val / 10000, lt_of_lt_of_eq (by omega : (i 0).val / 10000 < 50) N_1.symm⟩
  obtain ⟨-, -, -, -, -, -, e6, e7⟩ := idx_facts1 t
  have e6' : win1_3.index t (0 : Fin 2) = (i 0).val / 10000 := e6
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- The output array after the region: the layer on the whole arrays. -/
theorem arr1_eq (c : Dev nD) :
    (dat1 (F := Ideal) V c).arrAt 3 cfg1.N = G1 (V c main_v135) (V c main_v136) (V c main_v137) :=
  (dat1 (F := Ideal) V c).arrAt_eq_of_cover 3 (G1 (V c main_v135) (V c main_v136) (V c main_v137)) (fun t _ => flushed1_eq V c t) cover1

/-- The output array after region 1 at node n and channel o, over the three input arrays as the region finds them
    (named A, W, B: the stacked table, the weights, the bias row). -/
theorem final1 (c : Dev nD) (A : S500000x80.Idx → EReal) (W : S80x16.Idx → EReal) (B : S1x16.Idx → EReal)
    (hA : V c main_v135 = A) (hW : V c main_v136 = W) (hB : V c main_v137 = B) (n : Fin 500000) (o : Fin 16) :
    (dat1 (F := Ideal) V c).arrAt 3 cfg1.N (ix2 n o)
      = max ((∑ j : Fin 80, A (ix2 n j) * W (ix2 j o)) + B (ix2 0 o)) 0 := by
  subst hA hW hB
  rw [arr1_eq]
  rfl

end Cert.KernelIdeal.Hand

end
-- ==== Proof.KI.Join2.lean ====
/-
  The second dense layer's output array, read at an index, as the five hidden tables' products with their weight slabs
  added from the left: the form the layer has when it is written table by table.
-/
import proofs.«166631_j6399501271545_1_alg».proof.Proof.KI.Val1
import proofs.«166631_j6399501271545_1_alg».proof.Proof.LibStackedSum
import proofs.«166631_j6399501271545_1_alg».proof.Proof.LibStackLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx Cert.LibStackedSum Cert.LibStackLayout
open scoped BigOperators

/-! ## One product over the stacked channels is five products added from the left -/

/-- With the five tables laid side by side along the channel axis and the five weight slabs flattened the same way,
    channel 16 k + c of the stack pairs channel c of table k with row c of slab k: the one sum over the 80 stacked
    channels is the five sums over 16 channels, added from the left; and the bias row's entry o is the bias vector's. -/
theorem stacked2_eq (x h1 h2 h3 h4 : S500000x16.Idx → EReal) (w : S5x16x16.Idx → EReal) (b : S16.Idx → EReal)
    (n : Fin 500000) (o : Fin 16) :
    max ((∑ j : Fin 80, (concatenate S500000x80 1 [⟨S500000x16, x⟩, ⟨S500000x16, h1⟩, ⟨S500000x16, h2⟩, ⟨S500000x16, h3⟩, ⟨S500000x16, h4⟩] concatenates_S500000x16_S500000x16_S500000x16_S500000x16_S500000x16_S500000x80_d1 : S500000x80.Idx → EReal) (ix2 n j) * (shapeCast S80x16 w shapeCasts_S5x16x16_S80x16 : S80x16.Idx → EReal) (ix2 j o))
          + (shapeCast S1x16 b shapeCasts_S16_S1x16 : S1x16.Idx → EReal) (ix2 0 o)) 0
      = max ((∑ c : Fin 16, x (ix2 n c) * w (ix3 0 c o)) + (∑ c : Fin 16, h1 (ix2 n c) * w (ix3 1 c o)) + (∑ c : Fin 16, h2 (ix2 n c) * w (ix3 2 c o))
             + (∑ c : Fin 16, h3 (ix2 n c) * w (ix3 3 c o)) + (∑ c : Fin 16, h4 (ix2 n c) * w (ix3 4 c o)) + b (ix1 o)) 0 := by
  have hb : (shapeCast S1x16 b shapeCasts_S16_S1x16 : S1x16.Idx → EReal) (ix2 0 o) = b (ix1 o) := row_apply b shapeCasts_S16_S1x16 o
  have e : ∀ (k : Fin 5) (c : Fin 16),
      (concatenate S500000x80 1 [⟨S500000x16, x⟩, ⟨S500000x16, h1⟩, ⟨S500000x16, h2⟩, ⟨S500000x16, h3⟩, ⟨S500000x16, h4⟩] concatenates_S500000x16_S500000x16_S500000x16_S500000x16_S500000x16_S500000x80_d1 : S500000x80.Idx → EReal) (ix2 n (pos 16 k c)) * (shapeCast S80x16 w shapeCasts_S5x16x16_S80x16 : S80x16.Idx → EReal) (ix2 (pos 16 k c) o)
        = (![x, h1, h2, h3, h4] k) (ix2 n c) * w (ix3 k c o) := fun k c =>
    congrArg₂ (· * ·) (stack16_apply ![x, h1, h2, h3, h4] concatenates_S500000x16_S500000x16_S500000x16_S500000x16_S500000x16_S500000x80_d1 n (pos 16 k c) k c rfl)
      (flat16_apply w shapeCasts_S5x16x16_S80x16 (pos 16 k c) k c rfl o)
  have hsum : (∑ j : Fin 80, (concatenate S500000x80 1 [⟨S500000x16, x⟩, ⟨S500000x16, h1⟩, ⟨S500000x16, h2⟩, ⟨S500000x16, h3⟩, ⟨S500000x16, h4⟩] concatenates_S500000x16_S500000x16_S500000x16_S500000x16_S500000x16_S500000x80_d1 : S500000x80.Idx → EReal) (ix2 n j) * (shapeCast S80x16 w shapeCasts_S5x16x16_S80x16 : S80x16.Idx → EReal) (ix2 j o))
      = (∑ c : Fin 16, x (ix2 n c) * w (ix3 0 c o)) + (∑ c : Fin 16, h1 (ix2 n c) * w (ix3 1 c o)) + (∑ c : Fin 16, h2 (ix2 n c) * w (ix3 2 c o)) + (∑ c : Fin 16, h3 (ix2 n c) * w (ix3 3 c o)) + (∑ c : Fin 16, h4 (ix2 n c) * w (ix3 4 c o)) :=
    (sum_stack_five 16 (fun j : Fin (5 * 16) => (concatenate S500000x80 1 [⟨S500000x16, x⟩, ⟨S500000x16, h1⟩, ⟨S500000x16, h2⟩, ⟨S500000x16, h3⟩, ⟨S500000x16, h4⟩] concatenates_S500000x16_S500000x16_S500000x16_S500000x16_S500000x16_S500000x80_d1 : S500000x80.Idx → EReal) (ix2 n j) * (shapeCast S80x16 w shapeCasts_S5x16x16_S80x16 : S80x16.Idx → EReal) (ix2 j o))).trans
      (congrArg₂ (· + ·) (congrArg₂ (· + ·) (congrArg₂ (· + ·) (congrArg₂ (· + ·) (Finset.sum_congr rfl fun c _ => e 0 c) (Finset.sum_congr rfl fun c _ => e 1 c)) (Finset.sum_congr rfl fun c _ => e 2 c)) (Finset.sum_congr rfl fun c _ => e 3 c)) (Finset.sum_congr rfl fun c _ => e 4 c))
  exact congrArg₂ (fun s t : EReal => max (s + t) 0) hsum hb

variable (V : (c : Dev nD) → (b : Ref sig .tc) → Buf (Elt Ideal) ((c : Thread nD τ).loc b))

/-- The output array after region 1 at node n and channel o, when the region finds the stack of the five tables,
    the flattened weight slabs and the bias vector as a row: the larger of 0 and the five tables' products with their
    slabs, added from the left, plus the bias. -/
theorem layer2_join (c : Dev nD) (x h1 h2 h3 h4 : S500000x16.Idx → EReal) (w : S5x16x16.Idx → EReal) (b : S16.Idx → EReal)
    (hT : V c main_v135 = concatenate S500000x80 1 [⟨S500000x16, x⟩, ⟨S500000x16, h1⟩, ⟨S500000x16, h2⟩, ⟨S500000x16, h3⟩, ⟨S500000x16, h4⟩] concatenates_S500000x16_S500000x16_S500000x16_S500000x16_S500000x16_S500000x80_d1)
    (hW : V c main_v136 = shapeCast S80x16 w shapeCasts_S5x16x16_S80x16)
    (hB : V c main_v137 = shapeCast S1x16 b shapeCasts_S16_S1x16) (n : Fin 500000) (o : Fin 16) :
    (dat1 (F := Ideal) V c).arrAt 3 cfg1.N (ix2 n o)
      = max ((∑ c : Fin 16, x (ix2 n c) * w (ix3 0 c o)) + (∑ c : Fin 16, h1 (ix2 n c) * w (ix3 1 c o)) + (∑ c : Fin 16, h2 (ix2 n c) * w (ix3 2 c o))
             + (∑ c : Fin 16, h3 (ix2 n c) * w (ix3 3 c o)) + (∑ c : Fin 16, h4 (ix2 n c) * w (ix3 4 c o)) + b (ix1 o)) 0 :=
  (final1 V c _ _ _ hT hW hB n o).trans (stacked2_eq x h1 h2 h3 h4 w b n o)

end Cert.KernelIdeal.Hand

end
-- ==== Proof.KI.Val2.lean ====
/-
  What region 2 of the idealized kernel leaves in its output array, read at an index, at the ideal values (extended
  reals).
-/
import proofs.«166631_j6399501271545_1_alg».proof.Proof.KI.Body2
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open ValueIdx
open scoped BigOperators

/-! ## The body's arithmetic at one element of the block -/

/-- The product's left operand index at output (r, o) and contraction position q: row r, -/
theorem lhs2_0 (i : S10000x1.Idx) (q : dot_S10000x16_S16x1_S10000x1_1_0_0_1_n_n.contr.Idx) :
    (dot_S10000x16_S16x1_S10000x1_1_0_0_1_n_n.lhsIdx i q 0).val = (i 0).val := by
  unfold DotDims.lhsIdx
  rw [dif_neg (show ¬(0 : Fin S10000x16.rank) ∈ dot_S10000x16_S16x1_S10000x1_1_0_0_1_n_n.lhsBatch by decide), dif_pos (show (0 : Fin S10000x16.rank) ∈ dot_S10000x16_S16x1_S10000x1_1_0_0_1_n_n.lhsNonContracting by decide)]
  rfl
/-- column q; -/
theorem lhs2_1 (i : S10000x1.Idx) (q : dot_S10000x16_S16x1_S10000x1_1_0_0_1_n_n.contr.Idx) :
    (dot_S10000x16_S16x1_S10000x1_1_0_0_1_n_n.lhsIdx i q 1).val = (q ⟨0, by decide⟩).val :=
  dot_S10000x16_S16x1_S10000x1_1_0_0_1_n_n.lhsIdx_val_of_single rfl i q
/-- the right operand's: row q, -/
theorem rhs2_0 (i : S10000x1.Idx) (q : dot_S10000x16_S16x1_S10000x1_1_0_0_1_n_n.contr.Idx) :
    (dot_S10000x16_S16x1_S10000x1_1_0_0_1_n_n.rhsIdx i q 0).val = (q ⟨0, by decide⟩).val :=
  dot_S10000x16_S16x1_S10000x1_1_0_0_1_n_n.rhsIdx_val_of_single rfl i q
/-- column o. -/
theorem rhs2_1 (i : S10000x1.Idx) (q : dot_S10000x16_S16x1_S10000x1_1_0_0_1_n_n.contr.Idx) :
    (dot_S10000x16_S16x1_S10000x1_1_0_0_1_n_n.rhsIdx i q 1).val = (i 1).val := by
  unfold DotDims.rhsIdx
  rw [dif_neg (show ¬(1 : Fin S16x1.rank) ∈ dot_S10000x16_S16x1_S10000x1_1_0_0_1_n_n.rhsBatch by decide), dif_pos (show (1 : Fin S16x1.rank) ∈ dot_S10000x16_S16x1_S10000x1_1_0_0_1_n_n.rhsNonContracting by decide)]
  rfl

/-- The matrix product into the zero accumulator, at row r and column o: the sum over the 16 channels. -/
theorem matmul2_apply (a : FVec Ideal S10000x16 .bf16) (b : FVec Ideal S16x1 .bf16) (r : Fin 10000) (o : Fin 1) :
    matmul dot_S10000x16_S16x1_S10000x1_1_0_0_1_n_n none a b (constant S10000x1 .f32 0x00000000#32) (ix2 r o)
      = ∑ k : Fin 16, a (ix2 r k) * b (ix2 k o) := by
  simp only [matmul]
  rw [Ideal.matmul_constant_zero_apply, ← Equiv.sum_comp (ValueIdx.contrEquiv1 dot_S10000x16_S16x1_S10000x1_1_0_0_1_n_n 16 rfl rfl).symm]
  refine Finset.sum_congr rfl fun k _ => ?_
  have hk := ValueIdx.contrEquiv1_symm_val dot_S10000x16_S16x1_S10000x1_1_0_0_1_n_n 16 rfl rfl k
  have el : dot_S10000x16_S16x1_S10000x1_1_0_0_1_n_n.lhsIdx (ix2 r o) ((ValueIdx.contrEquiv1 dot_S10000x16_S16x1_S10000x1_1_0_0_1_n_n 16 rfl rfl).symm k) = ix2 r k := funext fun a => Fin.ext (by
    match a with
    | ⟨0, _⟩ => exact lhs2_0 _ _
    | ⟨1, _⟩ => exact (lhs2_1 _ _).trans hk)
  have er : dot_S10000x16_S16x1_S10000x1_1_0_0_1_n_n.rhsIdx (ix2 r o) ((ValueIdx.contrEquiv1 dot_S10000x16_S16x1_S10000x1_1_0_0_1_n_n 16 rfl rfl).symm k) = ix2 k o := funext fun a => Fin.ext (by
    match a with
    | ⟨0, _⟩ => exact (rhs2_0 _ _).trans hk
    | ⟨1, _⟩ => exact rhs2_1 _ _)
  rw [el, er]

/-- The logistic function of a block, at an element, is the logistic function of the element. -/
theorem logistic2_apply (v : FVec Ideal S10000x1 .f32) (i : S10000x1.Idx) : logistic v i = Ideal.logistic (v i) := rfl

/-- The stored value at row r of the block: the logistic function of the row of the hidden block times the weight
    column. -/
theorem pay2_apply (x0 : Vec Ideal S10000x16 .f32) (x1 : Vec Ideal S16x1 .f32) (r : Fin 10000) (o : Fin 1) :
    (k2_pay1 (F := Ideal) x0 x1 : S10000x1.Idx → EReal) (ix2 r o)
      = Ideal.logistic (∑ k : Fin 16, (x0 : S10000x16.Idx → EReal) (ix2 r k) * (x1 : S16x1.Idx → EReal) (ix2 k o)) := by
  unfold k2_pay1
  rw [logistic2_apply, matmul2_apply]
  simp only [shapeCast_self, truncf_apply]

/-! ## The layer on the whole arrays -/

variable (V : (c : Dev nD) → (b : Ref sig .tc) → Buf (Elt Ideal) ((c : Thread nD τ).loc b))

/-- The output layer at node n: the logistic function of the node's 16 hidden features times the weight column. -/
def dense2 (A : S500000x16.Idx → EReal) (W : S16x1.Idx → EReal) (n : Fin 500000) : EReal :=
  Ideal.logistic (∑ k : Fin 16, A (ix2 n k) * W (ix2 k 0))

/-- The same as one function of the output array's index (its one column). -/
def G2 (A : S500000x16.Idx → EReal) (W : S16x1.Idx → EReal) : S500000x1.Idx → EReal :=
  fun i => dense2 A W ⟨(i 0).val, idx2_lt0 i⟩

/-- The block's value at row r is the layer at node 10000 T + r, when the hidden block holds rows
    10000 T … 10000 T + 9999 of the hidden array and the other block is the whole weight column. -/
theorem pay2_block (A : S500000x16.Idx → EReal) (W : S16x1.Idx → EReal)
    (x0 : Vec Ideal S10000x16 .f32) (x1 : Vec Ideal S16x1 .f32) (T : ℕ) (hT : T < 50)
    (h0 : ∀ (r : Fin 10000) (k : Fin 16), (x0 : S10000x16.Idx → EReal) (ix2 r k) = A (ix2 (⟨10000 * T + r.val, by omega⟩ : Fin 500000) k))
    (h1 : ∀ (k : Fin 16), (x1 : S16x1.Idx → EReal) (ix2 k 0) = W (ix2 k 0))
    (r : Fin 10000) (o : Fin 1) :
    (k2_pay1 (F := Ideal) x0 x1 : S10000x1.Idx → EReal) (ix2 r o) = dense2 A W ⟨10000 * T + r.val, by omega⟩ := by
  obtain rfl : o = 0 := Subsingleton.elim o 0
  rw [pay2_apply]
  unfold dense2
  simp only [h0, h1]

/-! ## From blocks to the array -/

theorem hz2 : (![0, 0] : Fin 2 → Nat) = fun _ => 0 := funext fun a => by fin_cases a <;> rfl

/-- The block index maps, decided over the 50 grid points: the hidden array's and the output's row block is the
    point's number, their column block 0; the weight column stays at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_N2 (t : Fin cfg2.N) : t.val < 50 := lt_of_lt_of_eq t.isLt N_2

/-- The hidden block at point t is rows 10000 t … 10000 t + 9999 of the hidden array. -/
theorem iblk2_0_apply (c : Dev nD) (t : Fin cfg2.N) (r : Fin 10000) (k : Fin 16) :
    (iblk2 (F := Ideal) V c 0 t : S10000x16.Idx → EReal) (ix2 r k)
      = (V c main_v138 : S500000x16.Idx → EReal) (ix2 (⟨10000 * t.val + r.val, by have := lt_N2 t; omega⟩ : Fin 500000) k) := by
  obtain ⟨e0, e1, -⟩ := idx_facts2 t
  unfold iblk2
  show (V c main_v138 : S500000x16.Idx → EReal) (((cfg2.win 0).blk t).view.emb (ix2 r k)) = _
  refine congrArg (V c main_v138 : S500000x16.Idx → EReal) (funext fun a => Fin.ext ?_)
  match a with
  | ⟨0, _⟩ => show win2_0.index t (0 : Fin 2) * 10000 + 1 * r.val = 10000 * t.val + r.val; omega
  | ⟨1, _⟩ => show win2_0.index t (1 : Fin 2) * 16 + 1 * k.val = k.val; omega

/-- The weight block at every point is the whole weight column. -/
theorem iblk2_1_apply (c : Dev nD) (t : Fin cfg2.N) (k : Fin 16) :
    (iblk2 (F := Ideal) V c 1 t : S16x1.Idx → EReal) (ix2 k 0) = (V c main_arg7 : S16x1.Idx → EReal) (ix2 k 0) := by
  obtain ⟨-, -, e2, e3, -⟩ := idx_facts2 t
  unfold iblk2
  show (V c main_arg7 : S16x1.Idx → EReal) (((cfg2.win 1).blk t).view.emb (ix2 k 0)) = _
  refine congrArg (V c main_arg7 : S16x1.Idx → EReal) (funext fun a => Fin.ext ?_)
  match a with
  | ⟨0, _⟩ => show win2_1.index t (0 : Fin 2) * 16 + 1 * k.val = k.val; omega
  | ⟨1, _⟩ => show win2_1.index t (1 : Fin 2) * 1 + 1 * 0 = 0; omega

/-- What point t writes back is block t of the layer on the whole arrays. -/
theorem flushed2_eq (c : Dev nD) (t : Fin cfg2.N) :
    (dat2 (F := Ideal) V c).flushed 2 t
      = ((cfg2.win 2).blk t).view.read (Elt Ideal) (G2 (V c main_v138) (V c main_arg7)) := by
  show (cfg2.win 2).cut (grid2.coords t) ((dat2 (F := Ideal) V c).after 2 t) = _
  rw [after2_2]
  unfold out2_2
  rw [View.canon_unit_zero hz2]
  simp only [View.ld_unit_zero (S := S10000x16) hz2, View.ld_unit_zero (S := S16x1) hz2]
  obtain ⟨-, -, -, -, e4, e5⟩ := idx_facts2 t
  have ht : t.val < 50 := lt_N2 t
  funext y
  have hy0 : (y 0).val < 10000 := (y 0).isLt
  have hy1 : (y 1).val < 1 := (y 1).isLt
  have hx : (cfg2.win 2).xinj (grid2.coords t) y = (ix2 (⟨(y 0).val, hy0⟩ : Fin 10000) (⟨(y 1).val, hy1⟩ : Fin 1) : S10000x1.Idx) :=
    funext fun a => by match a with | ⟨0, _⟩ => rfl | ⟨1, _⟩ => rfl
  have hemb : ((cfg2.win 2).blk t).view.emb y
      = (ix2 (⟨10000 * t.val + (y 0).val, by omega⟩ : Fin 500000) (⟨(y 1).val, hy1⟩ : Fin 1) : S500000x1.Idx) :=
    funext fun a => Fin.ext (by
      match a with
      | ⟨0, _⟩ => show win2_2.index t (0 : Fin 2) * 10000 + 1 * (y 0).val = 10000 * t.val + (y 0).val; omega
      | ⟨1, _⟩ => show win2_2.index t (1 : Fin 2) * 1 + 1 * (y 1).val = (y 1).val; omega)
  show (k2_pay1 (F := Ideal) (iblk2 V c 0 t) (iblk2 V c 1 t) : S10000x1.Idx → EReal) ((cfg2.win 2).xinj (grid2.coords t) y)
      = G2 (V c main_v138) (V c main_arg7) (((cfg2.win 2).blk t).view.emb y)
  rw [hx, hemb]
  exact pay2_block (V c main_v138) (V c main_arg7) (iblk2 V c 0 t) (iblk2 V c 1 t) t.val ht
    (fun r k => iblk2_0_apply V c t r k) (fun k => iblk2_1_apply V c t k)
    ⟨(y 0).val, hy0⟩ ⟨(y 1).val, hy1⟩

/-- An index of the output array is in point t's block iff each coordinate is in the block's range on its axis. -/
theorem mem_blk2 (t : Fin cfg2.N) (i : S500000x1.Idx) :
    i ∈ ((cfg2.win 2).blk t).view.set ↔ ∀ a : Fin 2, win2_2.index t a * S10000x1.size a ≤ (i a).val ∧ (i a).val < win2_2.index t a * S10000x1.size a + S10000x1.size a := by
  show i ∈ ((View.whole main_v139).slice (win2_2.rect t)).set ↔ _
  rw [View.set_slice_whole, Rect.mem_set_unit]
  exact Iff.rfl

/-- Every row of the output array is in some point's block: row n in the block of point n / 10000. -/
theorem cover2 (i : S500000x1.Idx) : ∃ t : Fin cfg2.N, (cfg2.win 2).flush t = true ∧ i ∈ ((cfg2.win 2).blk t).view.set := by
  have hi0 : (i 0).val < 500000 := (i 0).isLt
  have hi1 : (i 1).val < 1 := (i 1).isLt
  let t : Fin cfg2.N := ⟨(i 0).val / 10000, lt_of_lt_of_eq (by omega : (i 0).val / 10000 < 50) N_2.symm⟩
  obtain ⟨-, -, -, -, e4, e5⟩ := idx_facts2 t
  have e4' : win2_2.index t (0 : Fin 2) = (i 0).val / 10000 := e4
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 1 ≤ (i 1).val ∧ (i 1).val < win2_2.index t (1 : Fin 2) * 1 + 1; omega

/-- The output array after the region: the layer on the whole arrays. -/
theorem arr2_eq (c : Dev nD) :
    (dat2 (F := Ideal) V c).arrAt 2 cfg2.N = G2 (V c main_v138) (V c main_arg7) :=
  (dat2 (F := Ideal) V c).arrAt_eq_of_cover 2 (G2 (V c main_v138) (V c main_arg7)) (fun t _ => flushed2_eq V c t) cover2

/-- The output array after region 2 at node n, over the two input arrays as the region finds them (named A, W: the
    hidden array, the weight column). -/
theorem final2 (c : Dev nD) (A : S500000x16.Idx → EReal) (W : S16x1.Idx → EReal)
    (hA : V c main_v138 = A) (hW : V c main_arg7 = W) (n : Fin 500000) :
    (dat2 (F := Ideal) V c).arrAt 2 cfg2.N (ix2 n 0)
      = Ideal.logistic (∑ k : Fin 16, A (ix2 n k) * W (ix2 k 0)) := by
  subst hA hW
  rw [arr2_eq]
  rfl

end Cert.KernelIdeal.Hand

end
-- ==== Proof.Ref.Layer1.lean ====
import proofs.«166631_j6399501271545_1_alg».proof.Proof.Gen.ReferenceIdeal.Read
import Idealize.ShloMosaic.Lib.ValueIdx
import Idealize.ShloMosaic.PureOps.Ideal.Laws

/-! # The reference's first graph layer, read at one node and one output channel

The layer is a polynomial graph filter of order four followed by a rectifier: with `h₀ = x` the node features and
`h₁ … h₄` the four propagated feature tables, output channel `o` of node `n` is
`max (∑ₛ ∑_c hₛ[n, c] · W[s, c, o] + b[o]) 0`, the five inner sums added from `s = 0` upwards and the bias last.
The propagated tables are kept as opaque arrays: only the dense part of the layer is read here. -/

noncomputable section

namespace Cert.ReferenceIdeal.RefDense

open Cert.ReferenceIdeal Cert.ReferenceIdeal.Read Idealize.ShloMosaic ValueIdx

/-! ## Where each stage reads its operands

A contraction at output index `(n, o)` and position `c` reads the features at `(n, c)`; it reads the weight slab
through a reshape `[1,2,16] → [2,16]` and a slice `[s:s+1, :, :]` of the `[5,2,16]` weights, which together send
`(c, o)` to `(s, c, o)` because `(16·c + o) / 16 = c` and `(16·c + o) mod 16 = o` for `o < 16`. -/

theorem feat1_0 (n : Fin 500000) (o : Fin 16) (c : Fin 2) : lidx_main_v33 (ix2 n o) c = ix2 n c :=
  funext fun a => Fin.ext (by match a with | ⟨0, _⟩ => rfl | ⟨1, _⟩ => rfl)

theorem weight1_0 (n : Fin 500000) (o : Fin 16) (c : Fin 2) :
    idx_main_v31 (idx_main_v32 (ridx_main_v33 (ix2 n o) c)) = ix3 0 c o :=
  funext fun a => Fin.ext (by
    have hc := c.isLt
    have ho := o.isLt
    match a with
    | ⟨0, _⟩ => rfl
    | ⟨1, _⟩ => show (c.val * 16 + o.val) / 16 % 2 = c.val; omega
    | ⟨2, _⟩ => show (c.val * 16 + o.val) % 16 = o.val; omega)

theorem feat1_1 (n : Fin 500000) (o : Fin 16) (c : Fin 2) : lidx_main_v49 (ix2 n o) c = ix2 n c :=
  funext fun a => Fin.ext (by match a with | ⟨0, _⟩ => rfl | ⟨1, _⟩ => rfl)

theorem weight1_1 (n : Fin 500000) (o : Fin 16) (c : Fin 2) :
    idx_main_v47 (idx_main_v48 (ridx_main_v49 (ix2 n o) c)) = ix3 1 c o :=
  funext fun a => Fin.ext (by
    have hc := c.isLt
    have ho := o.isLt
    match a with
    | ⟨0, _⟩ => rfl
    | ⟨1, _⟩ => show (c.val * 16 + o.val) / 16 % 2 = c.val; omega
    | ⟨2, _⟩ => show (c.val * 16 + o.val) % 16 = o.val; omega)

theorem feat1_2 (n : Fin 500000) (o : Fin 16) (c : Fin 2) : lidx_main_v66 (ix2 n o) c = ix2 n c :=
  funext fun a => Fin.ext (by match a with | ⟨0, _⟩ => rfl | ⟨1, _⟩ => rfl)

theorem weight1_2 (n : Fin 500000) (o : Fin 16) (c : Fin 2) :
    idx_main_v64 (idx_main_v65 (ridx_main_v66 (ix2 n o) c)) = ix3 2 c o :=
  funext fun a => Fin.ext (by
    have hc := c.isLt
    have ho := o.isLt
    match a with
    | ⟨0, _⟩ => rfl
    | ⟨1, _⟩ => show (c.val * 16 + o.val) / 16 % 2 = c.val; omega
    | ⟨2, _⟩ => show (c.val * 16 + o.val) % 16 = o.val; omega)

theorem feat1_3 (n : Fin 500000) (o : Fin 16) (c : Fin 2) : lidx_main_v83 (ix2 n o) c = ix2 n c :=
  funext fun a => Fin.ext (by match a with | ⟨0, _⟩ => rfl | ⟨1, _⟩ => rfl)

theorem weight1_3 (n : Fin 500000) (o : Fin 16) (c : Fin 2) :
    idx_main_v81 (idx_main_v82 (ridx_main_v83 (ix2 n o) c)) = ix3 3 c o :=
  funext fun a => Fin.ext (by
    have hc := c.isLt
    have ho := o.isLt
    match a with
    | ⟨0, _⟩ => rfl
    | ⟨1, _⟩ => show (c.val * 16 + o.val) / 16 % 2 = c.val; omega
    | ⟨2, _⟩ => show (c.val * 16 + o.val) % 16 = o.val; omega)

theorem feat1_4 (n : Fin 500000) (o : Fin 16) (c : Fin 2) : lidx_main_v100 (ix2 n o) c = ix2 n c :=
  funext fun a => Fin.ext (by match a with | ⟨0, _⟩ => rfl | ⟨1, _⟩ => rfl)

theorem weight1_4 (n : Fin 500000) (o : Fin 16) (c : Fin 2) :
    idx_main_v98 (idx_main_v99 (ridx_main_v100 (ix2 n o) c)) = ix3 4 c o :=
  funext fun a => Fin.ext (by
    have hc := c.isLt
    have ho := o.isLt
    match a with
    | ⟨0, _⟩ => rfl
    | ⟨1, _⟩ => show (c.val * 16 + o.val) / 16 % 2 = c.val; omega
    | ⟨2, _⟩ => show (c.val * 16 + o.val) % 16 = o.val; omega)

/-- The bias is broadcast along the nodes: at `(n, o)` it is `b[o]`. -/
theorem bias1 (n : Fin 500000) (o : Fin 16) : idx_main_v102 (idx_main_v103 (ix2 n o)) = ix1 o :=
  funext fun a => Fin.ext (by match a with | ⟨0, _⟩ => rfl)

/-! ## The five contractions, each as a sum over the two input channels -/

theorem dot1_0 (x0 : (⟨S500000x2, .f32⟩ : BufTy).Contents (Elt Ideal)) (x3 : (⟨S5x2x16, .f32⟩ : BufTy).Contents (Elt Ideal)) (n : Fin 500000) (o : Fin 16) :
    val_main_v33 (F := Ideal) x0 x3 (ix2 n o) = ∑ c : Fin 2, x0 (ix2 n c) * x3 (ix3 0 c o) := by
  rw [val_main_v33_apply]
  refine Finset.sum_congr rfl fun c _ => ?_
  rw [val_main_v32_apply, val_main_v31_apply, feat1_0, weight1_0]

theorem dot1_1 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (n : Fin 500000) (o : Fin 16) :
    val_main_v49 (F := Ideal) x0 x1 x2 x3 (ix2 n o)
      = ∑ c : Fin 2, val_main_v46 (F := Ideal) x0 x1 x2 (ix2 n c) * x3 (ix3 1 c o) := by
  rw [val_main_v49_apply]
  generalize val_main_v46 (F := Ideal) x0 x1 x2 = h
  refine Finset.sum_congr rfl fun c _ => ?_
  rw [val_main_v48_apply, val_main_v47_apply, feat1_1, weight1_1]

theorem dot1_2 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (n : Fin 500000) (o : Fin 16) :
    val_main_v66 (F := Ideal) x0 x1 x2 x3 (ix2 n o)
      = ∑ c : Fin 2, val_main_v63 (F := Ideal) x0 x1 x2 (ix2 n c) * x3 (ix3 2 c o) := by
  rw [val_main_v66_apply]
  generalize val_main_v63 (F := Ideal) x0 x1 x2 = h
  refine Finset.sum_congr rfl fun c _ => ?_
  rw [val_main_v65_apply, val_main_v64_apply, feat1_2, weight1_2]

theorem dot1_3 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (n : Fin 500000) (o : Fin 16) :
    val_main_v83 (F := Ideal) x0 x1 x2 x3 (ix2 n o)
      = ∑ c : Fin 2, val_main_v80 (F := Ideal) x0 x1 x2 (ix2 n c) * x3 (ix3 3 c o) := by
  rw [val_main_v83_apply]
  generalize val_main_v80 (F := Ideal) x0 x1 x2 = h
  refine Finset.sum_congr rfl fun c _ => ?_
  rw [val_main_v82_apply, val_main_v81_apply, feat1_3, weight1_3]

theorem dot1_4 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (n : Fin 500000) (o : Fin 16) :
    val_main_v100 (F := Ideal) x0 x1 x2 x3 (ix2 n o)
      = ∑ c : Fin 2, val_main_v97 (F := Ideal) x0 x1 x2 (ix2 n c) * x3 (ix3 4 c o) := by
  rw [val_main_v100_apply]
  generalize val_main_v97 (F := Ideal) x0 x1 x2 = h
  refine Finset.sum_congr rfl fun c _ => ?_
  rw [val_main_v99_apply, val_main_v98_apply, feat1_4, weight1_4]

/-! ## The layer -/

/-- Output channel `o` of node `n` after the first layer: the five contractions added in order, then the bias, then
    the rectifier (the larger of the value and zero). -/
theorem layer1 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (n : Fin 500000) (o : Fin 16) :
    val_main_v105 (F := Ideal) x0 x1 x2 x3 x4 (ix2 n o)
      = max ((∑ c : Fin 2, x0 (ix2 n c) * x3 (ix3 0 c o))
             + (∑ c : Fin 2, val_main_v46 (F := Ideal) x0 x1 x2 (ix2 n c) * x3 (ix3 1 c o))
             + (∑ c : Fin 2, val_main_v63 (F := Ideal) x0 x1 x2 (ix2 n c) * x3 (ix3 2 c o))
             + (∑ c : Fin 2, val_main_v80 (F := Ideal) x0 x1 x2 (ix2 n c) * x3 (ix3 3 c o))
             + (∑ c : Fin 2, val_main_v97 (F := Ideal) x0 x1 x2 (ix2 n c) * x3 (ix3 4 c o))
             + x4 (ix1 o)) 0 := by
  rw [val_main_v105_apply, val_main_v104_apply, val_main_v101_apply, val_main_v84_apply, val_main_v67_apply,
    val_main_v50_apply, dot1_0, dot1_1, dot1_2, dot1_3, dot1_4, val_main_v103_apply, val_main_v102_apply, bias1,
    val_main_call1_v0_apply, val_main_call1_cst_apply]
  simp only [Ideal.addf_def, Ideal.maximumf_def, Ideal.ofBits_def, Ideal.ofBits_zero_f32]

end Cert.ReferenceIdeal.RefDense
-- ==== Proof.Ref.Layer2.lean ====
import proofs.«166631_j6399501271545_1_alg».proof.Proof.Gen.ReferenceIdeal.Read
import Idealize.ShloMosaic.Lib.ValueIdx
import Idealize.ShloMosaic.PureOps.Ideal.Laws

/-! # The reference's second graph layer, read at one node and one output channel

The same polynomial graph filter of order four followed by a rectifier, now on sixteen input channels: with `h₀` the
first layer's output and `h₁ … h₄` its four propagated tables, output channel `o` of node `n` is
`max (∑ₛ ∑_c hₛ[n, c] · W[s, c, o] + b[o]) 0`, the five inner sums added from `s = 0` upwards and the bias last.
The first layer's output and the propagated tables are kept as opaque arrays: only the dense part is read here. -/

noncomputable section

namespace Cert.ReferenceIdeal.RefDense

open Cert.ReferenceIdeal Cert.ReferenceIdeal.Read Idealize.ShloMosaic ValueIdx

/-! ## Where each stage reads its operands

A contraction at output index `(n, o)` and position `c` reads the features at `(n, c)`; it reads the weight slab
through a reshape `[1,16,16] → [16,16]` and a slice `[s:s+1, :, :]` of the `[5,16,16]` weights, which together send
`(c, o)` to `(s, c, o)` because `(16·c + o) / 16 = c` and `(16·c + o) mod 16 = o` for `o < 16`. -/

theorem feat2_0 (n : Fin 500000) (o : Fin 16) (c : Fin 16) : lidx_main_v108 (ix2 n o) c = ix2 n c :=
  funext fun a => Fin.ext (by match a with | ⟨0, _⟩ => rfl | ⟨1, _⟩ => rfl)

theorem weight2_0 (n : Fin 500000) (o : Fin 16) (c : Fin 16) :
    idx_main_v106 (idx_main_v107 (ridx_main_v108 (ix2 n o) c)) = ix3 0 c o :=
  funext fun a => Fin.ext (by
    have hc := c.isLt
    have ho := o.isLt
    match a with
    | ⟨0, _⟩ => rfl
    | ⟨1, _⟩ => show (c.val * 16 + o.val) / 16 % 16 = c.val; omega
    | ⟨2, _⟩ => show (c.val * 16 + o.val) % 16 = o.val; omega)

theorem feat2_1 (n : Fin 500000) (o : Fin 16) (c : Fin 16) : lidx_main_v124 (ix2 n o) c = ix2 n c :=
  funext fun a => Fin.ext (by match a with | ⟨0, _⟩ => rfl | ⟨1, _⟩ => rfl)

theorem weight2_1 (n : Fin 500000) (o : Fin 16) (c : Fin 16) :
    idx_main_v122 (idx_main_v123 (ridx_main_v124 (ix2 n o) c)) = ix3 1 c o :=
  funext fun a => Fin.ext (by
    have hc := c.isLt
    have ho := o.isLt
    match a with
    | ⟨0, _⟩ => rfl
    | ⟨1, _⟩ => show (c.val * 16 + o.val) / 16 % 16 = c.val; omega
    | ⟨2, _⟩ => show (c.val * 16 + o.val) % 16 = o.val; omega)

theorem feat2_2 (n : Fin 500000) (o : Fin 16) (c : Fin 16) : lidx_main_v141 (ix2 n o) c = ix2 n c :=
  funext fun a => Fin.ext (by match a with | ⟨0, _⟩ => rfl | ⟨1, _⟩ => rfl)

theorem weight2_2 (n : Fin 500000) (o : Fin 16) (c : Fin 16) :
    idx_main_v139 (idx_main_v140 (ridx_main_v141 (ix2 n o) c)) = ix3 2 c o :=
  funext fun a => Fin.ext (by
    have hc := c.isLt
    have ho := o.isLt
    match a with
    | ⟨0, _⟩ => rfl
    | ⟨1, _⟩ => show (c.val * 16 + o.val) / 16 % 16 = c.val; omega
    | ⟨2, _⟩ => show (c.val * 16 + o.val) % 16 = o.val; omega)

theorem feat2_3 (n : Fin 500000) (o : Fin 16) (c : Fin 16) : lidx_main_v158 (ix2 n o) c = ix2 n c :=
  funext fun a => Fin.ext (by match a with | ⟨0, _⟩ => rfl | ⟨1, _⟩ => rfl)

theorem weight2_3 (n : Fin 500000) (o : Fin 16) (c : Fin 16) :
    idx_main_v156 (idx_main_v157 (ridx_main_v158 (ix2 n o) c)) = ix3 3 c o :=
  funext fun a => Fin.ext (by
    have hc := c.isLt
    have ho := o.isLt
    match a with
    | ⟨0, _⟩ => rfl
    | ⟨1, _⟩ => show (c.val * 16 + o.val) / 16 % 16 = c.val; omega
    | ⟨2, _⟩ => show (c.val * 16 + o.val) % 16 = o.val; omega)

theorem feat2_4 (n : Fin 500000) (o : Fin 16) (c : Fin 16) : lidx_main_v175 (ix2 n o) c = ix2 n c :=
  funext fun a => Fin.ext (by match a with | ⟨0, _⟩ => rfl | ⟨1, _⟩ => rfl)

theorem weight2_4 (n : Fin 500000) (o : Fin 16) (c : Fin 16) :
    idx_main_v173 (idx_main_v174 (ridx_main_v175 (ix2 n o) c)) = ix3 4 c o :=
  funext fun a => Fin.ext (by
    have hc := c.isLt
    have ho := o.isLt
    match a with
    | ⟨0, _⟩ => rfl
    | ⟨1, _⟩ => show (c.val * 16 + o.val) / 16 % 16 = c.val; omega
    | ⟨2, _⟩ => show (c.val * 16 + o.val) % 16 = o.val; omega)

/-- The bias is broadcast along the nodes: at `(n, o)` it is `b[o]`. -/
theorem bias2 (n : Fin 500000) (o : Fin 16) : idx_main_v177 (idx_main_v178 (ix2 n o)) = ix1 o :=
  funext fun a => Fin.ext (by match a with | ⟨0, _⟩ => rfl)

/-! ## The five contractions, each as a sum over the sixteen input channels -/

theorem dot2_0 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (n : Fin 500000) (o : Fin 16) :
    val_main_v108 (F := Ideal) x0 x1 x2 x3 x4 x5 (ix2 n o)
      = ∑ c : Fin 16, val_main_v105 (F := Ideal) x0 x1 x2 x3 x4 (ix2 n c) * x5 (ix3 0 c o) := by
  rw [val_main_v108_apply]
  generalize val_main_v105 (F := Ideal) x0 x1 x2 x3 x4 = h
  refine Finset.sum_congr rfl fun c _ => ?_
  rw [val_main_v107_apply, val_main_v106_apply, feat2_0, weight2_0]

theorem dot2_1 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (n : Fin 500000) (o : Fin 16) :
    val_main_v124 (F := Ideal) x0 x1 x2 x3 x4 x5 (ix2 n o)
      = ∑ c : Fin 16, val_main_v121 (F := Ideal) x0 x1 x2 x3 x4 (ix2 n c) * x5 (ix3 1 c o) := by
  rw [val_main_v124_apply]
  generalize val_main_v121 (F := Ideal) x0 x1 x2 x3 x4 = h
  refine Finset.sum_congr rfl fun c _ => ?_
  rw [val_main_v123_apply, val_main_v122_apply, feat2_1, weight2_1]

theorem dot2_2 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (n : Fin 500000) (o : Fin 16) :
    val_main_v141 (F := Ideal) x0 x1 x2 x3 x4 x5 (ix2 n o)
      = ∑ c : Fin 16, val_main_v138 (F := Ideal) x0 x1 x2 x3 x4 (ix2 n c) * x5 (ix3 2 c o) := by
  rw [val_main_v141_apply]
  generalize val_main_v138 (F := Ideal) x0 x1 x2 x3 x4 = h
  refine Finset.sum_congr rfl fun c _ => ?_
  rw [val_main_v140_apply, val_main_v139_apply, feat2_2, weight2_2]

theorem dot2_3 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (n : Fin 500000) (o : Fin 16) :
    val_main_v158 (F := Ideal) x0 x1 x2 x3 x4 x5 (ix2 n o)
      = ∑ c : Fin 16, val_main_v155 (F := Ideal) x0 x1 x2 x3 x4 (ix2 n c) * x5 (ix3 3 c o) := by
  rw [val_main_v158_apply]
  generalize val_main_v155 (F := Ideal) x0 x1 x2 x3 x4 = h
  refine Finset.sum_congr rfl fun c _ => ?_
  rw [val_main_v157_apply, val_main_v156_apply, feat2_3, weight2_3]

theorem dot2_4 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (n : Fin 500000) (o : Fin 16) :
    val_main_v175 (F := Ideal) x0 x1 x2 x3 x4 x5 (ix2 n o)
      = ∑ c : Fin 16, val_main_v172 (F := Ideal) x0 x1 x2 x3 x4 (ix2 n c) * x5 (ix3 4 c o) := by
  rw [val_main_v175_apply]
  generalize val_main_v172 (F := Ideal) x0 x1 x2 x3 x4 = h
  refine Finset.sum_congr rfl fun c _ => ?_
  rw [val_main_v174_apply, val_main_v173_apply, feat2_4, weight2_4]

/-! ## The layer -/

/-- Output channel `o` of node `n` after the second layer: the five contractions added in order, then the bias, then
    the rectifier (the larger of the value and zero). -/
theorem layer2 (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (x6 : (⟨S16, .f32⟩ : BufTy).Contents (Elt Ideal)) (n : Fin 500000) (o : Fin 16) :
    val_main_v180 (F := Ideal) x0 x1 x2 x3 x4 x5 x6 (ix2 n o)
      = max ((∑ c : Fin 16, val_main_v105 (F := Ideal) x0 x1 x2 x3 x4 (ix2 n c) * x5 (ix3 0 c o))
             + (∑ c : Fin 16, val_main_v121 (F := Ideal) x0 x1 x2 x3 x4 (ix2 n c) * x5 (ix3 1 c o))
             + (∑ c : Fin 16, val_main_v138 (F := Ideal) x0 x1 x2 x3 x4 (ix2 n c) * x5 (ix3 2 c o))
             + (∑ c : Fin 16, val_main_v155 (F := Ideal) x0 x1 x2 x3 x4 (ix2 n c) * x5 (ix3 3 c o))
             + (∑ c : Fin 16, val_main_v172 (F := Ideal) x0 x1 x2 x3 x4 (ix2 n c) * x5 (ix3 4 c o))
             + x6 (ix1 o)) 0 := by
  rw [val_main_v180_apply, val_main_v179_apply, val_main_v176_apply, val_main_v159_apply, val_main_v142_apply,
    val_main_v125_apply, dot2_0, dot2_1, dot2_2, dot2_3, dot2_4, val_main_v178_apply, val_main_v177_apply, bias2,
    val_main_call2_v0_apply, val_main_call2_cst_apply]
  simp only [Ideal.addf_def, Ideal.maximumf_def, Ideal.ofBits_def, Ideal.ofBits_zero_f32]

end Cert.ReferenceIdeal.RefDense
-- ==== Proof.Ref.End.lean ====
import proofs.«166631_j6399501271545_1_alg».proof.Proof.Gen.ReferenceIdeal.Read
import Idealize.ShloMosaic.Lib.ValueIdx
import Idealize.ShloMosaic.Lib.IdealHost
import Idealize.ShloMosaic.PureOps.Ideal.Laws

/-! # The reference's read-out, at one node

The second layer's sixteen channels of node `n` are contracted against a `[16,1]` weight column to one score `s`, and
the program then computes `1 / (1 + e^(−s))` step by step (negate, exponential, add one, divide one by the result).
On the extended reals that expression is the logistic function of `s` by definition. -/

noncomputable section

namespace Cert.ReferenceIdeal.RefDense

open Cert.ReferenceIdeal Cert.ReferenceIdeal.Read Idealize.ShloMosaic ValueIdx

/-- The contraction at output index `(n, 0)` and position `k` reads the features at `(n, k)`. -/
theorem featE (n : Fin 500000) (k : Fin 16) : lidx_main_v181 (ix2 n 0) k = ix2 n k :=
  funext fun a => Fin.ext (by match a with | ⟨0, _⟩ => rfl | ⟨1, _⟩ => rfl)

/-- … and the weight column at `(k, 0)`. -/
theorem weightE (n : Fin 500000) (k : Fin 16) : ridx_main_v181 (ix2 n 0) k = ix2 k 0 :=
  funext fun a => Fin.ext (by match a with | ⟨0, _⟩ => rfl | ⟨1, _⟩ => rfl)

/-- The score of node `n`: the sum over the sixteen channels of the second layer's output times the weight column. -/
theorem dotE (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (x6 : (⟨S16, .f32⟩ : BufTy).Contents (Elt Ideal)) (x7 : (⟨S16x1, .f32⟩ : BufTy).Contents (Elt Ideal)) (n : Fin 500000) :
    val_main_v181 (F := Ideal) x0 x1 x2 x3 x4 x5 x6 x7 (ix2 n 0)
      = ∑ k : Fin 16, val_main_v180 (F := Ideal) x0 x1 x2 x3 x4 x5 x6 (ix2 n k) * x7 (ix2 k 0) := by
  rw [val_main_v181_apply]
  generalize val_main_v180 (F := Ideal) x0 x1 x2 x3 x4 x5 x6 = h
  refine Finset.sum_congr rfl fun k _ => ?_
  rw [featE, weightE]

/-- The program's output at node `n` is the logistic function of the node's score: the two float words `0x3F800000` are
    the real one, and `1 / (1 + e^(−s))` is the definition of the logistic function on the extended reals. -/
theorem endStage (x0 : (⟨S500000x2, .f32⟩ : BufTy).Contents (Elt Ideal)) (x1 : (⟨S2x4000000, .i32⟩ : BufTy).Contents (Elt Ideal)) (x2 : (⟨S4000000, .f32⟩ : BufTy).Contents (Elt Ideal)) (x3 : (⟨S5x2x16, .f32⟩ : BufTy).Contents (Elt Ideal)) (x4 : (⟨S16, .f32⟩ : BufTy).Contents (Elt Ideal)) (x5 : (⟨S5x16x16, .f32⟩ : BufTy).Contents (Elt Ideal)) (x6 : (⟨S16, .f32⟩ : BufTy).Contents (Elt Ideal)) (x7 : (⟨S16x1, .f32⟩ : BufTy).Contents (Elt Ideal)) (n : Fin 500000) :
    val_main_v187 (F := Ideal) x0 x1 x2 x3 x4 x5 x6 x7 (ix2 n 0)
      = Ideal.logistic (∑ k : Fin 16, val_main_v180 (F := Ideal) x0 x1 x2 x3 x4 x5 x6 (ix2 n k) * x7 (ix2 k 0)) := by
  rw [val_main_v187_apply, val_main_v186_apply, val_main_cst_30_apply, val_main_v185_apply, val_main_v184_apply,
    val_main_cst_29_apply, val_main_v183_apply, val_main_v182_apply, dotE]
  generalize val_main_v180 (F := Ideal) x0 x1 x2 x3 x4 x5 x6 = h
  simp only [Ideal.hostDivf_def, Ideal.addf_def, Ideal.hostUnary_exp_def, Ideal.hostNegf_def, Ideal.negf_def,
    Ideal.ofBits_def, Ideal.ofBits_one_f32]
  rfl

end Cert.ReferenceIdeal.RefDense
-- ==== Proof.KI.Value.lean ====
/-
  The idealized kernel's result, as a whole array, is the reference's.  Layer by layer: region 0's output block
  array is the reference's first relu stage (the kernel's one product over the ten stacked channels is the reference's
  five two-channel products added from the left); the second layer's hop tables are then the reference's, being the
  same gathers and scatter-adds of equal arrays; region 1's output is the reference's second relu stage; region 2's is
  the reference's sigmoid of the last projection.
-/
import proofs.«166631_j6399501271545_1_alg».proof.Proof.KI.HostVal
import proofs.«166631_j6399501271545_1_alg».proof.Proof.LibConcat5
import proofs.«166631_j6399501271545_1_alg».proof.Proof.KI.Join1
import proofs.«166631_j6399501271545_1_alg».proof.Proof.KI.Join2
import proofs.«166631_j6399501271545_1_alg».proof.Proof.KI.Val2
import proofs.«166631_j6399501271545_1_alg».proof.Proof.Ref.Layer1
import proofs.«166631_j6399501271545_1_alg».proof.Proof.Ref.Layer2
import proofs.«166631_j6399501271545_1_alg».proof.Proof.Ref.End

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem
open ValueIdx

variable (m : (ℓ : Loc nD τ sig) → Buf (Elt Ideal) ℓ) (ρ : Dev nD → PrngReg)

/-! ## Layer 1 -/

/-- Region 0 leaves the reference's first relu stage in its output array. -/
theorem out1_eq (c : Dev nD) :
    (dat0 (F := Ideal) (V4 m ρ) c).arrAt 3 cfg0.N = Cert.ReferenceIdeal.Read.val_main_v105 (F := Ideal) (a0 m c) (a1 m c) (a2 m c) (a3 m c) (a4 m c) := by
  funext i
  obtain ⟨n, o, rfl⟩ : ∃ (n : Fin 500000) (o : Fin 16), i = ix2 n o := ⟨i 0, i 1, eq_ix2 i⟩
  exact (layer1_join (V4 m ρ) c _ _ _ _ _ _ _ (table0_eq m ρ c) (weights0_eq m ρ c) (bias0_eq m ρ c) n o).trans
    (Cert.ReferenceIdeal.RefDense.layer1 _ _ _ _ _ n o).symm

/-! ## Region 1's entry -/

theorem out1_5 (c : Dev nD) : W5 (F := Ideal) m ρ c (Proc.devRef .tc main_v82) = Cert.ReferenceIdeal.Read.val_main_v105 (F := Ideal) (a0 m c) (a1 m c) (a2 m c) (a3 m c) (a4 m c) :=
  (W5_arr m ρ c 3).trans (out1_eq m ρ c)
theorem norm5 (c : Dev nD) : W5 (F := Ideal) m ρ c (Proc.devRef .tc main_v26) = Cert.ReferenceIdeal.Read.val_main_v30 (F := Ideal) (a1 m c) (a2 m c) :=
  (W5_of_ne m ρ c main_v26 (by decide)).trans (norm4 m ρ c)
theorem src5 (c : Dev nD) : W5 (F := Ideal) m ρ c (Proc.devRef .tc main_v1) = Cert.ReferenceIdeal.Read.val_main_v1 (F := Ideal) (a1 m c) :=
  (W5_of_ne m ρ c main_v1 (by decide)).trans (src4 m ρ c)
theorem dst5 (c : Dev nD) : W5 (F := Ideal) m ρ c (Proc.devRef .tc main_v3) = Cert.ReferenceIdeal.Read.val_main_v3 (F := Ideal) (a1 m c) :=
  (W5_of_ne m ρ c main_v3 (by decide)).trans (dst4 m ρ c)
/-- An argument array is still the launch memory's after region 0. -/
theorem arg5 (c : Dev nD) (b : Ref sig .tc) (hb : IsArg b) : W5 (F := Ideal) m ρ c (Proc.devRef .tc b) = m ((c : Thread nD τ).loc b) := by
  have h : W5 (F := Ideal) m ρ c (Proc.devRef .tc b) = W4 m ρ c (Proc.devRef .tc b) := by
    rcases hb with h | h | h | h | h | h | h | h <;> subst h <;> exact W5_of_ne m ρ c _ (by decide)
  rw [h, keeps3 m ρ c b hb, keeps2 m ρ c b hb]
  exact arg2 m ρ c b hb

set_option maxHeartbeats 8000000 in
/-- The second layer's table: the first layer's output and its four hops, side by side. -/
theorem table1_eq (c : Dev nD) :
    W7 (F := Ideal) m ρ c (Proc.devRef .tc main_v135) = concatenate S500000x80 1
      [⟨S500000x16, Cert.ReferenceIdeal.Read.val_main_v105 (F := Ideal) (a0 m c) (a1 m c) (a2 m c) (a3 m c) (a4 m c)⟩,
       ⟨S500000x16, Cert.ReferenceIdeal.Read.val_main_v121 (F := Ideal) (a0 m c) (a1 m c) (a2 m c) (a3 m c) (a4 m c)⟩,
       ⟨S500000x16, Cert.ReferenceIdeal.Read.val_main_v138 (F := Ideal) (a0 m c) (a1 m c) (a2 m c) (a3 m c) (a4 m c)⟩,
       ⟨S500000x16, Cert.ReferenceIdeal.Read.val_main_v155 (F := Ideal) (a0 m c) (a1 m c) (a2 m c) (a3 m c) (a4 m c)⟩,
       ⟨S500000x16, Cert.ReferenceIdeal.Read.val_main_v172 (F := Ideal) (a0 m c) (a1 m c) (a2 m c) (a3 m c) (a4 m c)⟩]
      concatenates_S500000x16_S500000x16_S500000x16_S500000x16_S500000x16_S500000x80_d1 := by
  dsimp only [W7, W6, main_part2_ops0, main_part1_ops1]
  generalize hW : W5 (F := Ideal) m ρ c = Wp
  simp only [after_cons, after_nil]
  rw [reshape_result_ne]; rotate_left; decide
  rw [reshape_result_ne]; rotate_left; decide
  rw [nary_result]
  dsimp only [Matrix.cons_val]
  refine Cert.LibConcat5.concat5_eq ?_ ?_ ?_ ?_ ?_
  · after_results_simp
    subst hW
    exact out1_5 m ρ c
  all_goals
    after_results_simp
    subst hW
    rw [out1_5, norm5, src5, dst5]
    rfl

set_option maxHeartbeats 4000000 in
theorem weights1_eq (c : Dev nD) :
    W7 (F := Ideal) m ρ c (Proc.devRef .tc main_v136) = shapeCast S80x16 (a5 m c) shapeCasts_S5x16x16_S80x16 := by
  dsimp only [W7, W6, main_part2_ops0, main_part1_ops1]
  generalize hW : W5 (F := Ideal) m ρ c = Wp
  after_results_simp
  subst hW
  rw [arg5 m ρ c main_arg5 (.inr (.inr (.inr (.inr (.inr (.inl rfl))))))]
  rfl

set_option maxHeartbeats 4000000 in
theorem bias1_eq (c : Dev nD) :
    W7 (F := Ideal) m ρ c (Proc.devRef .tc main_v137) = shapeCast S1x16 (a6 m c) shapeCasts_S16_S1x16 := by
  dsimp only [W7, W6, main_part2_ops0, main_part1_ops1]
  generalize hW : W5 (F := Ideal) m ρ c = Wp
  after_results_simp
  subst hW
  rw [arg5 m ρ c main_arg6 (.inr (.inr (.inr (.inr (.inr (.inr (.inl rfl)))))))]
  rfl

/-! ## Layer 2 -/

/-- Region 1 leaves the reference's second relu stage in its output array. -/
theorem out2_eq (c : Dev nD) :
    (dat1 (F := Ideal) (V7 m ρ) c).arrAt 3 cfg1.N = Cert.ReferenceIdeal.Read.val_main_v180 (F := Ideal) (a0 m c) (a1 m c) (a2 m c) (a3 m c) (a4 m c) (a5 m c) (a6 m c) := by
  funext i
  obtain ⟨n, o, rfl⟩ : ∃ (n : Fin 500000) (o : Fin 16), i = ix2 n o := ⟨i 0, i 1, eq_ix2 i⟩
  exact (layer2_join (V7 m ρ) c _ _ _ _ _ _ _ (table1_eq m ρ c) (weights1_eq m ρ c) (bias1_eq m ρ c) n o).trans
    (Cert.ReferenceIdeal.RefDense.layer2 _ _ _ _ _ _ _ n o).symm

/-! ## The projection and the sigmoid -/

theorem out2_8 (c : Dev nD) : W8 (F := Ideal) m ρ c (Proc.devRef .tc main_v138) = Cert.ReferenceIdeal.Read.val_main_v180 (F := Ideal) (a0 m c) (a1 m c) (a2 m c) (a3 m c) (a4 m c) (a5 m c) (a6 m c) :=
  (W8_arr m ρ c 3).trans (out2_eq m ρ c)
/-- The projection column is still the launch memory's after region 1. -/
theorem proj8 (c : Dev nD) : W8 (F := Ideal) m ρ c (Proc.devRef .tc main_arg7) = a7 m c := by
  rw [W8_of_ne m ρ c main_arg7 (by decide), keeps6 m ρ c main_arg7 (.inr (.inr (.inr (.inr (.inr (.inr (.inr rfl))))))), keeps5 m ρ c main_arg7 (.inr (.inr (.inr (.inr (.inr (.inr (.inr rfl)))))))]
  exact arg5 m ρ c main_arg7 (.inr (.inr (.inr (.inr (.inr (.inr (.inr rfl)))))))

/-- Region 2 leaves the reference's result in its output array. -/
theorem out3_eq (c : Dev nD) :
    (dat2 (F := Ideal) (V8 m ρ) c).arrAt 2 cfg2.N = Cert.ReferenceIdeal.Read.val_main_v187 (F := Ideal) (a0 m c) (a1 m c) (a2 m c) (a3 m c) (a4 m c) (a5 m c) (a6 m c) (a7 m c) := by
  funext i
  obtain ⟨n, o, rfl⟩ : ∃ (n : Fin 500000) (o : Fin 1), i = ix2 n o := ⟨i 0, i 1, eq_ix2 i⟩
  obtain rfl : o = 0 := Subsingleton.elim _ _
  exact (final2 (V8 m ρ) c _ _ (out2_8 m ρ c) (proj8 m ρ c) n).trans
    (Cert.ReferenceIdeal.RefDense.endStage _ _ _ _ _ _ _ _ n).symm

/-- THE VALUE: after the run the result buffer holds the reference's result term of the launch arguments. -/
theorem result_eq (c : Dev nD) :
    W9 (F := Ideal) m ρ c (Proc.devRef .tc main_v139) = Cert.ReferenceIdeal.Read.val_main_v187 (F := Ideal) (a0 m c) (a1 m c) (a2 m c) (a3 m c) (a4 m c) (a5 m c) (a6 m c) (a7 m c) :=
  (W9_arr m ρ c 2).trans (out3_eq m ρ c)

/-- THE RUN WITH ITS VALUE: every weakly fair execution terminates without a fault, the result buffer holds the
    reference's result term of the launch arguments, and the eight argument arrays end as launched. -/
theorem run_value : θ_run defs (onTc (τ := τ) (main (F := Ideal))) ⟨m, fun _ => 0, ρ⟩ (fun r => ∀ c : Dev nD,
      r.2.mem ((c.tc : Thread nD τ).loc main_v139) = Cert.ReferenceIdeal.Read.val_main_v187 (F := Ideal) (a0 m c) (a1 m c) (a2 m c) (a3 m c) (a4 m c) (a5 m c) (a6 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    have key : ∀ b : Ref sig .tc, IsArg b → r.2.mem ((c.tc : Thread nD τ).loc b) = m ((c.tc : Thread nD τ).loc b) := fun b hb => by
      have hu : ¬ (Proc.devRef .tc b : DevRef τ sig).isScoped := by
        rcases hb with h | h | h | h | h | h | h | h <;> subst h <;> decide
      exact (h c _ (mem_uc b hu)).trans (W9_arg m ρ c b hb)
    ⟨(h c _ (mem_uc main_v139 (by decide))).trans (result_eq m ρ c),
      key _ (.inl rfl), key _ (.inr (.inl rfl)), key _ (.inr (.inr (.inl rfl))), key _ (.inr (.inr (.inr (.inl rfl)))), key _ (.inr (.inr (.inr (.inr (.inl rfl))))), key _ (.inr (.inr (.inr (.inr (.inr (.inl rfl)))))), key _ (.inr (.inr (.inr (.inr (.inr (.inr (.inl rfl))))))), key _ (.inr (.inr (.inr (.inr (.inr (.inr (.inr rfl)))))))⟩)
    (run_main m ρ)

end Cert.KernelIdeal.Hand

end
-- ==== Proof.lean ====
/-
  The proof of `Cert.Claim`.  The kernel computes a two-layer graph convolution with four propagation hops per layer
  and a final sigmoid projection.  Its sparse part — the degree normalisation and the hops, gathers and scatter-adds
  over the edge list — is the reference's own sequence of operations; its dense part runs on the TensorCore in three
  regions: each layer multiplies the five hop tables, laid side by side along the channel axis, by the five weight
  matrices stacked along the same axis, in ONE product per block of 10000 nodes, where the reference multiplies
  table by table and adds the five products from the left.  On the extended reals the two are one finite sum,
  regrouped (commutativity and associativity of addition only), so the claim needs nothing of the precondition.
  Frames: each program terminates without a fault and leaves its eight argument arrays as launched — no host
  operation and no region writes an argument (`Proof/K/Run.lean`, `Proof/KI/Run.lean`; the reference's from its run).
  The idealization rewrote no operation, so `preserves` has nothing to state.
-/
import proofs.«166631_j6399501271545_1_alg».proof.Defs
import proofs.«166631_j6399501271545_1_alg».proof.Proof.Gen.Kernel
import proofs.«166631_j6399501271545_1_alg».proof.Proof.Gen.KernelIdeal
import proofs.«166631_j6399501271545_1_alg».proof.Proof.Gen.ReferenceIdeal
import proofs.«166631_j6399501271545_1_alg».proof.Proof.Gen.ReferenceIdeal.Run
import proofs.«166631_j6399501271545_1_alg».proof.Proof.Gen.ReferenceIdeal.Read
import proofs.«166631_j6399501271545_1_alg».proof.Proof.Gen.Pre_finite_inputs
import proofs.«166631_j6399501271545_1_alg».proof.Proof.K.Run
import proofs.«166631_j6399501271545_1_alg».proof.Proof.KI.Run
import proofs.«166631_j6399501271545_1_alg».proof.Proof.KI.Value
import Idealize.ShloMosaic.Adequacy
import Idealize.ShloMosaic.Init

noncomputable section

namespace Cert.Proof

open Idealize.ShloMosaic Idealize.SL.Sem

theorem frame_k : Cert.frame_Kernel :=
  fun m ρ _ => Cert.Kernel.Hand.frame (F := Bits) m ρ

theorem frame_ki : Cert.frame_KernelIdeal :=
  fun m ρ _ => Cert.KernelIdeal.Hand.frame (F := Ideal) m ρ

theorem frame_ri : Cert.frame_ReferenceIdeal :=
  fun m ρ _ => (θ_run Cert.ReferenceIdeal.defs _ _).mono (fun _ h c => (h c).2) (Cert.ReferenceIdeal.Value.run (F := Ideal) m ρ)

/-- From memories agreeing on the arguments both idealized programs run, keep their arguments, and end with one
    result: the kernel's run ends at the reference's result term of ITS launch arguments (`run_value`), the reference's
    at the same term of its own (its generated run, read stage by stage), and the arguments agree. -/
theorem algebraic : Cert.algebraic_KernelIdeal_ReferenceIdeal := by
  intro m ρ m' ρ' _ hagree
  refine ⟨_, Cert.KernelIdeal.Hand.run_value m ρ, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v187_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
